-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S128x256 : Shape := ⟨2, ![128, 256]⟩
abbrev S128 : Shape := ⟨1, ![128]⟩
abbrev S256x256 : Shape := ⟨2, ![256, 256]⟩
abbrev S256 : Shape := ⟨1, ![256]⟩
abbrev S256x512 : Shape := ⟨2, ![256, 512]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x512 .f32) (main_arg13 : FVec F S256 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x512 .f32 := Host.absf main_arg12
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x512 .f32) (main_arg9 : FVec F S256 .f32) (main_arg10 : FVec F S256x512 .f32) (main_arg11 : FVec F S256 .f32) (main_arg12 : FVec F S256x512 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg11 main_arg12 main_arg13 main_v48 main_v49 main_v50

def fn_part1 {F : FTy → Type} [FloatOps F] (main_arg4 : FVec F S128x256 .f32) (main_arg5 : FVec F S128 .f32) (main_arg6 : FVec F S256x256 .f32) (main_arg7 : FVec F S256 .f32) (main_arg8 : FVec F S256x512 .f32) (main_arg9 : FVec F S256 .f32) (main_arg10 : FVec F S256x512 .f32) (main_arg11 : FVec F S256 .f32) (main_arg12 : FVec F S256x512 .f32) (main_arg13 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8x2048x256 .f32) (main_arg1 : FVec F S8x2048x256 .f32) (main_arg2 : FVec F S128x256 .f32) (main_arg3 : FVec F S128 .f32) (main_arg4 : FVec F S128x256 .f32) (main_arg5 : FVec F S128 .f32) (main_arg6 : FVec F S256x256 .f32) (main_arg7 : FVec F S256 .f32) (main_arg8 : FVec F S256x512 .f32) (main_arg9 : FVec F S256 .f32) (main_arg10 : FVec F S256x512 .f32) (main_arg11 : FVec F S256 .f32) (main_arg12 : FVec F S256x512 .f32) (main_arg13 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x2048x256 : Shape := ⟨3, ![8, 2048, 256]⟩
abbrev S128x256 : Shape := ⟨2, ![128, 256]⟩
abbrev S128 : Shape := ⟨1, ![128]⟩
abbrev S256x256 : Shape := ⟨2, ![256, 256]⟩
abbrev S256 : Shape := ⟨1, ![256]⟩
abbrev S256x512 : Shape := ⟨2, ![256, 512]⟩
abbrev S8x2048x2048 : Shape := ⟨3, ![8, 2048, 2048]⟩
abbrev S1x512x256 : Shape := ⟨3, ![1, 512, 256]⟩
abbrev S1x2048x256 : Shape := ⟨3, ![1, 2048, 256]⟩
abbrev S1x512x2048 : Shape := ⟨3, ![1, 512, 2048]⟩
abbrev S2048x128 : Shape := ⟨2, ![2048, 128]⟩
abbrev S2048x256 : Shape := ⟨2, ![2048, 256]⟩
abbrev S256x128 : Shape := ⟨2, ![256, 128]⟩
abbrev S1x128 : Shape := ⟨2, ![1, 128]⟩
abbrev S512x256 : Shape := ⟨2, ![512, 256]⟩
abbrev S512x128 : Shape := ⟨2, ![512, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1x256 : Shape := ⟨2, ![1, 256]⟩

abbrev nBuf : Space → Nat
  | .hbm => 16
  | .vmem => 21
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S256x512, .f32⟩
  | .hbm, ⟨13, _⟩ => ⟨S256, .f32⟩
  | .hbm, ⟨14, _⟩ => ⟨S8x2048x256, .f32⟩
  | .hbm, ⟨15, _⟩ => ⟨S8x2048x2048, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x2048x256, .f32⟩
  | .local _ .vmem, ⟨5, _⟩ => ⟨S1x2048x256, .f32⟩
  | .local _ .vmem, ⟨6, _⟩ => ⟨S128x256, .f32⟩
  | .local _ .vmem, ⟨7, _⟩ => ⟨S128, .f32⟩
  | .local _ .vmem, ⟨8, _⟩ => ⟨S128x256, .f32⟩
  | .local _ .vmem, ⟨9, _⟩ => ⟨S128, .f32⟩
  | .local _ .vmem, ⟨10, _⟩ => ⟨S256x512, .f32⟩
  | .local _ .vmem, ⟨11, _⟩ => ⟨S256, .f32⟩
  | .local _ .vmem, ⟨12, _⟩ => ⟨S256x512, .f32⟩
  | .local _ .vmem, ⟨13, _⟩ => ⟨S256, .f32⟩
  | .local _ .vmem, ⟨14, _⟩ => ⟨S256x512, .f32⟩
  | .local _ .vmem, ⟨15, _⟩ => ⟨S256, .f32⟩
  | .local _ .vmem, ⟨16, _⟩ => ⟨S1x512x256, .f32⟩
  | .local _ .vmem, ⟨17, _⟩ => ⟨S1x512x256, .f32⟩
  | .local _ .vmem, ⟨18, _⟩ => ⟨S1x512x2048, .f32⟩
  | .local _ .vmem, ⟨19, _⟩ => ⟨S1x512x2048, .f32⟩
  | .local _ .vmem, ⟨20, _⟩ => ⟨S2048x128, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  broadcasts_S1x128_S512x128 : S1x128.Broadcasts S512x128
  transposes_S2048x128_p1_0_S128x2048 : S2048x128.Transposes [1, 0] S128x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  concatenates_S512x256_S512x256_S512x512_d1 : Shape.Concatenates [S512x256, S512x256] S512x512 1
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  shapeCasts_S512x256_S1x512x256 : S512x256.ShapeCasts S1x512x256
  dot_S2048x256_S256x128_S2048x128_1_0_0_1_n_n_wf : DotDims.WF S2048x256 S256x128 S2048x128 [1] [0] [0] [1] [] []
  dot_S512x256_S256x128_S512x128_1_0_0_1_n_n_wf : DotDims.WF S512x256 S256x128 S512x128 [1] [0] [0] [1] [] []
  dot_S512x128_S128x2048_S512x2048_1_0_0_1_n_n_wf : DotDims.WF S512x128 S128x2048 S512x2048 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x2048x256.size a
  hwx0_1 : ∀ i : grid0.Coords, EltTy.bits .f32 = 32 ∨ (Rect.block (s := S8x2048x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x256.size a
  hwx0_2 : ∀ i : grid0.Coords, EltTy.bits .f32 = 32 ∨ (Rect.block (s := S8x2048x256) S1x2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .f32 = 32 ∨ (Rect.block (s := S256x512) S256x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S256x512.size a
  hwx0_11 : ∀ i : grid0.Coords, EltTy.bits .f32 = 32 ∨ (Rect.block (s := S256x512) S256x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x256.size a ≤ S8x2048x256.size a
  hwx0_13 : ∀ i : grid0.Coords, EltTy.bits .f32 = 32 ∨ (Rect.block (s := S8x2048x256) S1x512x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512x2048.size a ≤ S8x2048x2048.size a
  hwx0_14 : ∀ i : grid0.Coords, EltTy.bits .f32 = 32 ∨ (Rect.block (s := S8x2048x2048) S1x512x2048.size (cc0_transform_14 i) (hinb0_14 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S256x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_0) S1x512x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S1x512x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S128x256 : Shape := ⟨2, ![128, 256]⟩
abbrev S128 : Shape := ⟨1, ![128]⟩
abbrev S256x256 : Shape := ⟨2, ![256, 256]⟩
abbrev S256 : Shape := ⟨1, ![256]⟩
abbrev S256x512 : Shape := ⟨2, ![256, 512]⟩
abbrev S8x2048x128 : Shape := ⟨3, ![8, 2048, 128]⟩
abbrev S1x1x128 : Shape := ⟨3, ![1, 1, 128]⟩
abbrev S1x1x256 : Shape := ⟨3, ![1, 1, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x512 : Shape := ⟨3, ![8, 2048, 512]⟩

abbrev nBuf : Space → Nat
  | .hbm => 80
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256, .f32⟩
  | .hbm, ⟨12, _⟩ => ⟨S256x512, .f32⟩
  | .hbm, ⟨13, _⟩ => ⟨S256, .f32⟩
  | .hbm, ⟨14, _⟩ => ⟨S8x2048x128, .f32⟩
  | .hbm, ⟨15, _⟩ => ⟨S1x1x128, .f32⟩
  | .hbm, ⟨16, _⟩ => ⟨S8x2048x128, .f32⟩
  | .hbm, ⟨17, _⟩ => ⟨S8x2048x128, .f32⟩
  | .hbm, ⟨18, _⟩ => ⟨S8x2048x128, .f32⟩
  | .hbm, ⟨19, _⟩ => ⟨S1x1x128, .f32⟩
  | .hbm, ⟨20, _⟩ => ⟨S8x2048x128, .f32⟩
  | .hbm, ⟨21, _⟩ => ⟨S8x2048x128, .f32⟩
  | .hbm, ⟨22, _⟩ => ⟨S8x2048x256, .f32⟩
  | .hbm, ⟨23, _⟩ => ⟨S1x1x256, .f32⟩
  | .hbm, ⟨24, _⟩ => ⟨S8x2048x256, .f32⟩
  | .hbm, ⟨25, _⟩ => ⟨S8x2048x256, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x256, .f32⟩
  | .hbm, ⟨42, _⟩ => ⟨S8x2048x512, .f32⟩
  | .hbm, ⟨43, _⟩ => ⟨S8x2048x256, .f32⟩
  | .hbm, ⟨44, _⟩ => ⟨S1x1x256, .f32⟩
  | .hbm, ⟨45, _⟩ => ⟨S8x2048x256, .f32⟩
  | .hbm, ⟨46, _⟩ => ⟨S8x2048x256, .f32⟩
  | .hbm, ⟨47, _⟩ => ⟨S8x2048x256, .f32⟩
  | .hbm, ⟨48, _⟩ => ⟨S8x2048x256, .f32⟩
  | .hbm, ⟨49, _⟩ => ⟨S_, .f32⟩
  | .hbm, ⟨50, _⟩ => ⟨S8x2048x256, .f32⟩
  | .hbm, ⟨51, _⟩ => ⟨S8x2048x256, .f32⟩
  | .hbm, ⟨52, _⟩ => ⟨S_, .f32⟩
  | .hbm, ⟨53, _⟩ => ⟨S8x2048x256, .f32⟩
  | .hbm, ⟨54, _⟩ => ⟨S8x2048x256, .f32⟩
  | .hbm, ⟨55, _⟩ => ⟨S8x2048x256, .f32⟩
  | .hbm, ⟨56, _⟩ => ⟨S1x1x256, .f32⟩
  | .hbm, ⟨57, _⟩ => ⟨S8x2048x256, .f32⟩
  | .hbm, ⟨58, _⟩ => ⟨S8x2048x256, .f32⟩
  | .hbm, ⟨59, _⟩ => ⟨S8x2048x256, .f32⟩
  | .hbm, ⟨60, _⟩ => ⟨S8x2048x256, .f32⟩
  | .hbm, ⟨61, _⟩ => ⟨S_, .f32⟩
  | .hbm, ⟨62, _⟩ => ⟨S8x2048x256, .f32⟩
  | .hbm, ⟨63, _⟩ => ⟨S8x2048x256, .f32⟩
  | .hbm, ⟨64, _⟩ => ⟨S_, .f32⟩
  | .hbm, ⟨65, _⟩ => ⟨S8x2048x256, .f32⟩
  | .hbm, ⟨66, _⟩ => ⟨S8x2048x256, .f32⟩
  | .hbm, ⟨67, _⟩ => ⟨S8x2048x256, .f32⟩
  | .hbm, ⟨68, _⟩ => ⟨S8x2048x512, .f32⟩
  | .hbm, ⟨69, _⟩ => ⟨S8x2048x256, .f32⟩
  | .hbm, ⟨70, _⟩ => ⟨S1x1x256, .f32⟩
  | .hbm, ⟨71, _⟩ => ⟨S8x2048x256, .f32⟩
  | .hbm, ⟨72, _⟩ => ⟨S8x2048x256, .f32⟩
  | .hbm, ⟨73, _⟩ => ⟨S8x2048x256, .f32⟩
  | .hbm, ⟨74, _⟩ => ⟨S_, .f32⟩
  | .hbm, ⟨75, _⟩ => ⟨S8x2048x256, .f32⟩
  | .hbm, ⟨76, _⟩ => ⟨S8x2048x256, .f32⟩
  | .hbm, ⟨77, _⟩ => ⟨S8x2048x256, .f32⟩
  | .hbm, ⟨78, _⟩ => ⟨S8x2048x256, .f32⟩
  | .hbm, ⟨79, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x256_S8x2048x256_S8x2048x512_d2 : Shape.Concatenates [S8x2048x256, S8x2048x256] S8x2048x512 2
  bcast_S_S8x2048x256 : S_.BroadcastsInDim S8x2048x256 (![] : Fin 0 → Fin S8x2048x256.rank)
  dot_S8x2048x256_S128x256_S8x2048x128_2_1_01_0_n_n_wf : DotDims.WF S8x2048x256 S128x256 S8x2048x128 [2] [1] [0, 1] [0] [] []
  dot_S8x2048x256_S256x256_S8x2048x256_2_1_01_0_n_n_wf : DotDims.WF S8x2048x256 S256x256 S8x2048x256 [2] [1] [0, 1] [0] [] []
  dot_S8x2048x128_S8x2048x128_S8x2048x2048_2_2_1_1_0_0_wf : DotDims.WF S8x2048x128 S8x2048x128 S8x2048x2048 [2] [2] [1] [1] [0] [0]
  dot_S8x2048x2048_S8x2048x256_S8x2048x256_2_1_1_2_0_0_wf : DotDims.WF S8x2048x2048 S8x2048x256 S8x2048x256 [2] [1] [1] [2] [0] [0]
  dot_S8x2048x512_S256x512_S8x2048x256_2_1_01_0_n_n_wf : DotDims.WF S8x2048x512 S256x512 S8x2048x256 [2] [1] [0, 1] [0] [] []

variable [Facts₀]

def dot_S8x2048x256_S128x256_S8x2048x128_2_1_01_0_n_n : DotDims S8x2048x256 S128x256 S8x2048x128 where
  lhsContracting := [2]
  rhsContracting := [1]
  lhsNonContracting := [0, 1]
  rhsNonContracting := [0]
  lhsBatch := []
  rhsBatch := []
  wf := dot_S8x2048x256_S128x256_S8x2048x128_2_1_01_0_n_n_wf
def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x512_S256x512_S8x2048x256_2_1_01_0_n_n : DotDims S8x2048x512 S256x512 S8x2048x256 where
  lhsContracting := [2]
  rhsContracting := [1]
  lhsNonContracting := [0, 1]
  rhsNonContracting := [0]
  lhsBatch := []
  rhsBatch := []
  wf := dot_S8x2048x512_S256x512_S8x2048x256_2_1_01_0_n_n_wf

class Facts : Prop extends Facts₀ where

variable [Facts]
-- ==== Proof.FrameKitW.lean ====
/-
  What the frame of the memory-update kernel starts from: what the region finds in each buffer when it is entered, each window's
  block at a grid point read off its array, the one branch of the body decided over the grid, and the fact that an input
  window's staging buffer holds the window's block at every point, whether or not the block was fetched there.

  The grid has 8 * 4 points, point t = 4 * b + q for batch b and query tile q. The body's one branch asks whether q = 0;
  it holds exactly at the points divisible by 4. Inputs: the x tile (window 0) and the previous-memory tile (window 1)
  move at every point; the whole previous memory of a batch (window 2, on the same array as window 1) moves when the
  batch changes; the ten weight and bias arrays (windows 3 to 12) are fetched once.
-/
import proofs.«134565_j22926535426539_1_alg».proof.Proof.Gen.Kernel.Launch
import proofs.«134565_j22926535426539_1_alg».proof.Proof.Gen.Kernel.Skeleton
import proofs.«134565_j22926535426539_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The contents of core `c`'s buffers when the region is entered: the launch contents (the program is the region alone). -/
abbrev V (c : Dev nD) (b : Ref sig .tc) : Buf (Elt F) ((c : Thread nD τ).loc b) := m ((c : Thread nD τ).loc b)

/-- The program is its one region. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input's staging buffer holds its block at every point

For proof data whose array is the region-entry contents and whose body leaves the block in place, an input window's
current staging buffer holds the window's block at the point: fetched there it is the block; not fetched, the block's
index has not moved since the point before, whose block it still holds. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: is the query-tile coordinate zero? -/
abbrev cond0 (i : grid0.Coords) : Prop := (Scalar.cmpi .ne (Scalar.extui (Scalar.cmpi .eq (BitVec.ofNat 32 (i 1).val) 0#32)) 0#32) = 1#1

/-- It holds exactly at the points divisible by 4 (the first tile of each batch): decided over the 32 points. -/
theorem hcond0 : ∀ t : Fin cfg0.N, cond0 (grid0.coords t) ↔ t.val % 4 = 0 :=
  (by decide +kernel : ∀ t : Fin grid0.N, cond0 (grid0.coords t) ↔ t.val % 4 = 0)

/-- No window is ever idle: the body loads every input and stores both outputs at every point. -/
theorem live (w : Fin cfg0.W) (i : grid0.Coords) : cfg0.idle w i = false := rfl

/-! ## The staging memrefs at a point, and the scratch -/
abbrev ms0 (t : Fin cfg0.N) : Memref sig .tc .vmem S1x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x512x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x512x2048 .f32 := win0_14.stage (cfg0.slots t 14)
abbrev hs14 (t : Fin cfg0.N) : (ms14 t).IsWhole := hstage0_14 ((cfg0.slots t 14).cast nbuf0_14)

/-- The scratch the kernel keeps the key block in: a whole scoped buffer of its own, passed beside the windows. -/
abbrev scM : Memref sig .tc .vmem S2048x128 .f32 := Memref.whole cc0_scratch0

/-- What the launch hands the region of the core's own scoped buffers is the scratch, owned at some contents. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.LibPieceRead.lean ====
/-
  Reading a buffer after a list of stores, newest first, one store at a time.

  A store through the whole shape hides everything before it: the buffer then reads the store's payload. A store
  through a unit-stride rectangle patches the buffer: inside the rectangle it reads the payload at the index minus
  the offsets, outside it reads what the earlier stores left. Program-free.
-/
import Idealize.ShloMosaic.Lib.WritesUnit
import Idealize.ShloMosaic.Lib.Pipeline.Value
import Idealize.ShloMosaic.Lib.Pipeline.FrameBody

namespace Idealize.ShloMosaic

namespace View

variable {sig : RefSig} {κ : Kind} {sp : Space} {S : Shape} {e : EltTy} {Val : EltTy → Type}

/-- After a newest store through the whole shape (offsets zero, however spelt) the buffer reads its payload. -/
theorem read_writes_cons_whole (v : View sig κ sp S e) (f : v.ty.Contents Val) {off : Fin S.rank → ℕ}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  subst h; funext y
  have e := read_writes_cons_emb v f (Rect.whole S) w L y
  rw [Rect.emb_whole_apply] at e
  exact e

/-- Contents `X` patched by a payload `w` on the unit-stride rectangle of sizes `size` at offsets `off`. -/
def patch (off size : Fin S.rank → ℕ) (w : ((a : Fin S.rank) → Fin (size a)) → Val e) (X : S.Idx → Val e) : S.Idx → Val e :=
  fun y => if h : ∀ a, off a ≤ (y a).val ∧ (y a).val < off a + size a then w (Rect.unitLocal y h) else X y

/-- After a newest store through a unit-stride rectangle the buffer reads the earlier contents patched by it. -/
theorem read_writes_cons_patch (v : View sig κ sp S e) (f : v.ty.Contents Val) {off size : Fin S.rank → ℕ}
    (inb : ∀ a, off a + size a ≤ S.size a) (w : (Rect.unit off size inb).shape.Idx → Val e) (L : List (Piece Val S e)) :
    v.read Val (v.writes Val f ((⟨Rect.unit off size inb, w⟩ : Piece Val S e) :: L))
      = patch off size w (v.read Val (v.writes Val f L)) :=
  funext fun y => read_writes_cons_unit v f inb w L y rfl

/-- Inside the rectangle the patch reads the payload. -/
theorem patch_of_mem {off size : Fin S.rank → ℕ} (w : ((a : Fin S.rank) → Fin (size a)) → Val e) (X : S.Idx → Val e) (y : S.Idx)
    (h : ∀ a, off a ≤ (y a).val ∧ (y a).val < off a + size a) : patch off size w X y = w (Rect.unitLocal y h) := dif_pos h

/-- Outside it the earlier contents. -/
theorem patch_of_not_mem {off size : Fin S.rank → ℕ} (w : ((a : Fin S.rank) → Fin (size a)) → Val e) (X : S.Idx → Val e) (y : S.Idx)
    (h : ¬∀ a, off a ≤ (y a).val ∧ (y a).val < off a + size a) : patch off size w X y = X y := dif_neg h

end View

end Idealize.ShloMosaic
-- ==== Proof.FrameRunsW.lean ====
/-
  The memory-update kernel's body, run once in each of its two cases, on any whole staging buffers.

  Case "first tile" (the branch taken): the body loads the batch's whole previous memory, the key weights and bias,
  stores the key block whole into the scratch, and goes on as in the other case with the scratch now at that block.
  Case "later tile" (the branch not taken): the scratch is read as it was left.
  In both, the body loads the x tile, the previous-memory tile, the query weights and bias and the scratch, stores the
  attention-weights tile whole; loads the six gate arrays and stores the new-memory tile whole; every input buffer is
  left as it was. Each store is through the whole shape at zero offsets, so a buffer stored into reads back the stored
  value, and a load through the whole shape of a buffer reads its contents.
-/
import proofs.«134565_j22926535426539_1_alg».proof.Proof.FrameKitW
import proofs.«134565_j22926535426539_1_alg».proof.Proof.LibPieceRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-shape loads and stores -/

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- A load through the whole shape of a whole buffer that reads `x` reads `x`. -/
theorem load_whole_unread {S : Shape} {e : EltTy} {M : Memref sig .tc .vmem S e} (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread]; exact View.ld_unit_zero hz inb x

/-! ## The first tile of a batch -/

set_option maxHeartbeats 4000000 in
/-- From the inputs at their contents, the two result buffers and the scratch at anything, the body runs to: the inputs as
    they were, the scratch at the key block of the whole previous memory, the attention-weights buffer at its payload over
    that block, the new-memory buffer at its payload. -/
theorem kernelRun_first (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x2048x256 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S256x512 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S1x512x256 .f32) (harg15 : arg15.IsWhole) (arg16 : Memref sig .tc .vmem S1x512x2048 .f32) (harg16 : arg16.IsWhole) (arg17 : Memref sig .tc .vmem S2048x128 .f32) (harg17 : arg17.IsWhole) (hc : cond0 i)
    (x0 : Vec F S1x512x256 .f32) (x1 : Vec F S1x512x256 .f32) (x2 : Vec F S1x2048x256 .f32) (x3 : Vec F S128x256 .f32) (x4 : Vec F S128 .f32) (x5 : Vec F S128x256 .f32) (x6 : Vec F S128 .f32) (x7 : Vec F S256x512 .f32) (x8 : Vec F S256 .f32) (x9 : Vec F S256x512 .f32) (x10 : Vec F S256 .f32) (x11 : Vec F S256x512 .f32) (x12 : Vec F S256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
              ∗ owns (c : Thread nD τ) arg15 fullShare (k0_pay1 (k0_pay3 x0) (k0_pay4 x1) x7 x8 x9 x10 x11 x12)
              ∗ owns (c : Thread nD τ) arg16 fullShare (k0_pay5 x0 x3 x4 (k0_pay2 x2 x5 x6))
              ∗ owns (c : Thread nD τ) arg17 fullShare (k0_pay2 x2 x5 x6)) -∗ K ⟨⟩))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hf12
  sl_exec (disch := first | exact hc)
  sl_step
  sl_unfold_run_names
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    · ipureintro; exact harg13.read_unread _
    iexact H11
  isplitl [H12]
  · iexists _; isplitr
    · ipureintro; exact harg14.read_unread _
    iexact H12
  isplitl [H13]
  · iexists _; isplitr; swap
    · iexact H13
    ipureintro
    refine (View.read_writes_cons_whole arg15.view f13 hz3 _ _ []).trans ?_
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]
  isplitl [H14]
  · iexists _; isplitr; swap
    · iexact H14
    ipureintro
    refine (View.read_writes_cons_whole arg16.view f14 hz3 _ _ []).trans ?_
    rw [View.readCov_unit_zero arg17.view hz2]
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]
  iexists _; isplitr; swap
  · iexact HS
  ipureintro
  refine (View.read_writes_cons_whole arg17.view fs hz2 _ _ []).trans ?_
  simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]

/-! ## A later tile of the batch -/

set_option maxHeartbeats 4000000 in
/-- From the inputs at their contents, the two result buffers at anything and the scratch at `xs`, the body runs to: the
    inputs and the scratch as they were, the attention-weights buffer at its payload over `xs`, the new-memory buffer at
    its payload. -/
theorem kernelRun_later (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x2048x256 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S256x512 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S1x512x256 .f32) (harg15 : arg15.IsWhole) (arg16 : Memref sig .tc .vmem S1x512x2048 .f32) (harg16 : arg16.IsWhole) (arg17 : Memref sig .tc .vmem S2048x128 .f32) (harg17 : arg17.IsWhole) (hc : ¬cond0 i)
    (x0 : Vec F S1x512x256 .f32) (x1 : Vec F S1x512x256 .f32) (x2 : Vec F S1x2048x256 .f32) (x3 : Vec F S128x256 .f32) (x4 : Vec F S128 .f32) (x5 : Vec F S128x256 .f32) (x6 : Vec F S128 .f32) (x7 : Vec F S256x512 .f32) (x8 : Vec F S256 .f32) (x9 : Vec F S256x512 .f32) (x10 : Vec F S256 .f32) (x11 : Vec F S256x512 .f32) (x12 : Vec F S256 .f32) (xs : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ owns (c : Thread nD τ) arg17 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
              ∗ owns (c : Thread nD τ) arg15 fullShare (k0_pay1 (k0_pay3 x0) (k0_pay4 x1) x7 x8 x9 x10 x11 x12)
              ∗ owns (c : Thread nD τ) arg16 fullShare (k0_pay5 x0 x3 x4 xs)
              ∗ owns (c : Thread nD τ) arg17 fullShare xs) -∗ K ⟨⟩))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hf12
  obtain rfl := harg17.eq_unread hfs
  sl_exec (disch := first | exact hc)
  sl_step
  sl_unfold_run_names
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    · ipureintro; exact harg13.read_unread _
    iexact H11
  isplitl [H12]
  · iexists _; isplitr
    · ipureintro; exact harg14.read_unread _
    iexact H12
  isplitl [H13]
  · iexists _; isplitr; swap
    · iexact H13
    ipureintro
    refine (View.read_writes_cons_whole arg15.view f13 hz3 _ _ []).trans ?_
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]
  isplitl [H14]
  · iexists _; isplitr; swap
    · iexact H14
    ipureintro
    refine (View.read_writes_cons_whole arg16.view f14 hz3 _ _ []).trans ?_
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1, load_whole_unread harg17 hz2]
  iexists _; isplitr
  · ipureintro; exact harg17.read_unread _
  iexact HS

end Cert.Kernel.Hand

end
-- ==== Proof.LibSharedFrame.lean ====
/-
  The frame run of a one-region pipeline program whose windows may share an array.

  When a kernel is handed one array through several input windows, the buffers behind the windows' arrays are fewer than
  the windows, and the full share of a shared buffer has to be dealt among the windows on it. The statement below is the
  frame run with a tracked invariant for that case: the certificate says how the distinct buffers, each whole at the full
  share at the contents the region finds, make the proof data's arrays at entry (the hypothesis on the split), the
  invariant is entered from the core's scoped buffers that are no staging buffer (the kernel's scratch, at any contents)
  and returns them after the last point, and the conclusion is the usual one: every window's array holds what the proof
  data compute after the last write-back, and every unscoped buffer that is no window's array holds what it held when the
  region was entered. Nothing here depends on a program.
-/
import Idealize.ShloMosaic.Lib.Pipeline.Frame

noncomputable section

namespace SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

/-- The frame run, with a tracked invariant, of a pipeline whose windows may share arrays: `hsplit` deals the buffers
    behind the arrays among the windows, `hin` enters the invariant from the scratch at any contents, `hout` gives the
    scratch back. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end SharedFrame

end
-- ==== Proof.FrameW.lean ====
/-
  The frame of the memory-update kernel, and what its two result arrays hold afterwards.

  The kernel keeps the key block of the current batch in a scratch buffer: at the first query tile of a batch (the points
  divisible by 4) it computes the block from the batch's whole previous memory and stores it; at the other three tiles
  of the batch it only reads it. So the scratch after point n holds the key block computed at the last point at or
  below n that is divisible by 4 — stated here by recursion on the point. The region invariant is: before the first
  point the scratch at anything, afterwards the scratch at that block.

  Both result tiles are stored whole at every point: the new-memory tile from the x tile, the previous-memory tile and
  the gate weights; the attention-weights tile from the x tile, the query weights and the scratch.

  The previous-memory array is read through two windows (a tile of it, and a whole batch of it), so its buffer's full
  share is dealt in two halves, one to each window.
-/
import proofs.«134565_j22926535426539_1_alg».proof.Proof.FrameRunsW
import proofs.«134565_j22926535426539_1_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch after each point -/

/-- What the scratch holds after the body at position `n`: the key block of the batch's whole previous memory, computed
    at the last point at or below `n` divisible by 4. -/
def scrAt (c : Dev nD) : (n : ℕ) → n < cfg0.N → Vec F S2048x128 .f32
  | 0, hn => k0_pay2 (iblk m c 2 ⟨0, hn⟩) (iblk m c 5 ⟨0, hn⟩) (iblk m c 6 ⟨0, hn⟩)
  | n + 1, hn =>
    if (n + 1) % 4 = 0 then k0_pay2 (iblk m c 2 ⟨n + 1, hn⟩) (iblk m c 5 ⟨n + 1, hn⟩) (iblk m c 6 ⟨n + 1, hn⟩)
    else scrAt c n (Nat.lt_of_succ_lt hn)

/-- At the first tile of a batch: the block computed there. -/
theorem scrAt_first (c : Dev nD) (t : Fin cfg0.N) (h : t.val % 4 = 0) :
    scrAt m c t.val t.isLt = k0_pay2 (iblk m c 2 t) (iblk m c 5 t) (iblk m c 6 t) := by
  obtain ⟨n, hn⟩ := t
  cases n with
  | zero => rfl
  | succ n => exact (if_pos h).trans rfl

/-- At a later tile of the batch: what the point before left. -/
theorem scrAt_later (c : Dev nD) (t : Fin cfg0.N) (h : ¬t.val % 4 = 0) :
    scrAt m c t.val t.isLt = scrAt m c (t.val - 1) (Nat.lt_of_le_of_lt (Nat.sub_le _ _) t.isLt) := by
  obtain ⟨n, hn⟩ := t
  cases n with
  | zero => exact absurd (Nat.zero_mod _) h
  | succ n => exact (if_neg h).trans rfl

/-! ## The region invariant -/

/-- Before the first point: the scratch at anything (what the launch hands over). Before any later point: the scratch at
    what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (scrAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (scrAt m c n hn) := rfl

theorem PhiS_pos (c : Dev nD) (n : ℕ) (h : n ≤ cfg0.N) (hz : n ≠ 0) :
    PhiS m c n h = owns (c : Thread nD τ) scM fullShare (scrAt m c (n - 1) (by omega)) := by
  cases n with
  | zero => exact absurd rfl hz
  | succ n => rfl

/-! ## The proof data -/

/-- The arrays as the region finds them; after the body at point `t` each input's buffer at its block, the new-memory tile
    and the attention-weights tile at the body's two payloads; the invariant above; nothing owed; the previous-memory
    buffer's full share dealt in halves to the two windows that read it, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => k0_pay1 (k0_pay3 (iblk m c 0 t)) (k0_pay4 (iblk m c 1 t)) (iblk m c 7 t) (iblk m c 8 t) (iblk m c 9 t) (iblk m c 10 t) (iblk m c 11 t) (iblk m c 12 t)
    | ⟨14, _⟩ => k0_pay5 (iblk m c 0 t) (iblk m c 3 t) (iblk m c 4 t) (scrAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t
    = k0_pay1 (k0_pay3 (iblk m c 0 t)) (k0_pay4 (iblk m c 1 t)) (iblk m c 7 t) (iblk m c 8 t) (iblk m c 9 t) (iblk m c 10 t) (iblk m c 11 t) (iblk m c 12 t) := by
  dsimp only [dats]
theorem after_14 (c : Dev nD) (t : Fin cfg0.N) : (dats m 0 c).after 14 t
    = k0_pay5 (iblk m c 0 t) (iblk m c 3 t) (iblk m c 4 t) (scrAt m c t.val t.isLt) := by
  dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation at a generic point -/

/-- What the body is called with at point `t`: the invariant, nothing owed, every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- And what it returns: the invariant at the next point, nothing owed, every current buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves_0 (c : Dev nD) (t : Fin cfg0.N) :
    (dats m 0 c).leavesExact 0 t = owns (c : Thread nD τ) (ms0 t) fullShare ((dats m 0 c).after 0 t) := by
  unfold Dat.leavesExact; rw [live 0 _]
theorem leaves_1 (c : Dev nD) (t : Fin cfg0.N) :
    (dats m 0 c).leavesExact 1 t = owns (c : Thread nD τ) (ms1 t) fullShare ((dats m 0 c).after 1 t) := by
  unfold Dat.leavesExact; rw [live 1 _]
theorem leaves_2 (c : Dev nD) (t : Fin cfg0.N) :
    (dats m 0 c).leavesExact 2 t = owns (c : Thread nD τ) (ms2 t) fullShare ((dats m 0 c).after 2 t) := by
  unfold Dat.leavesExact; rw [live 2 _]
theorem leaves_3 (c : Dev nD) (t : Fin cfg0.N) :
    (dats m 0 c).leavesExact 3 t = owns (c : Thread nD τ) (ms3 t) fullShare ((dats m 0 c).after 3 t) := by
  unfold Dat.leavesExact; rw [live 3 _]
theorem leaves_4 (c : Dev nD) (t : Fin cfg0.N) :
    (dats m 0 c).leavesExact 4 t = owns (c : Thread nD τ) (ms4 t) fullShare ((dats m 0 c).after 4 t) := by
  unfold Dat.leavesExact; rw [live 4 _]
theorem leaves_5 (c : Dev nD) (t : Fin cfg0.N) :
    (dats m 0 c).leavesExact 5 t = owns (c : Thread nD τ) (ms5 t) fullShare ((dats m 0 c).after 5 t) := by
  unfold Dat.leavesExact; rw [live 5 _]
theorem leaves_6 (c : Dev nD) (t : Fin cfg0.N) :
    (dats m 0 c).leavesExact 6 t = owns (c : Thread nD τ) (ms6 t) fullShare ((dats m 0 c).after 6 t) := by
  unfold Dat.leavesExact; rw [live 6 _]
theorem leaves_7 (c : Dev nD) (t : Fin cfg0.N) :
    (dats m 0 c).leavesExact 7 t = owns (c : Thread nD τ) (ms7 t) fullShare ((dats m 0 c).after 7 t) := by
  unfold Dat.leavesExact; rw [live 7 _]
theorem leaves_8 (c : Dev nD) (t : Fin cfg0.N) :
    (dats m 0 c).leavesExact 8 t = owns (c : Thread nD τ) (ms8 t) fullShare ((dats m 0 c).after 8 t) := by
  unfold Dat.leavesExact; rw [live 8 _]
theorem leaves_9 (c : Dev nD) (t : Fin cfg0.N) :
    (dats m 0 c).leavesExact 9 t = owns (c : Thread nD τ) (ms9 t) fullShare ((dats m 0 c).after 9 t) := by
  unfold Dat.leavesExact; rw [live 9 _]
theorem leaves_10 (c : Dev nD) (t : Fin cfg0.N) :
    (dats m 0 c).leavesExact 10 t = owns (c : Thread nD τ) (ms10 t) fullShare ((dats m 0 c).after 10 t) := by
  unfold Dat.leavesExact; rw [live 10 _]
theorem leaves_11 (c : Dev nD) (t : Fin cfg0.N) :
    (dats m 0 c).leavesExact 11 t = owns (c : Thread nD τ) (ms11 t) fullShare ((dats m 0 c).after 11 t) := by
  unfold Dat.leavesExact; rw [live 11 _]
theorem leaves_12 (c : Dev nD) (t : Fin cfg0.N) :
    (dats m 0 c).leavesExact 12 t = owns (c : Thread nD τ) (ms12 t) fullShare ((dats m 0 c).after 12 t) := by
  unfold Dat.leavesExact; rw [live 12 _]
theorem leaves_13 (c : Dev nD) (t : Fin cfg0.N) :
    (dats m 0 c).leavesExact 13 t = owns (c : Thread nD τ) (ms13 t) fullShare ((dats m 0 c).after 13 t) := by
  unfold Dat.leavesExact; rw [live 13 _]
theorem leaves_14 (c : Dev nD) (t : Fin cfg0.N) :
    (dats m 0 c).leavesExact 14 t = owns (c : Thread nD τ) (ms14 t) fullShare ((dats m 0 c).after 14 t) := by
  unfold Dat.leavesExact; rw [live 14 _]

set_option maxHeartbeats 4800000 in
/-- The body at any point. The inputs' buffers hold their blocks; the point is the first tile of its batch or a later one
    (by its residue mod 4); the invariant hands the body the scratch — at anything before the first point, else at what
    the point before left — and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14]
  rw [after_0, after_1, after_2, after_3, after_4, after_5, after_6, after_7, after_8, after_9, after_10, after_11, after_12, after_13, after_14]
  by_cases h0 : t.val % 4 = 0
  · rw [scrAt_first m c t h0]
    by_cases hz : t.val = 0
    · rw [PhiS_castSucc m c t, PhiS_zero m c _ _ hz, scopedRest_scM]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun_first c (grid0.coords t) _ _ _ _ _ _ _ _ _ _ _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS]; · iexact HS
      iintro ⟨H0, H1, H2, H3, H4, H5, H6, H7, H8, H9, H10, H11, H12, H13, H14, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun_first c (grid0.coords t) _ _ _ _ _ _ _ _ _ _ _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS]; · iexists _; iexact HS
      iintro ⟨H0, H1, H2, H3, H4, H5, H6, H7, H8, H9, H10, H11, H12, H13, H14, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  · have hz : t.val ≠ 0 := fun e => h0 (by rw [e])
    rw [scrAt_later m c t h0, PhiS_castSucc m c t, PhiS_pos m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (kernelRun_later c (grid0.coords t) _ _ _ _ _ _ _ _ _ _ _ _ _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (scrAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the invariant -/

/-- What the launch hands the region of the core's own buffers is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_scM]
  iintro HS
  iexists _; iexact HS

/-! ## Dealing the buffers behind the arrays among the windows -/

/-- One window's array from the buffer behind it, at the share the proof data give the window. -/
theorem arr_of_buf (c : Dev nD) (w : Fin cfg0.W) (q : PosShare TreeShare) (hq : (dats m 0 c).share w = q) :
    ((((c : Thread nD τ).loc (Pipeline.arrRef spec0 w)) ↦{q} V m c (Pipeline.arrRef spec0 w)) : sProp 𝕄)
      ⊢ (cfg0.win w).arr.view.loc (c : Thread nD τ) ↦[(cfg0.win w).arr.view.set]{(dats m 0 c).share w} (dats m 0 c).arrAt w 0 := by
  rw [(arr_whole0 w).set_eq_univ, hq]
  exact Idealize.SL.BI.Entails.refl _

/-- The distinct buffers behind the windows' arrays, conjoined one by one: twelve argument arrays (the previous memory
    once, though two windows read it) and the two results. -/
theorem arrBufs_chain (Φ : Ref sig .tc → sProp 𝕄) :
    bigSep (Finset.univ.image (Pipeline.arrRef spec0)) Φ
      = iprop(Φ main_arg0 ∗ Φ main_arg1 ∗ Φ main_arg2 ∗ Φ main_arg3 ∗ Φ main_arg4 ∗ Φ main_arg5 ∗ Φ main_arg8 ∗ Φ main_arg9 ∗ Φ main_arg10 ∗ Φ main_arg11 ∗ Φ main_arg12 ∗ Φ main_arg13 ∗ Φ main_v0_0 ∗ Φ main_v0_1) :=
  bigSep_eq_bigSepL_of_eq [main_arg0, main_arg1, main_arg2, main_arg3, main_arg4, main_arg5, main_arg8, main_arg9, main_arg10, main_arg11, main_arg12, main_arg13, main_v0_0, main_v0_1] (by decide) (by decide) Φ

/-- The fourteen distinct buffers behind the fifteen windows' arrays, each whole at the full share, make the proof data's
    arrays: the previous-memory buffer's share is split in two, a half for the tile window and a half for the
    whole-batch window; every other buffer goes whole to its one window. -/
theorem hsplit (c : Dev nD) :
    (Pipeline.arrBufs spec0 c (V m c) : sProp 𝕄) ⊢ (dats m 0 c).arrays ((dats m 0 c).arrAt · 0) := by
  unfold Pipeline.arrBufs Dat.arrays
  rw [arrBufs_chain, bigSep_W0]
  iintro ⟨Ha0, Ha1, Ha2, Ha3, Ha4, Ha5, Ha8, Ha9, Ha10, Ha11, Ha12, Ha13, Hv0, Hv1⟩
  ihave Ha1' := (pointsTo_share (PosShare.mem_left_op_right fullShare)).1 $$ Ha1
  icases Ha1' with ⟨Ha1l, Ha1r⟩
  isplitl [Ha0]; · iapply (arr_of_buf m c 0 fullShare rfl); iexact Ha0
  isplitl [Ha1l]; · iapply (arr_of_buf m c 1 fullShare.left rfl); iexact Ha1l
  isplitl [Ha1r]; · iapply (arr_of_buf m c 2 fullShare.right rfl); iexact Ha1r
  isplitl [Ha2]; · iapply (arr_of_buf m c 3 fullShare rfl); iexact Ha2
  isplitl [Ha3]; · iapply (arr_of_buf m c 4 fullShare rfl); iexact Ha3
  isplitl [Ha4]; · iapply (arr_of_buf m c 5 fullShare rfl); iexact Ha4
  isplitl [Ha5]; · iapply (arr_of_buf m c 6 fullShare rfl); iexact Ha5
  isplitl [Ha8]; · iapply (arr_of_buf m c 7 fullShare rfl); iexact Ha8
  isplitl [Ha9]; · iapply (arr_of_buf m c 8 fullShare rfl); iexact Ha9
  isplitl [Ha10]; · iapply (arr_of_buf m c 9 fullShare rfl); iexact Ha10
  isplitl [Ha11]; · iapply (arr_of_buf m c 10 fullShare rfl); iexact Ha11
  isplitl [Ha12]; · iapply (arr_of_buf m c 11 fullShare rfl); iexact Ha12
  isplitl [Ha13]; · iapply (arr_of_buf m c 12 fullShare rfl); iexact Ha13
  isplitl [Hv0]; · iapply (arr_of_buf m c 13 fullShare rfl); iexact Hv0
  iapply (arr_of_buf m c 14 fullShare rfl); iexact Hv1

/-! ## The run and the frame -/

set_option backward.isDefEq.respectTransparency.types false in
/-- Every weakly fair execution of the program terminates, and every final state has every window's array at what the
    library computes from the proof data and every other unscoped buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- THE FRAME: the program runs to the end, faults nowhere, and leaves its fourteen argument arrays as they were — a
    staged argument because an input window's array is never written, the two arguments no window stages because the
    region touches no other unscoped buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      ((h c).1 0).trans (((dats m 0 c).arrAt_in 0 rfl _).trans (A_eq m c 0)),
      ((h c).1 1).trans (((dats m 0 c).arrAt_in 1 rfl _).trans (A_eq m c 1)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      (h c).2 main_arg6 (by decide),
      (h c).2 main_arg7 (by decide),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12))⟩) (run_main m ρ)

end Cert.Kernel.Hand

end
-- ==== Proof.FrameKitI.lean ====
/-
  What the frame of the memory-update kernel starts from: what the region finds in each buffer when it is entered, each window's
  block at a grid point read off its array, the one branch of the body decided over the grid, and the fact that an input
  window's staging buffer holds the window's block at every point, whether or not the block was fetched there.

  The grid has 8 * 4 points, point t = 4 * b + q for batch b and query tile q. The body's one branch asks whether q = 0;
  it holds exactly at the points divisible by 4. Inputs: the x tile (window 0) and the previous-memory tile (window 1)
  move at every point; the whole previous memory of a batch (window 2, on the same array as window 1) moves when the
  batch changes; the ten weight and bias arrays (windows 3 to 12) are fetched once.
-/
import proofs.«134565_j22926535426539_1_alg».proof.Proof.Gen.KernelIdeal.Launch
import proofs.«134565_j22926535426539_1_alg».proof.Proof.Gen.KernelIdeal.Skeleton
import proofs.«134565_j22926535426539_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The contents of core `c`'s buffers when the region is entered: the launch contents (the program is the region alone). -/
abbrev V (c : Dev nD) (b : Ref sig .tc) : Buf (Elt F) ((c : Thread nD τ).loc b) := m ((c : Thread nD τ).loc b)

/-- The program is its one region. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input's staging buffer holds its block at every point

For proof data whose array is the region-entry contents and whose body leaves the block in place, an input window's
current staging buffer holds the window's block at the point: fetched there it is the block; not fetched, the block's
index has not moved since the point before, whose block it still holds. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: is the query-tile coordinate zero? -/
abbrev cond0 (i : grid0.Coords) : Prop := (Scalar.cmpi .ne (Scalar.extui (Scalar.cmpi .eq (BitVec.ofNat 32 (i 1).val) 0#32)) 0#32) = 1#1

/-- It holds exactly at the points divisible by 4 (the first tile of each batch): decided over the 32 points. -/
theorem hcond0 : ∀ t : Fin cfg0.N, cond0 (grid0.coords t) ↔ t.val % 4 = 0 :=
  (by decide +kernel : ∀ t : Fin grid0.N, cond0 (grid0.coords t) ↔ t.val % 4 = 0)

/-- No window is ever idle: the body loads every input and stores both outputs at every point. -/
theorem live (w : Fin cfg0.W) (i : grid0.Coords) : cfg0.idle w i = false := rfl

/-! ## The staging memrefs at a point, and the scratch -/
abbrev ms0 (t : Fin cfg0.N) : Memref sig .tc .vmem S1x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x512x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x512x2048 .f32 := win0_14.stage (cfg0.slots t 14)
abbrev hs14 (t : Fin cfg0.N) : (ms14 t).IsWhole := hstage0_14 ((cfg0.slots t 14).cast nbuf0_14)

/-- The scratch the kernel keeps the key block in: a whole scoped buffer of its own, passed beside the windows. -/
abbrev scM : Memref sig .tc .vmem S2048x128 .f32 := Memref.whole cc0_scratch0

/-- What the launch hands the region of the core's own scoped buffers is the scratch, owned at some contents. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.FrameRunsI.lean ====
/-
  The memory-update kernel's body, run once in each of its two cases, on any whole staging buffers.

  Case "first tile" (the branch taken): the body loads the batch's whole previous memory, the key weights and bias,
  stores the key block whole into the scratch, and goes on as in the other case with the scratch now at that block.
  Case "later tile" (the branch not taken): the scratch is read as it was left.
  In both, the body loads the x tile, the previous-memory tile, the query weights and bias and the scratch, stores the
  attention-weights tile whole; loads the six gate arrays and stores the new-memory tile whole; every input buffer is
  left as it was. Each store is through the whole shape at zero offsets, so a buffer stored into reads back the stored
  value, and a load through the whole shape of a buffer reads its contents.
-/
import proofs.«134565_j22926535426539_1_alg».proof.Proof.FrameKitI
import proofs.«134565_j22926535426539_1_alg».proof.Proof.LibPieceRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-shape loads and stores -/

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- A load through the whole shape of a whole buffer that reads `x` reads `x`. -/
theorem load_whole_unread {S : Shape} {e : EltTy} {M : Memref sig .tc .vmem S e} (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread]; exact View.ld_unit_zero hz inb x

/-! ## The first tile of a batch -/

set_option maxHeartbeats 4000000 in
/-- From the inputs at their contents, the two result buffers and the scratch at anything, the body runs to: the inputs as
    they were, the scratch at the key block of the whole previous memory, the attention-weights buffer at its payload over
    that block, the new-memory buffer at its payload. -/
theorem kernelRun_first (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x2048x256 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S256x512 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S1x512x256 .f32) (harg15 : arg15.IsWhole) (arg16 : Memref sig .tc .vmem S1x512x2048 .f32) (harg16 : arg16.IsWhole) (arg17 : Memref sig .tc .vmem S2048x128 .f32) (harg17 : arg17.IsWhole) (hc : cond0 i)
    (x0 : Vec F S1x512x256 .f32) (x1 : Vec F S1x512x256 .f32) (x2 : Vec F S1x2048x256 .f32) (x3 : Vec F S128x256 .f32) (x4 : Vec F S128 .f32) (x5 : Vec F S128x256 .f32) (x6 : Vec F S128 .f32) (x7 : Vec F S256x512 .f32) (x8 : Vec F S256 .f32) (x9 : Vec F S256x512 .f32) (x10 : Vec F S256 .f32) (x11 : Vec F S256x512 .f32) (x12 : Vec F S256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
              ∗ owns (c : Thread nD τ) arg15 fullShare (k0_pay1 (k0_pay3 x0) (k0_pay4 x1) x7 x8 x9 x10 x11 x12)
              ∗ owns (c : Thread nD τ) arg16 fullShare (k0_pay5 x0 x3 x4 (k0_pay2 x2 x5 x6))
              ∗ owns (c : Thread nD τ) arg17 fullShare (k0_pay2 x2 x5 x6)) -∗ K ⟨⟩))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hf12
  sl_exec (disch := first | exact hc)
  sl_step
  sl_unfold_run_names
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    · ipureintro; exact harg13.read_unread _
    iexact H11
  isplitl [H12]
  · iexists _; isplitr
    · ipureintro; exact harg14.read_unread _
    iexact H12
  isplitl [H13]
  · iexists _; isplitr; swap
    · iexact H13
    ipureintro
    refine (View.read_writes_cons_whole arg15.view f13 hz3 _ _ []).trans ?_
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]
  isplitl [H14]
  · iexists _; isplitr; swap
    · iexact H14
    ipureintro
    refine (View.read_writes_cons_whole arg16.view f14 hz3 _ _ []).trans ?_
    rw [View.readCov_unit_zero arg17.view hz2]
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]
  iexists _; isplitr; swap
  · iexact HS
  ipureintro
  refine (View.read_writes_cons_whole arg17.view fs hz2 _ _ []).trans ?_
  simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]

/-! ## A later tile of the batch -/

set_option maxHeartbeats 4000000 in
/-- From the inputs at their contents, the two result buffers at anything and the scratch at `xs`, the body runs to: the
    inputs and the scratch as they were, the attention-weights buffer at its payload over `xs`, the new-memory buffer at
    its payload. -/
theorem kernelRun_later (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x2048x256 .f32) (harg4 : arg4.IsWhole) (arg5 : Memref sig .tc .vmem S128x256 .f32) (harg5 : arg5.IsWhole) (arg6 : Memref sig .tc .vmem S128 .f32) (harg6 : arg6.IsWhole) (arg7 : Memref sig .tc .vmem S128x256 .f32) (harg7 : arg7.IsWhole) (arg8 : Memref sig .tc .vmem S128 .f32) (harg8 : arg8.IsWhole) (arg9 : Memref sig .tc .vmem S256x512 .f32) (harg9 : arg9.IsWhole) (arg10 : Memref sig .tc .vmem S256 .f32) (harg10 : arg10.IsWhole) (arg11 : Memref sig .tc .vmem S256x512 .f32) (harg11 : arg11.IsWhole) (arg12 : Memref sig .tc .vmem S256 .f32) (harg12 : arg12.IsWhole) (arg13 : Memref sig .tc .vmem S256x512 .f32) (harg13 : arg13.IsWhole) (arg14 : Memref sig .tc .vmem S256 .f32) (harg14 : arg14.IsWhole) (arg15 : Memref sig .tc .vmem S1x512x256 .f32) (harg15 : arg15.IsWhole) (arg16 : Memref sig .tc .vmem S1x512x2048 .f32) (harg16 : arg16.IsWhole) (arg17 : Memref sig .tc .vmem S2048x128 .f32) (harg17 : arg17.IsWhole) (hc : ¬cond0 i)
    (x0 : Vec F S1x512x256 .f32) (x1 : Vec F S1x512x256 .f32) (x2 : Vec F S1x2048x256 .f32) (x3 : Vec F S128x256 .f32) (x4 : Vec F S128 .f32) (x5 : Vec F S128x256 .f32) (x6 : Vec F S128 .f32) (x7 : Vec F S256x512 .f32) (x8 : Vec F S256 .f32) (x9 : Vec F S256x512 .f32) (x10 : Vec F S256 .f32) (x11 : Vec F S256x512 .f32) (x12 : Vec F S256 .f32) (xs : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ owns (c : Thread nD τ) arg17 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
              ∗ owns (c : Thread nD τ) arg15 fullShare (k0_pay1 (k0_pay3 x0) (k0_pay4 x1) x7 x8 x9 x10 x11 x12)
              ∗ owns (c : Thread nD τ) arg16 fullShare (k0_pay5 x0 x3 x4 xs)
              ∗ owns (c : Thread nD τ) arg17 fullShare xs) -∗ K ⟨⟩))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hf10; obtain rfl := harg13.eq_unread hf11
  obtain rfl := harg14.eq_unread hf12
  obtain rfl := harg17.eq_unread hfs
  sl_exec (disch := first | exact hc)
  sl_step
  sl_unfold_run_names
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    · ipureintro; exact harg13.read_unread _
    iexact H11
  isplitl [H12]
  · iexists _; isplitr
    · ipureintro; exact harg14.read_unread _
    iexact H12
  isplitl [H13]
  · iexists _; isplitr; swap
    · iexact H13
    ipureintro
    refine (View.read_writes_cons_whole arg15.view f13 hz3 _ _ []).trans ?_
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1]
  isplitl [H14]
  · iexists _; isplitr; swap
    · iexact H14
    ipureintro
    refine (View.read_writes_cons_whole arg16.view f14 hz3 _ _ []).trans ?_
    simp only [load_whole_unread harg2 hz3, load_whole_unread harg3 hz3, load_whole_unread harg4 hz3, load_whole_unread harg5 hz2, load_whole_unread harg6 hz1, load_whole_unread harg7 hz2, load_whole_unread harg8 hz1, load_whole_unread harg9 hz2, load_whole_unread harg10 hz1, load_whole_unread harg11 hz2, load_whole_unread harg12 hz1, load_whole_unread harg13 hz2, load_whole_unread harg14 hz1, load_whole_unread harg17 hz2]
  iexists _; isplitr
  · ipureintro; exact harg17.read_unread _
  iexact HS

end Cert.KernelIdeal.Hand

end
-- ==== Proof.FrameI.lean ====
/-
  The frame of the memory-update kernel, and what its two result arrays hold afterwards.

  The kernel keeps the key block of the current batch in a scratch buffer: at the first query tile of a batch (the points
  divisible by 4) it computes the block from the batch's whole previous memory and stores it; at the other three tiles
  of the batch it only reads it. So the scratch after point n holds the key block computed at the last point at or
  below n that is divisible by 4 — stated here by recursion on the point. The region invariant is: before the first
  point the scratch at anything, afterwards the scratch at that block.

  Both result tiles are stored whole at every point: the new-memory tile from the x tile, the previous-memory tile and
  the gate weights; the attention-weights tile from the x tile, the query weights and the scratch.

  The previous-memory array is read through two windows (a tile of it, and a whole batch of it), so its buffer's full
  share is dealt in two halves, one to each window.
-/
import proofs.«134565_j22926535426539_1_alg».proof.Proof.FrameRunsI
import proofs.«134565_j22926535426539_1_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch after each point -/

/-- What the scratch holds after the body at position `n`: the key block of the batch's whole previous memory, computed
    at the last point at or below `n` divisible by 4. -/
def scrAt (c : Dev nD) : (n : ℕ) → n < cfg0.N → Vec F S2048x128 .f32
  | 0, hn => k0_pay2 (iblk m c 2 ⟨0, hn⟩) (iblk m c 5 ⟨0, hn⟩) (iblk m c 6 ⟨0, hn⟩)
  | n + 1, hn =>
    if (n + 1) % 4 = 0 then k0_pay2 (iblk m c 2 ⟨n + 1, hn⟩) (iblk m c 5 ⟨n + 1, hn⟩) (iblk m c 6 ⟨n + 1, hn⟩)
    else scrAt c n (Nat.lt_of_succ_lt hn)

/-- At the first tile of a batch: the block computed there. -/
theorem scrAt_first (c : Dev nD) (t : Fin cfg0.N) (h : t.val % 4 = 0) :
    scrAt m c t.val t.isLt = k0_pay2 (iblk m c 2 t) (iblk m c 5 t) (iblk m c 6 t) := by
  obtain ⟨n, hn⟩ := t
  cases n with
  | zero => rfl
  | succ n => exact (if_pos h).trans rfl

/-- At a later tile of the batch: what the point before left. -/
theorem scrAt_later (c : Dev nD) (t : Fin cfg0.N) (h : ¬t.val % 4 = 0) :
    scrAt m c t.val t.isLt = scrAt m c (t.val - 1) (Nat.lt_of_le_of_lt (Nat.sub_le _ _) t.isLt) := by
  obtain ⟨n, hn⟩ := t
  cases n with
  | zero => exact absurd (Nat.zero_mod _) h
  | succ n => exact (if_neg h).trans rfl

/-! ## The region invariant -/

/-- Before the first point: the scratch at anything (what the launch hands over). Before any later point: the scratch at
    what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (scrAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (scrAt m c n hn) := rfl

theorem PhiS_pos (c : Dev nD) (n : ℕ) (h : n ≤ cfg0.N) (hz : n ≠ 0) :
    PhiS m c n h = owns (c : Thread nD τ) scM fullShare (scrAt m c (n - 1) (by omega)) := by
  cases n with
  | zero => exact absurd rfl hz
  | succ n => rfl

/-! ## The proof data -/

/-- The arrays as the region finds them; after the body at point `t` each input's buffer at its block, the new-memory tile
    and the attention-weights tile at the body's two payloads; the invariant above; nothing owed; the previous-memory
    buffer's full share dealt in halves to the two windows that read it, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => k0_pay1 (k0_pay3 (iblk m c 0 t)) (k0_pay4 (iblk m c 1 t)) (iblk m c 7 t) (iblk m c 8 t) (iblk m c 9 t) (iblk m c 10 t) (iblk m c 11 t) (iblk m c 12 t)
    | ⟨14, _⟩ => k0_pay5 (iblk m c 0 t) (iblk m c 3 t) (iblk m c 4 t) (scrAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t
    = k0_pay1 (k0_pay3 (iblk m c 0 t)) (k0_pay4 (iblk m c 1 t)) (iblk m c 7 t) (iblk m c 8 t) (iblk m c 9 t) (iblk m c 10 t) (iblk m c 11 t) (iblk m c 12 t) := by
  dsimp only [dats]
theorem after_14 (c : Dev nD) (t : Fin cfg0.N) : (dats m 0 c).after 14 t
    = k0_pay5 (iblk m c 0 t) (iblk m c 3 t) (iblk m c 4 t) (scrAt m c t.val t.isLt) := by
  dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation at a generic point -/

/-- What the body is called with at point `t`: the invariant, nothing owed, every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- And what it returns: the invariant at the next point, nothing owed, every current buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves_0 (c : Dev nD) (t : Fin cfg0.N) :
    (dats m 0 c).leavesExact 0 t = owns (c : Thread nD τ) (ms0 t) fullShare ((dats m 0 c).after 0 t) := by
  unfold Dat.leavesExact; rw [live 0 _]
theorem leaves_1 (c : Dev nD) (t : Fin cfg0.N) :
    (dats m 0 c).leavesExact 1 t = owns (c : Thread nD τ) (ms1 t) fullShare ((dats m 0 c).after 1 t) := by
  unfold Dat.leavesExact; rw [live 1 _]
theorem leaves_2 (c : Dev nD) (t : Fin cfg0.N) :
    (dats m 0 c).leavesExact 2 t = owns (c : Thread nD τ) (ms2 t) fullShare ((dats m 0 c).after 2 t) := by
  unfold Dat.leavesExact; rw [live 2 _]
theorem leaves_3 (c : Dev nD) (t : Fin cfg0.N) :
    (dats m 0 c).leavesExact 3 t = owns (c : Thread nD τ) (ms3 t) fullShare ((dats m 0 c).after 3 t) := by
  unfold Dat.leavesExact; rw [live 3 _]
theorem leaves_4 (c : Dev nD) (t : Fin cfg0.N) :
    (dats m 0 c).leavesExact 4 t = owns (c : Thread nD τ) (ms4 t) fullShare ((dats m 0 c).after 4 t) := by
  unfold Dat.leavesExact; rw [live 4 _]
theorem leaves_5 (c : Dev nD) (t : Fin cfg0.N) :
    (dats m 0 c).leavesExact 5 t = owns (c : Thread nD τ) (ms5 t) fullShare ((dats m 0 c).after 5 t) := by
  unfold Dat.leavesExact; rw [live 5 _]
theorem leaves_6 (c : Dev nD) (t : Fin cfg0.N) :
    (dats m 0 c).leavesExact 6 t = owns (c : Thread nD τ) (ms6 t) fullShare ((dats m 0 c).after 6 t) := by
  unfold Dat.leavesExact; rw [live 6 _]
theorem leaves_7 (c : Dev nD) (t : Fin cfg0.N) :
    (dats m 0 c).leavesExact 7 t = owns (c : Thread nD τ) (ms7 t) fullShare ((dats m 0 c).after 7 t) := by
  unfold Dat.leavesExact; rw [live 7 _]
theorem leaves_8 (c : Dev nD) (t : Fin cfg0.N) :
    (dats m 0 c).leavesExact 8 t = owns (c : Thread nD τ) (ms8 t) fullShare ((dats m 0 c).after 8 t) := by
  unfold Dat.leavesExact; rw [live 8 _]
theorem leaves_9 (c : Dev nD) (t : Fin cfg0.N) :
    (dats m 0 c).leavesExact 9 t = owns (c : Thread nD τ) (ms9 t) fullShare ((dats m 0 c).after 9 t) := by
  unfold Dat.leavesExact; rw [live 9 _]
theorem leaves_10 (c : Dev nD) (t : Fin cfg0.N) :
    (dats m 0 c).leavesExact 10 t = owns (c : Thread nD τ) (ms10 t) fullShare ((dats m 0 c).after 10 t) := by
  unfold Dat.leavesExact; rw [live 10 _]
theorem leaves_11 (c : Dev nD) (t : Fin cfg0.N) :
    (dats m 0 c).leavesExact 11 t = owns (c : Thread nD τ) (ms11 t) fullShare ((dats m 0 c).after 11 t) := by
  unfold Dat.leavesExact; rw [live 11 _]
theorem leaves_12 (c : Dev nD) (t : Fin cfg0.N) :
    (dats m 0 c).leavesExact 12 t = owns (c : Thread nD τ) (ms12 t) fullShare ((dats m 0 c).after 12 t) := by
  unfold Dat.leavesExact; rw [live 12 _]
theorem leaves_13 (c : Dev nD) (t : Fin cfg0.N) :
    (dats m 0 c).leavesExact 13 t = owns (c : Thread nD τ) (ms13 t) fullShare ((dats m 0 c).after 13 t) := by
  unfold Dat.leavesExact; rw [live 13 _]
theorem leaves_14 (c : Dev nD) (t : Fin cfg0.N) :
    (dats m 0 c).leavesExact 14 t = owns (c : Thread nD τ) (ms14 t) fullShare ((dats m 0 c).after 14 t) := by
  unfold Dat.leavesExact; rw [live 14 _]

set_option maxHeartbeats 4800000 in
/-- The body at any point. The inputs' buffers hold their blocks; the point is the first tile of its batch or a later one
    (by its residue mod 4); the invariant hands the body the scratch — at anything before the first point, else at what
    the point before left — and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12, leaves_13, leaves_14]
  rw [after_0, after_1, after_2, after_3, after_4, after_5, after_6, after_7, after_8, after_9, after_10, after_11, after_12, after_13, after_14]
  by_cases h0 : t.val % 4 = 0
  · rw [scrAt_first m c t h0]
    by_cases hz : t.val = 0
    · rw [PhiS_castSucc m c t, PhiS_zero m c _ _ hz, scopedRest_scM]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun_first c (grid0.coords t) _ _ _ _ _ _ _ _ _ _ _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS]; · iexact HS
      iintro ⟨H0, H1, H2, H3, H4, H5, H6, H7, H8, H9, H10, H11, H12, H13, H14, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (kernelRun_first c (grid0.coords t) _ _ _ _ _ _ _ _ _ _ _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS]; · iexists _; iexact HS
      iintro ⟨H0, H1, H2, H3, H4, H5, H6, H7, H8, H9, H10, H11, H12, H13, H14, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  · have hz : t.val ≠ 0 := fun e => h0 (by rw [e])
    rw [scrAt_later m c t h0, PhiS_castSucc m c t, PhiS_pos m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (kernelRun_later c (grid0.coords t) _ _ _ _ _ _ _ _ _ _ _ _ _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (scrAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the invariant -/

/-- What the launch hands the region of the core's own buffers is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_scM]
  iintro HS
  iexists _; iexact HS

/-! ## Dealing the buffers behind the arrays among the windows -/

/-- One window's array from the buffer behind it, at the share the proof data give the window. -/
theorem arr_of_buf (c : Dev nD) (w : Fin cfg0.W) (q : PosShare TreeShare) (hq : (dats m 0 c).share w = q) :
    ((((c : Thread nD τ).loc (Pipeline.arrRef spec0 w)) ↦{q} V m c (Pipeline.arrRef spec0 w)) : sProp 𝕄)
      ⊢ (cfg0.win w).arr.view.loc (c : Thread nD τ) ↦[(cfg0.win w).arr.view.set]{(dats m 0 c).share w} (dats m 0 c).arrAt w 0 := by
  rw [(arr_whole0 w).set_eq_univ, hq]
  exact Idealize.SL.BI.Entails.refl _

/-- The distinct buffers behind the windows' arrays, conjoined one by one: twelve argument arrays (the previous memory
    once, though two windows read it) and the two results. -/
theorem arrBufs_chain (Φ : Ref sig .tc → sProp 𝕄) :
    bigSep (Finset.univ.image (Pipeline.arrRef spec0)) Φ
      = iprop(Φ main_arg0 ∗ Φ main_arg1 ∗ Φ main_arg2 ∗ Φ main_arg3 ∗ Φ main_arg4 ∗ Φ main_arg5 ∗ Φ main_arg8 ∗ Φ main_arg9 ∗ Φ main_arg10 ∗ Φ main_arg11 ∗ Φ main_arg12 ∗ Φ main_arg13 ∗ Φ main_v0_0 ∗ Φ main_v0_1) :=
  bigSep_eq_bigSepL_of_eq [main_arg0, main_arg1, main_arg2, main_arg3, main_arg4, main_arg5, main_arg8, main_arg9, main_arg10, main_arg11, main_arg12, main_arg13, main_v0_0, main_v0_1] (by decide) (by decide) Φ

/-- The fourteen distinct buffers behind the fifteen windows' arrays, each whole at the full share, make the proof data's
    arrays: the previous-memory buffer's share is split in two, a half for the tile window and a half for the
    whole-batch window; every other buffer goes whole to its one window. -/
theorem hsplit (c : Dev nD) :
    (Pipeline.arrBufs spec0 c (V m c) : sProp 𝕄) ⊢ (dats m 0 c).arrays ((dats m 0 c).arrAt · 0) := by
  unfold Pipeline.arrBufs Dat.arrays
  rw [arrBufs_chain, bigSep_W0]
  iintro ⟨Ha0, Ha1, Ha2, Ha3, Ha4, Ha5, Ha8, Ha9, Ha10, Ha11, Ha12, Ha13, Hv0, Hv1⟩
  ihave Ha1' := (pointsTo_share (PosShare.mem_left_op_right fullShare)).1 $$ Ha1
  icases Ha1' with ⟨Ha1l, Ha1r⟩
  isplitl [Ha0]; · iapply (arr_of_buf m c 0 fullShare rfl); iexact Ha0
  isplitl [Ha1l]; · iapply (arr_of_buf m c 1 fullShare.left rfl); iexact Ha1l
  isplitl [Ha1r]; · iapply (arr_of_buf m c 2 fullShare.right rfl); iexact Ha1r
  isplitl [Ha2]; · iapply (arr_of_buf m c 3 fullShare rfl); iexact Ha2
  isplitl [Ha3]; · iapply (arr_of_buf m c 4 fullShare rfl); iexact Ha3
  isplitl [Ha4]; · iapply (arr_of_buf m c 5 fullShare rfl); iexact Ha4
  isplitl [Ha5]; · iapply (arr_of_buf m c 6 fullShare rfl); iexact Ha5
  isplitl [Ha8]; · iapply (arr_of_buf m c 7 fullShare rfl); iexact Ha8
  isplitl [Ha9]; · iapply (arr_of_buf m c 8 fullShare rfl); iexact Ha9
  isplitl [Ha10]; · iapply (arr_of_buf m c 9 fullShare rfl); iexact Ha10
  isplitl [Ha11]; · iapply (arr_of_buf m c 10 fullShare rfl); iexact Ha11
  isplitl [Ha12]; · iapply (arr_of_buf m c 11 fullShare rfl); iexact Ha12
  isplitl [Ha13]; · iapply (arr_of_buf m c 12 fullShare rfl); iexact Ha13
  isplitl [Hv0]; · iapply (arr_of_buf m c 13 fullShare rfl); iexact Hv0
  iapply (arr_of_buf m c 14 fullShare rfl); iexact Hv1

/-! ## The run and the frame -/

set_option backward.isDefEq.respectTransparency.types false in
/-- Every weakly fair execution of the program terminates, and every final state has every window's array at what the
    library computes from the proof data and every other unscoped buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- THE FRAME: the program runs to the end, faults nowhere, and leaves its fourteen argument arrays as they were — a
    staged argument because an input window's array is never written, the two arguments no window stages because the
    region touches no other unscoped buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      ((h c).1 0).trans (((dats m 0 c).arrAt_in 0 rfl _).trans (A_eq m c 0)),
      ((h c).1 1).trans (((dats m 0 c).arrAt_in 1 rfl _).trans (A_eq m c 1)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      (h c).2 main_arg6 (by decide),
      (h c).2 main_arg7 (by decide),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12))⟩) (run_main m ρ)

end Cert.KernelIdeal.Hand

end
-- ==== Proof.LibRunFamilies.lean ====
/-
  Reading a straight line of host operations through operations that take a literal family of operands.

  The fold of a host program's operations over the launch contents is read back one operation at a time: an
  operation's result at its own buffer is its function of its operands' contents, and any other buffer is what it was.
  Two kinds of operation hand their function a FAMILY of operands: an operation with index operands (one start index
  per axis), and a join of several pieces. Read generically, the family appears under a binder, `fun k => contents of
  buffer k`, where no further result can be read. Here the family is a literal one, and its contents are stated one
  buffer at a time, so the reading goes on through it:
  * `unaryIndexed4_result'`: an operation with four index operands;
  * `cat2`, `cat5`: a join of two or of five pieces with the pieces as plain arguments — the joined pieces otherwise
    sit in a list of pairs of a shape and an array of that shape, inside which a rewriting pass does not reach —,
    each definitionally the join itself (`cat2_intro`, `cat5_intro`).
  Program-free: nothing here mentions a particular program.
-/
import Idealize.ShloMosaic.Lib.StableHlo.Run

noncomputable section

namespace Cert.LibRunFamilies

open Idealize.ShloMosaic Idealize.ShloMosaic.TcCoe Idealize.SL.Sem Idealize.ShloMosaic.StableHlo

/-! ## An operation over a literal family of operands, each operand's contents at its own buffer -/

section Families
variable {sig : RefSig} {τ : Topo} {Val : EltTy → Type} {a y i0 i1 i2 i3 : Ref sig .tc}

/-- An operation with four index operands: the index family's contents, one buffer at a time. -/
theorem unaryIndexed4_result' (T : BufTy)
    (f : a.ty.Contents Val → (Fin 4 → T.Contents Val) → y.ty.Contents Val) (hT ha hix hy) (F : Valuation τ sig Val) :
    (unaryIndexed (τ := τ) a ![i0, i1, i2, i3] T y f hT ha hix hy).result F (no_index (Proc.devRef .tc y))
      = f (F (Proc.devRef .tc a))
          (Fin.cons (cast (congrArg (fun U : BufTy => U.Contents Val) (hT 0)) (F (Proc.devRef .tc i0)))
            (Fin.cons (cast (congrArg (fun U : BufTy => U.Contents Val) (hT 1)) (F (Proc.devRef .tc i1)))
              (Fin.cons (cast (congrArg (fun U : BufTy => U.Contents Val) (hT 2)) (F (Proc.devRef .tc i2)))
                (Fin.cons (cast (congrArg (fun U : BufTy => U.Contents Val) (hT 3)) (F (Proc.devRef .tc i3)))
                  (fun i => i.elim0))))) := by
  rw [unaryIndexed_result']; congr 1; funext k; fin_cases k <;> rfl

end Families

/-! ## A join of two or of five pieces, its pieces as plain arguments

The joined pieces sit in a list of pairs of a shape and an array of that shape; stated with the arrays as arguments of
their own, the same join lets each piece be rewritten where it stands. -/

section Joins
variable {α : Type}

/-- Two pieces joined along an axis. -/
def cat2 (t : Shape) (ax : Fin t.rank) (s₁ s₂ : Shape) (X₁ : s₁.Idx → α) (X₂ : s₂.Idx → α)
    (h : Shape.Concatenates [s₁, s₂] t ax) : t.Idx → α :=
  concatenate t ax [⟨s₁, X₁⟩, ⟨s₂, X₂⟩] h

theorem cat2_intro (t : Shape) (ax : Fin t.rank) (s₁ s₂ : Shape) (X₁ : s₁.Idx → α) (X₂ : s₂.Idx → α)
    (h : Shape.Concatenates [s₁, s₂] t ax) :
    concatenate t ax [⟨s₁, X₁⟩, ⟨s₂, X₂⟩] h = cat2 t ax s₁ s₂ X₁ X₂ h := rfl

/-- Five pieces joined along an axis. -/
def cat5 (t : Shape) (ax : Fin t.rank) (s₁ s₂ s₃ s₄ s₅ : Shape) (X₁ : s₁.Idx → α) (X₂ : s₂.Idx → α) (X₃ : s₃.Idx → α)
    (X₄ : s₄.Idx → α) (X₅ : s₅.Idx → α) (h : Shape.Concatenates [s₁, s₂, s₃, s₄, s₅] t ax) : t.Idx → α :=
  concatenate t ax [⟨s₁, X₁⟩, ⟨s₂, X₂⟩, ⟨s₃, X₃⟩, ⟨s₄, X₄⟩, ⟨s₅, X₅⟩] h

theorem cat5_intro (t : Shape) (ax : Fin t.rank) (s₁ s₂ s₃ s₄ s₅ : Shape) (X₁ : s₁.Idx → α) (X₂ : s₂.Idx → α)
    (X₃ : s₃.Idx → α) (X₄ : s₄.Idx → α) (X₅ : s₅.Idx → α) (h : Shape.Concatenates [s₁, s₂, s₃, s₄, s₅] t ax) :
    concatenate t ax [⟨s₁, X₁⟩, ⟨s₂, X₂⟩, ⟨s₃, X₃⟩, ⟨s₄, X₄⟩, ⟨s₅, X₅⟩] h = cat5 t ax s₁ s₂ s₃ s₄ s₅ X₁ X₂ X₃ X₄ X₅ h := rfl

end Joins

end Cert.LibRunFamilies

end
-- ==== Proof.RefStages.lean ====
/-
  The reference computation, stage by stage, on the extended reals.

  Each definition below is one step of the reference: a projection (a product contracting the feature axis, plus a
  bias spread over the batch and the row axes), the scores (a batched product contracting the projected axis), the
  row maximum, the exponentials of the differences, their row sums, the quotient; then the joined features, a gate
  layer, the logistic function spelled as 1 / (1 + exp (-z)), the candidate and the new memory. Every stage is the
  array operation itself applied to the previous stages, so that the whole result is read one stage at a time.
-/
import proofs.«134565_j22926535426539_1_alg».proof.Proof.Gen.ReferenceIdeal
import proofs.«134565_j22926535426539_1_alg».proof.Proof.LibRunFamilies
import Idealize.ShloMosaic.PureOps.Ideal

noncomputable section

namespace Cert.RefSide

open Cert.ReferenceIdeal Cert.ReferenceIdeal.Gen Idealize.ShloMosaic

/-- The arrays' types: a sequence [8, 2048, 256], a projection matrix [128, 256] and bias [128], a gate matrix
    [256, 512] and bias [256], a projected sequence [8, 2048, 128], a table of scores [8, 2048, 2048], one value per
    row [8, 2048], the joined features [8, 2048, 512]. -/
abbrev TSeq := FVec Ideal S8x2048x256 .f32
abbrev TProjW := FVec Ideal S128x256 .f32
abbrev TProjB := FVec Ideal S128 .f32
abbrev TGateW := FVec Ideal S256x512 .f32
abbrev TGateB := FVec Ideal S256 .f32
abbrev TProj := FVec Ideal S8x2048x128 .f32
abbrev TScores := FVec Ideal S8x2048x2048 .f32
abbrev TRows := FVec Ideal S8x2048 .f32
abbrev TJoined := FVec Ideal S8x2048x512 .f32

/-- A projection: `x · Wᵀ` over the feature axis, plus the bias spread over batches and rows. -/
def refProj (x : TSeq) (W : TProjW) (b : TProjB) : TProj :=
  addf (Host.dotGeneral (F := Ideal) dot_S8x2048x256_S128x256_S8x2048x128_2_1_01_0_n_n none x W)
    (broadcastInDim S8x2048x128 ![0, 1, 2] bcast_S1x1x128_S8x2048x128_0_1_2
      (broadcastInDim S1x1x128 ![2] bcast_S128_S1x1x128_2 b))

/-- The scores: in each batch, every query row against every key row over the projected axis. -/
def refScores (x pm : TSeq) (Wq : TProjW) (bq : TProjB) (Wk : TProjW) (bk : TProjB) : TScores :=
  Host.dotGeneral (F := Ideal) dot_S8x2048x128_S8x2048x128_S8x2048x2048_2_2_1_1_0_0 none (refProj x Wq bq) (refProj pm Wk bk)

/-- The maximum of each row of a table, from the seed minus infinity, compared with the seed once more. -/
def refRowMax (s : TScores) : TRows :=
  maximumf (broadcastInDim S8x2048 ![] bcast_S_S8x2048 (constant (F := Ideal) S_ .f32 0xFF800000#32))
    (Host.reduce FloatOps.maximumf s (constant (F := Ideal) S_ .f32 0xFF800000#32) reducesTo_S8x2048x2048_S8x2048_d2 h_S_)

/-- One value per row spread along the row: [8, 2048] to [8, 2048, 1] to [8, 2048, 2048]. -/
def refAlongRow (r : TRows) : TScores :=
  broadcastInDim S8x2048x2048 ![0, 1, 2] bcast_S8x2048x1_S8x2048x2048_0_1_2
    (broadcastInDim S8x2048x1 ![0, 1] bcast_S8x2048_S8x2048x1_0_1 r)

/-- The exponentials of a table's entries less their row's maximum. -/
def refExps (s : TScores) : TScores :=
  Host.exp (F := Ideal) (subf s (refAlongRow (refRowMax s)))

/-- The sum of each row of a table, from the seed zero. -/
def refRowSum (e : TScores) : TRows :=
  Host.reduceAdd (F := Ideal) e (constant (F := Ideal) S_ .f32 0x00000000#32) reducesTo_S8x2048x2048_S8x2048_d2 h_S_

/-- The softmax of each row of a table, as it is computed. -/
def refSoftmax (s : TScores) : TScores :=
  Host.divf (F := Ideal) (refExps s) (refAlongRow (refRowSum (refExps s)))

/-- THE ATTENTION WEIGHTS of the reference. -/
def refProbs (x pm : TSeq) (Wq : TProjW) (bq : TProjB) (Wk : TProjW) (bk : TProjB) : TScores :=
  refSoftmax (refScores x pm Wq bq Wk bk)

/-- Two sequences joined along the feature axis. -/
def refJoin (a b : TSeq) : TJoined :=
  Cert.LibRunFamilies.cat2 S8x2048x512 2 S8x2048x256 S8x2048x256 a b concatenates_S8x2048x256_S8x2048x256_S8x2048x512_d2

/-- A gate layer: `f · Wᵀ` over the 512 joined features, plus the bias spread over batches and rows. -/
def refLayer (f : TJoined) (W : TGateW) (b : TGateB) : TSeq :=
  addf (Host.dotGeneral (F := Ideal) dot_S8x2048x512_S256x512_S8x2048x256_2_1_01_0_n_n none f W)
    (broadcastInDim S8x2048x256 ![0, 1, 2] bcast_S1x1x256_S8x2048x256_0_1_2
      (broadcastInDim S1x1x256 ![2] bcast_S256_S1x1x256_2 b))

/-- The constant one spread over a sequence array. -/
def refOnes : TSeq :=
  broadcastInDim S8x2048x256 ![] bcast_S_S8x2048x256 (constant (F := Ideal) S_ .f32 0x3F800000#32)

/-- The logistic function as the reference spells it: 1 / (1 + exp (-z)). -/
def refSigmoid (z : TSeq) : TSeq :=
  Host.divf (F := Ideal) refOnes (addf refOnes (Host.exp (F := Ideal) (Host.negf (F := Ideal) z)))

/-- A gate: the logistic function of a layer of `x` joined with `pm`. -/
def refGate (x pm : TSeq) (W : TGateW) (b : TGateB) : TSeq :=
  refSigmoid (refLayer (refJoin x pm) W b)

/-- The candidate: the hyperbolic tangent of a layer of `x` joined with the reset gate times `pm`. -/
def refCandidate (x pm : TSeq) (Wr : TGateW) (br : TGateB) (Wc : TGateW) (bc : TGateB) : TSeq :=
  Host.tanh (F := Ideal) (refLayer (refJoin x (mulf (refGate x pm Wr br) pm)) Wc bc)

/-- THE NEW MEMORY of the reference: (1 - u) * pm + u * c. -/
def refNewMemory (x pm : TSeq) (Wu : TGateW) (bu : TGateB) (Wr : TGateW) (br : TGateB) (Wc : TGateW) (bc : TGateB) : TSeq :=
  addf (mulf (subf refOnes (refGate x pm Wu bu)) pm) (mulf (refGate x pm Wu bu) (refCandidate x pm Wr br Wc bc))

end Cert.RefSide

end
-- ==== Proof.RefRun.lean ====
/-
  The reference program's run: every weakly fair execution of its straight line of array operations terminates, with
  the new memory and the attention weights at the staged reference computation of the argument arrays, and the
  argument arrays unchanged.

  The program is listed as its operations in order; its two joins along the feature axis are listed with their two
  pieces as plain arguments (the same join by definition), so that each piece can be read where it stands.
-/
import proofs.«134565_j22926535426539_1_alg».proof.Proof.RefStages
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

/-- The program's 66 operations, in order, on the extended reals. -/
abbrev ops : List (HloOp τ sig (Elt Ideal)) :=
  [ binary main_arg0 main_arg2 main_v0 ((fun l r => Host.dotGeneral (F := Ideal) (φ₁ := .f32) (φ₂ := .f32) dot_S8x2048x256_S128x256_S8x2048x128_2_1_01_0_n_n none l r) : (⟨S8x2048x256, .f32⟩ : BufTy).Contents (Elt Ideal) → (⟨S128x256, .f32⟩ : BufTy).Contents (Elt Ideal) → (⟨S8x2048x128, .f32⟩ : BufTy).Contents (Elt Ideal)),
    unary main_arg3 main_v1 (broadcastInDim S1x1x128 ![2] bcast_S128_S1x1x128_2 : (⟨S128, .f32⟩ : BufTy).Contents (Elt Ideal) → (⟨S1x1x128, .f32⟩ : BufTy).Contents (Elt Ideal)),
    unary main_v1 main_v2 (broadcastInDim S8x2048x128 ![0, 1, 2] bcast_S1x1x128_S8x2048x128_0_1_2 : (⟨S1x1x128, .f32⟩ : BufTy).Contents (Elt Ideal) → (⟨S8x2048x128, .f32⟩ : BufTy).Contents (Elt Ideal)),
    binary main_v0 main_v2 main_v3 (addf (F := Ideal) (φ := .f32) : (⟨S8x2048x128, .f32⟩ : BufTy).Contents (Elt Ideal) → (⟨S8x2048x128, .f32⟩ : BufTy).Contents (Elt Ideal) → (⟨S8x2048x128, .f32⟩ : BufTy).Contents (Elt Ideal)),
    binary main_arg1 main_arg4 main_v4 ((fun l r => Host.dotGeneral (F := Ideal) (φ₁ := .f32) (φ₂ := .f32) dot_S8x2048x256_S128x256_S8x2048x128_2_1_01_0_n_n none l r) : (⟨S8x2048x256, .f32⟩ : BufTy).Contents (Elt Ideal) → (⟨S128x256, .f32⟩ : BufTy).Contents (Elt Ideal) → (⟨S8x2048x128, .f32⟩ : BufTy).Contents (Elt Ideal)),
    unary main_arg5 main_v5 (broadcastInDim S1x1x128 ![2] bcast_S128_S1x1x128_2 : (⟨S128, .f32⟩ : BufTy).Contents (Elt Ideal) → (⟨S1x1x128, .f32⟩ : BufTy).Contents (Elt Ideal)),
    unary main_v5 main_v6 (broadcastInDim S8x2048x128 ![0, 1, 2] bcast_S1x1x128_S8x2048x128_0_1_2 : (⟨S1x1x128, .f32⟩ : BufTy).Contents (Elt Ideal) → (⟨S8x2048x128, .f32⟩ : BufTy).Contents (Elt Ideal)),
    binary main_v4 main_v6 main_v7 (addf (F := Ideal) (φ := .f32) : (⟨S8x2048x128, .f32⟩ : BufTy).Contents (Elt Ideal) → (⟨S8x2048x128, .f32⟩ : BufTy).Contents (Elt Ideal) → (⟨S8x2048x128, .f32⟩ : BufTy).Contents (Elt Ideal)),
    binary main_arg1 main_arg6 main_v8 ((fun l r => Host.dotGeneral (F := Ideal) (φ₁ := .f32) (φ₂ := .f32) dot_S8x2048x256_S256x256_S8x2048x256_2_1_01_0_n_n none l r) : (⟨S8x2048x256, .f32⟩ : BufTy).Contents (Elt Ideal) → (⟨S256x256, .f32⟩ : BufTy).Contents (Elt Ideal) → (⟨S8x2048x256, .f32⟩ : BufTy).Contents (Elt Ideal)),
    unary main_arg7 main_v9 (broadcastInDim S1x1x256 ![2] bcast_S256_S1x1x256_2 : (⟨S256, .f32⟩ : BufTy).Contents (Elt Ideal) → (⟨S1x1x256, .f32⟩ : BufTy).Contents (Elt Ideal)),
    unary main_v9 main_v10 (broadcastInDim S8x2048x256 ![0, 1, 2] bcast_S1x1x256_S8x2048x256_0_1_2 : (⟨S1x1x256, .f32⟩ : BufTy).Contents (Elt Ideal) → (⟨S8x2048x256, .f32⟩ : BufTy).Contents (Elt Ideal)),
    binary main_v8 main_v10 main_v11 (addf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    binary main_v3 main_v7 main_v12 ((fun l r => Host.dotGeneral (F := Ideal) (φ₁ := .f32) (φ₂ := .f32) dot_S8x2048x128_S8x2048x128_S8x2048x2048_2_2_1_1_0_0 none l r) : (⟨S8x2048x128, .f32⟩ : BufTy).Contents (Elt Ideal) → (⟨S8x2048x128, .f32⟩ : BufTy).Contents (Elt Ideal) → (⟨S8x2048x2048, .f32⟩ : BufTy).Contents (Elt Ideal)),
    nullary main_cst (constant (F := Ideal) S_ .f32 0xFF800000#32),
    binary main_v12 main_cst main_v13 ((fun x v => Host.reduce (FloatOps.maximumf (F := Ideal) (φ := .f32)) x v reducesTo_S8x2048x2048_S8x2048_d2 h_S_) : (⟨S8x2048x2048, .f32⟩ : BufTy).Contents (Elt Ideal) → (⟨S_, .f32⟩ : BufTy).Contents (Elt Ideal) → (⟨S8x2048, .f32⟩ : BufTy).Contents (Elt Ideal)),
    nullary main_cst_0 (constant (F := Ideal) S_ .f32 0xFF800000#32),
    unary main_cst_0 main_v14 (broadcastInDim S8x2048 ![] bcast_S_S8x2048 : (⟨S_, .f32⟩ : BufTy).Contents (Elt Ideal) → (⟨S8x2048, .f32⟩ : BufTy).Contents (Elt Ideal)),
    binary main_v14 main_v13 main_v15 (maximumf (F := Ideal) (φ := .f32) : (⟨S8x2048, .f32⟩ : BufTy).Contents (Elt Ideal) → (⟨S8x2048, .f32⟩ : BufTy).Contents (Elt Ideal) → (⟨S8x2048, .f32⟩ : BufTy).Contents (Elt Ideal)),
    unary main_v15 main_v16 (broadcastInDim S8x2048x1 ![0, 1] bcast_S8x2048_S8x2048x1_0_1 : (⟨S8x2048, .f32⟩ : BufTy).Contents (Elt Ideal) → (⟨S8x2048x1, .f32⟩ : BufTy).Contents (Elt Ideal)),
    unary main_v16 main_v17 (broadcastInDim S8x2048x2048 ![0, 1, 2] bcast_S8x2048x1_S8x2048x2048_0_1_2 : (⟨S8x2048x1, .f32⟩ : BufTy).Contents (Elt Ideal) → (⟨S8x2048x2048, .f32⟩ : BufTy).Contents (Elt Ideal)),
    binary main_v12 main_v17 main_v18 (subf (F := Ideal) (φ := .f32) : (⟨S8x2048x2048, .f32⟩ : BufTy).Contents (Elt Ideal) → (⟨S8x2048x2048, .f32⟩ : BufTy).Contents (Elt Ideal) → (⟨S8x2048x2048, .f32⟩ : BufTy).Contents (Elt Ideal)),
    unary main_v18 main_v19 (Host.exp (F := Ideal) (φ := .f32) : (⟨S8x2048x2048, .f32⟩ : BufTy).Contents (Elt Ideal) → (⟨S8x2048x2048, .f32⟩ : BufTy).Contents (Elt Ideal)),
    nullary main_cst_1 (constant (F := Ideal) S_ .f32 0x00000000#32),
    binary main_v19 main_cst_1 main_v20 ((fun x v => Host.reduceAdd (F := Ideal) (φ := .f32) x v reducesTo_S8x2048x2048_S8x2048_d2 h_S_) : (⟨S8x2048x2048, .f32⟩ : BufTy).Contents (Elt Ideal) → (⟨S_, .f32⟩ : BufTy).Contents (Elt Ideal) → (⟨S8x2048, .f32⟩ : BufTy).Contents (Elt Ideal)),
    unary main_v20 main_v21 (broadcastInDim S8x2048x1 ![0, 1] bcast_S8x2048_S8x2048x1_0_1 : (⟨S8x2048, .f32⟩ : BufTy).Contents (Elt Ideal) → (⟨S8x2048x1, .f32⟩ : BufTy).Contents (Elt Ideal)),
    unary main_v21 main_v22 (broadcastInDim S8x2048x2048 ![0, 1, 2] bcast_S8x2048x1_S8x2048x2048_0_1_2 : (⟨S8x2048x1, .f32⟩ : BufTy).Contents (Elt Ideal) → (⟨S8x2048x2048, .f32⟩ : BufTy).Contents (Elt Ideal)),
    binary main_v19 main_v22 main_v23 (Host.divf (F := Ideal) (φ := .f32) : (⟨S8x2048x2048, .f32⟩ : BufTy).Contents (Elt Ideal) → (⟨S8x2048x2048, .f32⟩ : BufTy).Contents (Elt Ideal) → (⟨S8x2048x2048, .f32⟩ : BufTy).Contents (Elt Ideal)),
    binary main_v23 main_v11 main_v24 ((fun l r => Host.dotGeneral (F := Ideal) (φ₁ := .f32) (φ₂ := .f32) dot_S8x2048x2048_S8x2048x256_S8x2048x256_2_1_1_2_0_0 none l r) : (⟨S8x2048x2048, .f32⟩ : BufTy).Contents (Elt Ideal) → (⟨S8x2048x256, .f32⟩ : BufTy).Contents (Elt Ideal) → (⟨S8x2048x256, .f32⟩ : BufTy).Contents (Elt Ideal)),
    binary main_arg0 main_arg1 main_v25 ((fun a b => Cert.LibRunFamilies.cat2 S8x2048x512 2 S8x2048x256 S8x2048x256 a b concatenates_S8x2048x256_S8x2048x256_S8x2048x512_d2) : (⟨S8x2048x256, .f32⟩ : BufTy).Contents (Elt Ideal) → (⟨S8x2048x256, .f32⟩ : BufTy).Contents (Elt Ideal) → (⟨S8x2048x512, .f32⟩ : BufTy).Contents (Elt Ideal)),
    binary main_v25 main_arg8 main_v26 ((fun l r => Host.dotGeneral (F := Ideal) (φ₁ := .f32) (φ₂ := .f32) dot_S8x2048x512_S256x512_S8x2048x256_2_1_01_0_n_n none l r) : (⟨S8x2048x512, .f32⟩ : BufTy).Contents (Elt Ideal) → (⟨S256x512, .f32⟩ : BufTy).Contents (Elt Ideal) → (⟨S8x2048x256, .f32⟩ : BufTy).Contents (Elt Ideal)),
    unary main_arg9 main_v27 (broadcastInDim S1x1x256 ![2] bcast_S256_S1x1x256_2 : (⟨S256, .f32⟩ : BufTy).Contents (Elt Ideal) → (⟨S1x1x256, .f32⟩ : BufTy).Contents (Elt Ideal)),
    unary main_v27 main_v28 (broadcastInDim S8x2048x256 ![0, 1, 2] bcast_S1x1x256_S8x2048x256_0_1_2 : (⟨S1x1x256, .f32⟩ : BufTy).Contents (Elt Ideal) → (⟨S8x2048x256, .f32⟩ : BufTy).Contents (Elt Ideal)),
    binary main_v26 main_v28 main_v29 (addf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    unary main_v29 main_v30 (Host.negf (F := Ideal) (φ := .f32) : (⟨S8x2048x256, .f32⟩ : BufTy).Contents (Elt Ideal) → (⟨S8x2048x256, .f32⟩ : BufTy).Contents (Elt Ideal)),
    unary main_v30 main_v31 (Host.exp (F := Ideal) (φ := .f32) : (⟨S8x2048x256, .f32⟩ : BufTy).Contents (Elt Ideal) → (⟨S8x2048x256, .f32⟩ : BufTy).Contents (Elt Ideal)),
    nullary main_cst_2 (constant (F := Ideal) S_ .f32 0x3F800000#32),
    unary main_cst_2 main_v32 (broadcastInDim S8x2048x256 ![] bcast_S_S8x2048x256 : (⟨S_, .f32⟩ : BufTy).Contents (Elt Ideal) → (⟨S8x2048x256, .f32⟩ : BufTy).Contents (Elt Ideal)),
    binary main_v32 main_v31 main_v33 (addf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    nullary main_cst_3 (constant (F := Ideal) S_ .f32 0x3F800000#32),
    unary main_cst_3 main_v34 (broadcastInDim S8x2048x256 ![] bcast_S_S8x2048x256 : (⟨S_, .f32⟩ : BufTy).Contents (Elt Ideal) → (⟨S8x2048x256, .f32⟩ : BufTy).Contents (Elt Ideal)),
    binary main_v34 main_v33 main_v35 (Host.divf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    binary main_v25 main_arg10 main_v36 ((fun l r => Host.dotGeneral (F := Ideal) (φ₁ := .f32) (φ₂ := .f32) dot_S8x2048x512_S256x512_S8x2048x256_2_1_01_0_n_n none l r) : (⟨S8x2048x512, .f32⟩ : BufTy).Contents (Elt Ideal) → (⟨S256x512, .f32⟩ : BufTy).Contents (Elt Ideal) → (⟨S8x2048x256, .f32⟩ : BufTy).Contents (Elt Ideal)),
    unary main_arg11 main_v37 (broadcastInDim S1x1x256 ![2] bcast_S256_S1x1x256_2 : (⟨S256, .f32⟩ : BufTy).Contents (Elt Ideal) → (⟨S1x1x256, .f32⟩ : BufTy).Contents (Elt Ideal)),
    unary main_v37 main_v38 (broadcastInDim S8x2048x256 ![0, 1, 2] bcast_S1x1x256_S8x2048x256_0_1_2 : (⟨S1x1x256, .f32⟩ : BufTy).Contents (Elt Ideal) → (⟨S8x2048x256, .f32⟩ : BufTy).Contents (Elt Ideal)),
    binary main_v36 main_v38 main_v39 (addf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    unary main_v39 main_v40 (Host.negf (F := Ideal) (φ := .f32) : (⟨S8x2048x256, .f32⟩ : BufTy).Contents (Elt Ideal) → (⟨S8x2048x256, .f32⟩ : BufTy).Contents (Elt Ideal)),
    unary main_v40 main_v41 (Host.exp (F := Ideal) (φ := .f32) : (⟨S8x2048x256, .f32⟩ : BufTy).Contents (Elt Ideal) → (⟨S8x2048x256, .f32⟩ : BufTy).Contents (Elt Ideal)),
    nullary main_cst_4 (constant (F := Ideal) S_ .f32 0x3F800000#32),
    unary main_cst_4 main_v42 (broadcastInDim S8x2048x256 ![] bcast_S_S8x2048x256 : (⟨S_, .f32⟩ : BufTy).Contents (Elt Ideal) → (⟨S8x2048x256, .f32⟩ : BufTy).Contents (Elt Ideal)),
    binary main_v42 main_v41 main_v43 (addf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    nullary main_cst_5 (constant (F := Ideal) S_ .f32 0x3F800000#32),
    unary main_cst_5 main_v44 (broadcastInDim S8x2048x256 ![] bcast_S_S8x2048x256 : (⟨S_, .f32⟩ : BufTy).Contents (Elt Ideal) → (⟨S8x2048x256, .f32⟩ : BufTy).Contents (Elt Ideal)),
    binary main_v44 main_v43 main_v45 (Host.divf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    binary main_v45 main_arg1 main_v46 (mulf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    binary main_arg0 main_v46 main_v47 ((fun a b => Cert.LibRunFamilies.cat2 S8x2048x512 2 S8x2048x256 S8x2048x256 a b concatenates_S8x2048x256_S8x2048x256_S8x2048x512_d2) : (⟨S8x2048x256, .f32⟩ : BufTy).Contents (Elt Ideal) → (⟨S8x2048x256, .f32⟩ : BufTy).Contents (Elt Ideal) → (⟨S8x2048x512, .f32⟩ : BufTy).Contents (Elt Ideal)),
    binary main_v47 main_arg12 main_v48 ((fun l r => Host.dotGeneral (F := Ideal) (φ₁ := .f32) (φ₂ := .f32) dot_S8x2048x512_S256x512_S8x2048x256_2_1_01_0_n_n none l r) : (⟨S8x2048x512, .f32⟩ : BufTy).Contents (Elt Ideal) → (⟨S256x512, .f32⟩ : BufTy).Contents (Elt Ideal) → (⟨S8x2048x256, .f32⟩ : BufTy).Contents (Elt Ideal)),
    unary main_arg13 main_v49 (broadcastInDim S1x1x256 ![2] bcast_S256_S1x1x256_2 : (⟨S256, .f32⟩ : BufTy).Contents (Elt Ideal) → (⟨S1x1x256, .f32⟩ : BufTy).Contents (Elt Ideal)),
    unary main_v49 main_v50 (broadcastInDim S8x2048x256 ![0, 1, 2] bcast_S1x1x256_S8x2048x256_0_1_2 : (⟨S1x1x256, .f32⟩ : BufTy).Contents (Elt Ideal) → (⟨S8x2048x256, .f32⟩ : BufTy).Contents (Elt Ideal)),
    binary main_v48 main_v50 main_v51 (addf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    unary main_v51 main_v52 (Host.tanh (F := Ideal) (φ := .f32) : (⟨S8x2048x256, .f32⟩ : BufTy).Contents (Elt Ideal) → (⟨S8x2048x256, .f32⟩ : BufTy).Contents (Elt Ideal)),
    nullary main_cst_6 (constant (F := Ideal) S_ .f32 0x3F800000#32),
    unary main_cst_6 main_v53 (broadcastInDim S8x2048x256 ![] bcast_S_S8x2048x256 : (⟨S_, .f32⟩ : BufTy).Contents (Elt Ideal) → (⟨S8x2048x256, .f32⟩ : BufTy).Contents (Elt Ideal)),
    binary main_v53 main_v35 main_v54 (subf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    binary main_v54 main_arg1 main_v55 (mulf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    binary main_v35 main_v52 main_v56 (mulf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)),
    binary main_v55 main_v56 main_v57 (addf (F := Ideal) (φ := .f32) : (⟨S8x2048x256, .f32⟩ : BufTy).Contents (Elt Ideal) → (⟨S8x2048x256, .f32⟩ : BufTy).Contents (Elt Ideal) → (⟨S8x2048x256, .f32⟩ : BufTy).Contents (Elt Ideal)) ]

set_option maxRecDepth 8192 in
set_option maxHeartbeats 4000000 in
theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt Ideal))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., nullary_bufs_sub .., unary_bufs_sub .., binary_bufs_sub .., binary_bufs_sub .., binary_bufs_sub .., binary_bufs_sub ..⟩

/-- Every buffer after the run is the fold of the operations over the launch contents. -/
theorem run_fold (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

set_option maxRecDepth 8192 in
set_option maxHeartbeats 26400000 in
/-- On every device, from any memory with zero counters: every weakly fair execution of the reference terminates with
    the new memory and the attention weights at the staged computation of the arguments, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v57) = refNewMemory (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
        ∧ r.2.mem ((c.tc : Thread Cert.ReferenceIdeal.nD Cert.ReferenceIdeal.τ).loc Cert.ReferenceIdeal.main_v23) = refProbs (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13) :=
  (θ_run defs _ _).mono (fun _ h c => ⟨(h c main_v57).trans (by after_results_simp; rfl),
      (h c main_v23).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp),
      (h c main_arg11).trans (by after_results_simp),
      (h c main_arg12).trans (by after_results_simp),
      (h c main_arg13).trans (by after_results_simp)⟩)
    (run_fold m ρ)

end Cert.RefSide

end
-- ==== Proof.RefDots.lean ====
/-
  The reference's three products read at an index, on the extended reals.

  * A projection [8, 2048, 256] x [128, 256] -> [8, 2048, 128], contracting the last axes: entry (b, n, c) is the sum
    over d of x(b, n, d) * W(c, d).
  * The scores, batched over the first axis, [8, 2048, 128] x [8, 2048, 128] -> [8, 2048, 2048], contracting the last
    axes: entry (b, q, k) is the sum over c of u(b, q, c) * v(b, k, c).
  * A gate layer [8, 2048, 512] x [256, 512] -> [8, 2048, 256]: entry (b, n, m) is the sum over j of f(b, n, j) * W(m, j).

  Each is the product's defining sum over its contraction index, re-indexed through the one contracted coordinate, with
  the operand indices computed from the dimension numbers coordinate by coordinate.
-/
import proofs.«134565_j22926535426539_1_alg».proof.Proof.RefStages
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-! ### The projection's operand indices -/

theorem projDot_lhs0 (i : S8x2048x128.Idx) (q : dot_S8x2048x256_S128x256_S8x2048x128_2_1_01_0_n_n.contr.Idx) : (dot_S8x2048x256_S128x256_S8x2048x128_2_1_01_0_n_n.lhsIdx i q 0).val = (i 0).val := by
  unfold DotDims.lhsIdx
  rw [dif_neg (show ¬(0 : Fin S8x2048x256.rank) ∈ dot_S8x2048x256_S128x256_S8x2048x128_2_1_01_0_n_n.lhsBatch by decide),
    dif_pos (show (0 : Fin S8x2048x256.rank) ∈ dot_S8x2048x256_S128x256_S8x2048x128_2_1_01_0_n_n.lhsNonContracting by decide)]
  rfl
theorem projDot_lhs1 (i : S8x2048x128.Idx) (q : dot_S8x2048x256_S128x256_S8x2048x128_2_1_01_0_n_n.contr.Idx) : (dot_S8x2048x256_S128x256_S8x2048x128_2_1_01_0_n_n.lhsIdx i q 1).val = (i 1).val := by
  unfold DotDims.lhsIdx
  rw [dif_neg (show ¬(1 : Fin S8x2048x256.rank) ∈ dot_S8x2048x256_S128x256_S8x2048x128_2_1_01_0_n_n.lhsBatch by decide),
    dif_pos (show (1 : Fin S8x2048x256.rank) ∈ dot_S8x2048x256_S128x256_S8x2048x128_2_1_01_0_n_n.lhsNonContracting by decide)]
  rfl
theorem projDot_lhs2 (i : S8x2048x128.Idx) (q : dot_S8x2048x256_S128x256_S8x2048x128_2_1_01_0_n_n.contr.Idx) : (dot_S8x2048x256_S128x256_S8x2048x128_2_1_01_0_n_n.lhsIdx i q 2).val = (q ⟨0, by decide⟩).val :=
  dot_S8x2048x256_S128x256_S8x2048x128_2_1_01_0_n_n.lhsIdx_val_of_single rfl i q
theorem projDot_rhs0 (i : S8x2048x128.Idx) (q : dot_S8x2048x256_S128x256_S8x2048x128_2_1_01_0_n_n.contr.Idx) : (dot_S8x2048x256_S128x256_S8x2048x128_2_1_01_0_n_n.rhsIdx i q 0).val = (i 2).val := by
  unfold DotDims.rhsIdx
  rw [dif_neg (show ¬(0 : Fin S128x256.rank) ∈ dot_S8x2048x256_S128x256_S8x2048x128_2_1_01_0_n_n.rhsBatch by decide),
    dif_pos (show (0 : Fin S128x256.rank) ∈ dot_S8x2048x256_S128x256_S8x2048x128_2_1_01_0_n_n.rhsNonContracting by decide)]
  rfl
theorem projDot_rhs1 (i : S8x2048x128.Idx) (q : dot_S8x2048x256_S128x256_S8x2048x128_2_1_01_0_n_n.contr.Idx) : (dot_S8x2048x256_S128x256_S8x2048x128_2_1_01_0_n_n.rhsIdx i q 1).val = (q ⟨0, by decide⟩).val :=
  dot_S8x2048x256_S128x256_S8x2048x128_2_1_01_0_n_n.rhsIdx_val_of_single rfl i q

/-- A projection's product at (bt, n, c): the inner product of row (bt, n) of `x` with row `c` of `W`. -/
theorem projDot_apply (x : TSeq) (W : TProjW) (bt : Fin 8) (n : Fin 2048) (c : Fin 128) :
    Host.dotGeneral (F := Ideal) dot_S8x2048x256_S128x256_S8x2048x128_2_1_01_0_n_n none x W (ix3 bt n c) = ∑ d : Fin 256, x (ix3 bt n d) * W (ix2 c d) := by
  simp only [Host.dotGeneral]
  rw [Ideal.dotGeneral_apply, ← Equiv.sum_comp (contrEquiv1 dot_S8x2048x256_S128x256_S8x2048x128_2_1_01_0_n_n 256 rfl rfl).symm]
  refine Finset.sum_congr rfl fun k _ => ?_
  have hk := contrEquiv1_symm_val dot_S8x2048x256_S128x256_S8x2048x128_2_1_01_0_n_n 256 rfl rfl k
  have el : dot_S8x2048x256_S128x256_S8x2048x128_2_1_01_0_n_n.lhsIdx (ix3 bt n c) ((contrEquiv1 dot_S8x2048x256_S128x256_S8x2048x128_2_1_01_0_n_n 256 rfl rfl).symm k) = ix3 bt n k :=
    funext fun a => Fin.ext (by
      match a with
      | ⟨0, _⟩ => exact projDot_lhs0 _ _
      | ⟨1, _⟩ => exact projDot_lhs1 _ _
      | ⟨2, _⟩ => exact (projDot_lhs2 _ _).trans hk)
  have er : dot_S8x2048x256_S128x256_S8x2048x128_2_1_01_0_n_n.rhsIdx (ix3 bt n c) ((contrEquiv1 dot_S8x2048x256_S128x256_S8x2048x128_2_1_01_0_n_n 256 rfl rfl).symm k) = ix2 c k :=
    funext fun a => Fin.ext (by
      match a with
      | ⟨0, _⟩ => exact projDot_rhs0 _ _
      | ⟨1, _⟩ => exact (projDot_rhs1 _ _).trans hk)
  rw [el, er]

/-! ### A gate layer's operand indices -/

theorem layerDot_lhs0 (i : S8x2048x256.Idx) (q : dot_S8x2048x512_S256x512_S8x2048x256_2_1_01_0_n_n.contr.Idx) : (dot_S8x2048x512_S256x512_S8x2048x256_2_1_01_0_n_n.lhsIdx i q 0).val = (i 0).val := by
  unfold DotDims.lhsIdx
  rw [dif_neg (show ¬(0 : Fin S8x2048x512.rank) ∈ dot_S8x2048x512_S256x512_S8x2048x256_2_1_01_0_n_n.lhsBatch by decide),
    dif_pos (show (0 : Fin S8x2048x512.rank) ∈ dot_S8x2048x512_S256x512_S8x2048x256_2_1_01_0_n_n.lhsNonContracting by decide)]
  rfl
theorem layerDot_lhs1 (i : S8x2048x256.Idx) (q : dot_S8x2048x512_S256x512_S8x2048x256_2_1_01_0_n_n.contr.Idx) : (dot_S8x2048x512_S256x512_S8x2048x256_2_1_01_0_n_n.lhsIdx i q 1).val = (i 1).val := by
  unfold DotDims.lhsIdx
  rw [dif_neg (show ¬(1 : Fin S8x2048x512.rank) ∈ dot_S8x2048x512_S256x512_S8x2048x256_2_1_01_0_n_n.lhsBatch by decide),
    dif_pos (show (1 : Fin S8x2048x512.rank) ∈ dot_S8x2048x512_S256x512_S8x2048x256_2_1_01_0_n_n.lhsNonContracting by decide)]
  rfl
theorem layerDot_lhs2 (i : S8x2048x256.Idx) (q : dot_S8x2048x512_S256x512_S8x2048x256_2_1_01_0_n_n.contr.Idx) : (dot_S8x2048x512_S256x512_S8x2048x256_2_1_01_0_n_n.lhsIdx i q 2).val = (q ⟨0, by decide⟩).val :=
  dot_S8x2048x512_S256x512_S8x2048x256_2_1_01_0_n_n.lhsIdx_val_of_single rfl i q
theorem layerDot_rhs0 (i : S8x2048x256.Idx) (q : dot_S8x2048x512_S256x512_S8x2048x256_2_1_01_0_n_n.contr.Idx) : (dot_S8x2048x512_S256x512_S8x2048x256_2_1_01_0_n_n.rhsIdx i q 0).val = (i 2).val := by
  unfold DotDims.rhsIdx
  rw [dif_neg (show ¬(0 : Fin S256x512.rank) ∈ dot_S8x2048x512_S256x512_S8x2048x256_2_1_01_0_n_n.rhsBatch by decide),
    dif_pos (show (0 : Fin S256x512.rank) ∈ dot_S8x2048x512_S256x512_S8x2048x256_2_1_01_0_n_n.rhsNonContracting by decide)]
  rfl
theorem layerDot_rhs1 (i : S8x2048x256.Idx) (q : dot_S8x2048x512_S256x512_S8x2048x256_2_1_01_0_n_n.contr.Idx) : (dot_S8x2048x512_S256x512_S8x2048x256_2_1_01_0_n_n.rhsIdx i q 1).val = (q ⟨0, by decide⟩).val :=
  dot_S8x2048x512_S256x512_S8x2048x256_2_1_01_0_n_n.rhsIdx_val_of_single rfl i q

/-- A gate layer's product at (bt, n, m): the inner product of the joined row (bt, n) with row `m` of `W`. -/
theorem layerDot_apply (x : TJoined) (W : TGateW) (bt : Fin 8) (n : Fin 2048) (c : Fin 256) :
    Host.dotGeneral (F := Ideal) dot_S8x2048x512_S256x512_S8x2048x256_2_1_01_0_n_n none x W (ix3 bt n c) = ∑ d : Fin 512, x (ix3 bt n d) * W (ix2 c d) := by
  simp only [Host.dotGeneral]
  rw [Ideal.dotGeneral_apply, ← Equiv.sum_comp (contrEquiv1 dot_S8x2048x512_S256x512_S8x2048x256_2_1_01_0_n_n 512 rfl rfl).symm]
  refine Finset.sum_congr rfl fun k _ => ?_
  have hk := contrEquiv1_symm_val dot_S8x2048x512_S256x512_S8x2048x256_2_1_01_0_n_n 512 rfl rfl k
  have el : dot_S8x2048x512_S256x512_S8x2048x256_2_1_01_0_n_n.lhsIdx (ix3 bt n c) ((contrEquiv1 dot_S8x2048x512_S256x512_S8x2048x256_2_1_01_0_n_n 512 rfl rfl).symm k) = ix3 bt n k :=
    funext fun a => Fin.ext (by
      match a with
      | ⟨0, _⟩ => exact layerDot_lhs0 _ _
      | ⟨1, _⟩ => exact layerDot_lhs1 _ _
      | ⟨2, _⟩ => exact (layerDot_lhs2 _ _).trans hk)
  have er : dot_S8x2048x512_S256x512_S8x2048x256_2_1_01_0_n_n.rhsIdx (ix3 bt n c) ((contrEquiv1 dot_S8x2048x512_S256x512_S8x2048x256_2_1_01_0_n_n 512 rfl rfl).symm k) = ix2 c k :=
    funext fun a => Fin.ext (by
      match a with
      | ⟨0, _⟩ => exact layerDot_rhs0 _ _
      | ⟨1, _⟩ => exact (layerDot_rhs1 _ _).trans hk)
  rw [el, er]

/-! ### The scores' operand indices (the first axis is a batch axis on both sides) -/

theorem scoreDot_lhs0 (i : S8x2048x2048.Idx) (q : dot_S8x2048x128_S8x2048x128_S8x2048x2048_2_2_1_1_0_0.contr.Idx) : (dot_S8x2048x128_S8x2048x128_S8x2048x2048_2_2_1_1_0_0.lhsIdx i q 0).val = (i 0).val := by
  unfold DotDims.lhsIdx
  rw [dif_pos (show (0 : Fin S8x2048x128.rank) ∈ dot_S8x2048x128_S8x2048x128_S8x2048x2048_2_2_1_1_0_0.lhsBatch by decide)]
  rfl
theorem scoreDot_lhs1 (i : S8x2048x2048.Idx) (q : dot_S8x2048x128_S8x2048x128_S8x2048x2048_2_2_1_1_0_0.contr.Idx) : (dot_S8x2048x128_S8x2048x128_S8x2048x2048_2_2_1_1_0_0.lhsIdx i q 1).val = (i 1).val := by
  unfold DotDims.lhsIdx
  rw [dif_neg (show ¬(1 : Fin S8x2048x128.rank) ∈ dot_S8x2048x128_S8x2048x128_S8x2048x2048_2_2_1_1_0_0.lhsBatch by decide),
    dif_pos (show (1 : Fin S8x2048x128.rank) ∈ dot_S8x2048x128_S8x2048x128_S8x2048x2048_2_2_1_1_0_0.lhsNonContracting by decide)]
  rfl
theorem scoreDot_lhs2 (i : S8x2048x2048.Idx) (q : dot_S8x2048x128_S8x2048x128_S8x2048x2048_2_2_1_1_0_0.contr.Idx) : (dot_S8x2048x128_S8x2048x128_S8x2048x2048_2_2_1_1_0_0.lhsIdx i q 2).val = (q ⟨0, by decide⟩).val :=
  dot_S8x2048x128_S8x2048x128_S8x2048x2048_2_2_1_1_0_0.lhsIdx_val_of_single rfl i q
theorem scoreDot_rhs0 (i : S8x2048x2048.Idx) (q : dot_S8x2048x128_S8x2048x128_S8x2048x2048_2_2_1_1_0_0.contr.Idx) : (dot_S8x2048x128_S8x2048x128_S8x2048x2048_2_2_1_1_0_0.rhsIdx i q 0).val = (i 0).val := by
  unfold DotDims.rhsIdx
  rw [dif_pos (show (0 : Fin S8x2048x128.rank) ∈ dot_S8x2048x128_S8x2048x128_S8x2048x2048_2_2_1_1_0_0.rhsBatch by decide)]
  rfl
theorem scoreDot_rhs1 (i : S8x2048x2048.Idx) (q : dot_S8x2048x128_S8x2048x128_S8x2048x2048_2_2_1_1_0_0.contr.Idx) : (dot_S8x2048x128_S8x2048x128_S8x2048x2048_2_2_1_1_0_0.rhsIdx i q 1).val = (i 2).val := by
  unfold DotDims.rhsIdx
  rw [dif_neg (show ¬(1 : Fin S8x2048x128.rank) ∈ dot_S8x2048x128_S8x2048x128_S8x2048x2048_2_2_1_1_0_0.rhsBatch by decide),
    dif_pos (show (1 : Fin S8x2048x128.rank) ∈ dot_S8x2048x128_S8x2048x128_S8x2048x2048_2_2_1_1_0_0.rhsNonContracting by decide)]
  rfl
theorem scoreDot_rhs2 (i : S8x2048x2048.Idx) (q : dot_S8x2048x128_S8x2048x128_S8x2048x2048_2_2_1_1_0_0.contr.Idx) : (dot_S8x2048x128_S8x2048x128_S8x2048x2048_2_2_1_1_0_0.rhsIdx i q 2).val = (q ⟨0, by decide⟩).val :=
  dot_S8x2048x128_S8x2048x128_S8x2048x2048_2_2_1_1_0_0.rhsIdx_val_of_single rfl i q

/-- The scores' product at (bt, q, k): the inner product of row (bt, q) of `u` with row (bt, k) of `v`. -/
theorem scoreDot_apply (u v : TProj) (bt : Fin 8) (q k : Fin 2048) :
    Host.dotGeneral (F := Ideal) dot_S8x2048x128_S8x2048x128_S8x2048x2048_2_2_1_1_0_0 none u v (ix3 bt q k) = ∑ c : Fin 128, u (ix3 bt q c) * v (ix3 bt k c) := by
  simp only [Host.dotGeneral]
  rw [Ideal.dotGeneral_apply, ← Equiv.sum_comp (contrEquiv1 dot_S8x2048x128_S8x2048x128_S8x2048x2048_2_2_1_1_0_0 128 rfl rfl).symm]
  refine Finset.sum_congr rfl fun c _ => ?_
  have hc := contrEquiv1_symm_val dot_S8x2048x128_S8x2048x128_S8x2048x2048_2_2_1_1_0_0 128 rfl rfl c
  have el : dot_S8x2048x128_S8x2048x128_S8x2048x2048_2_2_1_1_0_0.lhsIdx (ix3 bt q k) ((contrEquiv1 dot_S8x2048x128_S8x2048x128_S8x2048x2048_2_2_1_1_0_0 128 rfl rfl).symm c) = ix3 bt q c :=
    funext fun a => Fin.ext (by
      match a with
      | ⟨0, _⟩ => exact scoreDot_lhs0 _ _
      | ⟨1, _⟩ => exact scoreDot_lhs1 _ _
      | ⟨2, _⟩ => exact (scoreDot_lhs2 _ _).trans hc)
  have er : dot_S8x2048x128_S8x2048x128_S8x2048x2048_2_2_1_1_0_0.rhsIdx (ix3 bt q k) ((contrEquiv1 dot_S8x2048x128_S8x2048x128_S8x2048x2048_2_2_1_1_0_0 128 rfl rfl).symm c) = ix3 bt k c :=
    funext fun a => Fin.ext (by
      match a with
      | ⟨0, _⟩ => exact scoreDot_rhs0 _ _
      | ⟨1, _⟩ => exact scoreDot_rhs1 _ _
      | ⟨2, _⟩ => exact (scoreDot_rhs2 _ _).trans hc)
  rw [el, er]

end Cert.RefSide

end
-- ==== Proof.Spec.lean ====
/-
  The two results of the attention-gated memory update, as functions of the argument arrays, entry by entry, on the
  extended reals.

  Arrays: the input sequence `x` and the previous memory `pm`, both [8, 2048, 256]; the query and key projections
  (`Wq`, `Wk` : [128, 256], `bq`, `bk` : [128]); the three gate layers over the 512 joined features
  (`Wu`, `Wr`, `Wc` : [256, 512], `bu`, `br`, `bc` : [256]).

  * A projected entry: q(b, n, c) = (sum over d of x(b, n, d) * Wq(c, d)) + bq(c); k likewise from pm, Wk, bk.
  * A score: s(b, q, k) = sum over c of q(b, q, c) * k(b, k, c).
  * The attention weights are the softmax of a row of scores, written as it is computed: the row's maximum (taken from
    the seed minus infinity), the exponentials of the differences, their sum, the quotient.
  * The joined features of a row are x(b, n, ·) followed by a second block of 256 entries; a gate layer is
    (sum over the 512 joined features f(j) * W(m, j)) + bias(m).
  * update u = logistic(layer_u(x ++ pm)), reset r = logistic(layer_r(x ++ pm)),
    candidate c = tanh(layer_c(x ++ r * pm)), new memory = (1 - u) * pm + u * c.

  The seed minus infinity and the one are kept as their float words: both programs spell them with the same words, so
  nothing here evaluates them. Nothing in this module mentions a program.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-- A sequence array [8, 2048, 256], a projection matrix [128, 256] and its bias [128], a gate matrix [256, 512] and its
    bias [256], as functions of an index into the extended reals. -/
abbrev Seq := (⟨3, ![8, 2048, 256]⟩ : Shape).Idx → EReal
abbrev ProjW := (⟨2, ![128, 256]⟩ : Shape).Idx → EReal
abbrev ProjB := (⟨1, ![128]⟩ : Shape).Idx → EReal
abbrev GateW := (⟨2, ![256, 512]⟩ : Shape).Idx → EReal
abbrev GateB := (⟨1, ![256]⟩ : Shape).Idx → EReal

/-- The float word of minus infinity (the seed of a row's maximum) and of one, as extended reals. -/
abbrev negInf : EReal := Ideal.ofBits .f32 0xFF800000#32
abbrev one : EReal := Ideal.ofBits .f32 0x3F800000#32

/-- Row `r` of query tile `qi` (tiles of 512 rows) is row `qi * 512 + r` of the sequence. -/
def tileRow (qi : Fin 4) (r : Fin 512) : Fin 2048 := ⟨qi.val * 512 + r.val, by have := qi.isLt; have := r.isLt; omega⟩

theorem tileRow_val (qi : Fin 4) (r : Fin 512) : (tileRow qi r).val = qi.val * 512 + r.val := rfl

/-- A projected entry: the inner product of a row of `x` with row `c` of `W`, plus the bias. -/
def proj (x : Seq) (W : ProjW) (b : ProjB) (bt : Fin 8) (n : Fin 2048) (c : Fin 128) : EReal :=
  (∑ d : Fin 256, x (ix3 bt n d) * W (ix2 c d)) + b (ix1 c)

/-- The score of query row `q` against key row `k` in batch `bt`. -/
def score (x pm : Seq) (Wq : ProjW) (bq : ProjB) (Wk : ProjW) (bk : ProjB) (bt : Fin 8) (q k : Fin 2048) : EReal :=
  ∑ c : Fin 128, proj x Wq bq bt q c * proj pm Wk bk bt k c

/-- The maximum of a row of scores, taken from the seed minus infinity (and compared with the seed once more, as both
    programs do). -/
def rowMax (x pm : Seq) (Wq : ProjW) (bq : ProjB) (Wk : ProjW) (bk : ProjB) (bt : Fin 8) (q : Fin 2048) : EReal :=
  max negInf ((Finset.univ : Finset (Fin 2048)).fold max negInf (fun k => score x pm Wq bq Wk bk bt q k))

/-- The exponential of a score less its row's maximum. -/
def expo (x pm : Seq) (Wq : ProjW) (bq : ProjB) (Wk : ProjW) (bk : ProjB) (bt : Fin 8) (q k : Fin 2048) : EReal :=
  Ideal.exp (score x pm Wq bq Wk bk bt q k - rowMax x pm Wq bq Wk bk bt q)

/-- The sum of a row's exponentials. -/
def denom (x pm : Seq) (Wq : ProjW) (bq : ProjB) (Wk : ProjW) (bk : ProjB) (bt : Fin 8) (q : Fin 2048) : EReal :=
  ∑ k : Fin 2048, expo x pm Wq bq Wk bk bt q k

/-- THE ATTENTION WEIGHTS: the softmax of a row of scores, entry `(bt, q, k)`. -/
def probs (x pm : Seq) (Wq : ProjW) (bq : ProjB) (Wk : ProjW) (bk : ProjB) (bt : Fin 8) (q k : Fin 2048) : EReal :=
  Ideal.div (expo x pm Wq bq Wk bk bt q k) (denom x pm Wq bq Wk bk bt q)

/-- Two blocks of 256 features joined into 512: the first block, then the second. -/
def joinFeatures (f g : Fin 256 → EReal) (j : Fin 512) : EReal :=
  if h : j.val < 256 then f ⟨j.val, h⟩ else g ⟨j.val - 256, by have := j.isLt; omega⟩

/-- A gate layer over 512 joined features: entry `m` of `W · f + b`. -/
def layer (f : Fin 512 → EReal) (W : GateW) (b : GateB) (m : Fin 256) : EReal :=
  (∑ j : Fin 512, f j * W (ix2 m j)) + b (ix1 m)

/-- The features of a row: `x(bt, n, ·)` followed by `pm(bt, n, ·)`. -/
def rowFeatures (x pm : Seq) (bt : Fin 8) (n : Fin 2048) : Fin 512 → EReal :=
  joinFeatures (fun d => x (ix3 bt n d)) (fun d => pm (ix3 bt n d))

/-- A gate: the logistic function of a layer of the row's features (the update gate with `Wu, bu`, the reset gate with
    `Wr, br`). -/
def gate (x pm : Seq) (W : GateW) (b : GateB) (bt : Fin 8) (n : Fin 2048) (m : Fin 256) : EReal :=
  Ideal.logistic (layer (rowFeatures x pm bt n) W b m)

/-- The candidate's features: `x(bt, n, ·)` followed by the reset gate times `pm(bt, n, ·)`. -/
def candFeatures (x pm : Seq) (Wr : GateW) (br : GateB) (bt : Fin 8) (n : Fin 2048) : Fin 512 → EReal :=
  joinFeatures (fun d => x (ix3 bt n d)) (fun d => gate x pm Wr br bt n d * pm (ix3 bt n d))

/-- The candidate memory: the hyperbolic tangent of a layer of the candidate's features. -/
def candidate (x pm : Seq) (Wr : GateW) (br : GateB) (Wc : GateW) (bc : GateB) (bt : Fin 8) (n : Fin 2048) (m : Fin 256) : EReal :=
  Ideal.tanh (layer (candFeatures x pm Wr br bt n) Wc bc m)

/-- THE NEW MEMORY, entry `(bt, n, m)`: `(1 - u) * pm + u * c`. -/
def newMemory (x pm : Seq) (Wu : GateW) (bu : GateB) (Wr : GateW) (br : GateB) (Wc : GateW) (bc : GateB)
    (bt : Fin 8) (n : Fin 2048) (m : Fin 256) : EReal :=
  (one - gate x pm Wu bu bt n m) * pm (ix3 bt n m) + gate x pm Wu bu bt n m * candidate x pm Wr br Wc bc bt n m

end Cert.CellSpec

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibIndexReads.lean ====
/-
  Small reads at an index, and the logistic function written out as a quotient. Nothing here depends on a program.
    • An index of a matrix (of a vector) is determined by the values of its coordinates: the form in which a composed index
      map is identified with the index of given coordinates, each coordinate by reflexivity or by arithmetic.
    • A vector cut from entry o reads, at q, the source at o + q; cut, recast as one row and spread down the rows, it reads
      at (p, q) the source at o + q (needs LibKeepdims.lean beside it).
    • The logistic function and the hyperbolic tangent of a vector act entry by entry on the extended reals.
    • The quotient 1 / (1 + e^(−x)) with both ones written as the float32 word of one is the logistic function of the
      extended reals, at the infinities too: the word is the extended real one, and the logistic function is that quotient by
      definition. Stated on the extended reals' own operations and on the host's operations a reference program uses when
      it writes a sigmoid out as negate, exponential, add and divide.
-/
import proofs.«134565_j22926535426539_1_alg».proof.Proof.LibKeepdims
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost

noncomputable section

namespace IndexReads

open Idealize.ShloMosaic Idealize.ShloMosaic.ValueIdx

/-- A matrix index is determined by the values of its two coordinates. -/
theorem ix2_of_vals {n0 n1 : Nat} (i : (⟨2, ![n0, n1]⟩ : Shape).Idx) (a : Fin n0) (b : Fin n1)
    (h0 : (i 0).val = a.val) (h1 : (i 1).val = b.val) : i = ix2 a b :=
  (eq_ix2 i).trans (congrArg₂ ix2 (Fin.ext h0) (Fin.ext h1))

/-- A vector index is determined by the value of its coordinate. -/
theorem ix1_of_val {n : Nat} (i : (⟨1, ![n]⟩ : Shape).Idx) (a : Fin n) (h : (i 0).val = a.val) : i = ix1 a :=
  (eq_ix1 i).trans (congrArg ix1 (Fin.ext h))

/-- A vector cut from entry o reads, at q, the source at o + q. -/
theorem slice_vec_apply {α : Type} {n w : Nat} (o : Nat) (x : (⟨1, ![n]⟩ : Shape).Idx → α)
    (h : (⟨1, ![n]⟩ : Shape).Slices ![o] ⟨1, ![w]⟩) (q : Fin w) (k : Fin n) (hk : k.val = o + q.val) :
    extractStridedSlice ⟨1, ![w]⟩ ![o] x h (ix1 q) = x (ix1 k) :=
  extractStridedSlice_apply _ _ _ _ _ (fun ax => by
    match ax with
    | ⟨0, _⟩ => exact hk)

/-- A bias vector cut from entry o, recast as one row and spread down the rows, reads at (p, q) the vector at o + q. -/
theorem bias_half_apply {α : Type} {n w a : Nat} (o : Nat) (x : (⟨1, ![n]⟩ : Shape).Idx → α)
    (hs : (⟨1, ![n]⟩ : Shape).Slices ![o] ⟨1, ![w]⟩) (hc : (⟨1, ![w]⟩ : Shape).ShapeCasts ⟨2, ![1, w]⟩)
    (hb : (⟨2, ![1, w]⟩ : Shape).Broadcasts ⟨2, ![a, w]⟩) (p : Fin a) (q : Fin w) (k : Fin n) (hk : k.val = o + q.val) :
    broadcastTo ⟨2, ![a, w]⟩ (shapeCast ⟨2, ![1, w]⟩ (extractStridedSlice ⟨1, ![w]⟩ ![o] x hs) hc) hb (ix2 p q) = x (ix1 k) :=
  (Keepdims.broadcastTo_row_of_vec_apply _ hc hb p q).trans (slice_vec_apply o x hs q k hk)

/-- The logistic function of a vector acts entry by entry. -/
theorem logistic_apply {s : Shape} {φ : FTy} (a : FVec Ideal s φ) (i : s.Idx) : logistic a i = Ideal.logistic (a i) := rfl

/-- The hyperbolic tangent of a vector acts entry by entry. -/
theorem tanh_apply {s : Shape} {φ : FTy} (a : FVec Ideal s φ) (i : s.Idx) : tanh a i = Ideal.tanh (a i) := rfl

/-- The quotient 1 / (1 + e^(−x)), both ones written as the float32 word of one, is the logistic function. -/
theorem logistic_spelled_out (x : EReal) :
    Ideal.div (Ideal.ofBits .f32 0x3F800000#32) (Ideal.ofBits .f32 0x3F800000#32 + Ideal.exp (-x)) = Ideal.logistic x := by
  rw [Ideal.ofBits_one_f32]
  rfl

/-- The same in the host's operations: divide, add, exponential and negate, as a reference that writes a sigmoid out uses them. -/
theorem logistic_written_out (a : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf a)))
      = Ideal.logistic a :=
  logistic_spelled_out a

end IndexReads

end
-- ==== Proof.RefReads.lean ====
/-
  The reference's remaining array operations read at an index, on the extended reals.

  * A bias [c] spread as [1, 1, c] and then over [a, b, c] reads, at (p, q, r), entry r.
  * One value per row, [a, b], spread as [a, b, 1] and then along the row [a, b, c] reads, at (p, q, r), entry (p, q).
  * The maximum over the last axis from the seed minus infinity, compared once more with the seed, is the maximum of
    the row's entries from that seed; the sum over the last axis from the seed zero is the sum of the row's entries.
  * Two sequences joined along the feature axis read the first one below column 256 and the second one from there on.
  * The constant one spread over an array is the word of one everywhere, and 1 / (1 + exp (-z)) spelled with it is the
    logistic function entry by entry.
-/
import proofs.«134565_j22926535426539_1_alg».proof.Proof.RefStages
import proofs.«134565_j22926535426539_1_alg».proof.Proof.Spec
import proofs.«134565_j22926535426539_1_alg».proof.Proof.LibIndexReads
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

namespace Cert.RefSide

open Cert.ReferenceIdeal Cert.ReferenceIdeal.Gen Idealize.ShloMosaic Idealize.ShloMosaic.ValueIdx

/-! ## Spreading a bias and a row value -/

section Spread
variable {α : Type}

/-- A vector [c] spread as [1, 1, c] and then over [a, b, c] reads, at (p, q, r), entry r. -/
theorem bias_spread_apply {a b c : ℕ} (v : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (p : Fin a) (q : Fin b) (r : Fin c) :
    broadcastInDim ⟨3, ![a, b, c]⟩ ![0, 1, 2] h2 (broadcastInDim ⟨3, ![1, 1, c]⟩ ![2] h1 v) (ix3 p q r) = v (ix1 r) := by
  refine (broadcastInDim_apply _ h2 _ (ix3 p q r) (ix3 (0 : Fin 1) (0 : Fin 1) r) fun ax => ?_).trans
    (broadcastInDim_apply _ h1 v (ix3 (0 : Fin 1) (0 : Fin 1) r) (ix1 r) fun ax => ?_)
  · match ax with
    | ⟨0, _⟩ => rfl
    | ⟨1, _⟩ => rfl
    | ⟨2, _⟩ =>
      show r.val = if c = 1 then 0 else r.val
      split
      · have := r.isLt; omega
      · rfl
  · match ax with
    | ⟨0, _⟩ =>
      show r.val = if c = 1 then 0 else r.val
      split
      · have := r.isLt; omega
      · rfl

/-- One value per row, [a, b], spread as [a, b, 1] and then along the row reads, at (p, q, r), entry (p, q). -/
theorem row_spread_apply {a b c : ℕ} (v : (⟨2, ![a, b]⟩ : Shape).Idx → α)
    (h1 : (⟨2, ![a, b]⟩ : Shape).BroadcastsInDim ⟨3, ![a, b, 1]⟩ (![0, 1] : Fin 2 → Fin 3))
    (h2 : (⟨3, ![a, b, 1]⟩ : Shape).BroadcastsInDim ⟨3, ![a, b, c]⟩ (![0, 1, 2] : Fin 3 → Fin 3))
    (p : Fin a) (q : Fin b) (r : Fin c) :
    broadcastInDim ⟨3, ![a, b, c]⟩ ![0, 1, 2] h2 (broadcastInDim ⟨3, ![a, b, 1]⟩ ![0, 1] h1 v) (ix3 p q r) = v (ix2 p q) := by
  refine (broadcastInDim_apply _ h2 _ (ix3 p q r) (ix3 p q (0 : Fin 1)) fun ax => ?_).trans
    (broadcastInDim_apply _ h1 v (ix3 p q (0 : Fin 1)) (ix2 p q) fun ax => ?_)
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl

end Spread

/-- A row's value spread along the row of the table of scores. -/
theorem refAlongRow_apply (r : TRows) (bt : Fin 8) (q k : Fin 2048) : refAlongRow r (ix3 bt q k) = r (ix2 bt q) := by
  unfold refAlongRow
  exact row_spread_apply r _ _ bt q k

/-! ## The maximum and the sum over the last axis -/

/-- The row index (bt, q) with position k put back on the last axis is (bt, q, k). -/
theorem lift_last (h : S8x2048x2048.Reduces [2] S8x2048) (bt : Fin 8) (q : Fin 2048) (k : Fin (S8x2048x2048.size 2)) :
    h.lift (ix2 bt q) k = ix3 bt q (⟨k.val, k.isLt⟩ : Fin 2048) := by
  funext d
  apply Fin.ext
  rw [Shape.Reduces.lift_val]
  match d with
  | ⟨0, _⟩ => rfl
  | ⟨1, _⟩ => rfl
  | ⟨2, _⟩ => rfl

/-- The row maximum at (bt, q): the maximum of the row's entries from the seed minus infinity, compared with the seed. -/
theorem refRowMax_apply (s : TScores) (bt : Fin 8) (q : Fin 2048) :
    refRowMax s (ix2 bt q)
      = max Cert.CellSpec.negInf ((Finset.univ : Finset (Fin 2048)).fold max Cert.CellSpec.negInf (fun k => s (ix3 bt q k))) := by
  have hR : S8x2048x2048.Reduces [2] S8x2048 := by decide
  unfold refRowMax
  refine (maximumf_apply _ _ (ix2 bt q)).trans (congrArg (max Cert.CellSpec.negInf) ?_)
  rw [Host.reduce_eq_fold_single (FloatOps.maximumf (F := Ideal) (φ := .f32)) s _ reducesTo_S8x2048x2048_S8x2048_d2 hR h_S_]
  have hf : (s ∘ hR.lift (ix2 bt q)) = fun k : Fin 2048 => s (ix3 bt q k) :=
    funext fun k => congrArg s (lift_last hR bt q k)
  exact congrArg (fun f => Finset.fold max Cert.CellSpec.negInf f (Finset.univ : Finset (Fin 2048))) hf

/-- The row sum at (bt, q): the sum of the row's entries. -/
theorem refRowSum_apply (e : TScores) (bt : Fin 8) (q : Fin 2048) :
    refRowSum e (ix2 bt q) = ∑ k : Fin 2048, e (ix3 bt q k) := by
  have hR : S8x2048x2048.Reduces [2] S8x2048 := by decide
  unfold refRowSum
  refine (hostReduceAdd_apply e _ reducesTo_S8x2048x2048_S8x2048_d2 h_S_ (ix2 bt q)).trans ?_
  refine (Ideal.hostReduceAdd_single reducesTo_S8x2048x2048_S8x2048_d2 hR e _ (ix2 bt q)).trans ?_
  refine (congrArg (· + _) Ideal.ofBits_zero_f32).trans ((zero_add _).trans ?_)
  exact Finset.sum_congr rfl fun k _ => congrArg e (lift_last hR bt q k)

/-! ## The join along the feature axis -/

/-- Two sequences joined along the feature axis, at (bt, n, j): the first one's row below column 256, the second
    one's from there on. -/
theorem refJoin_apply (f g : TSeq) (bt : Fin 8) (n : Fin 2048) (j : Fin 512) :
    refJoin f g (ix3 bt n j)
      = Cert.CellSpec.joinFeatures (fun d => f (ix3 bt n d)) (fun d => g (ix3 bt n d)) j := by
  unfold refJoin Cert.LibRunFamilies.cat2 Cert.CellSpec.joinFeatures
  by_cases h : j.val < 256
  · rw [dif_pos h]
    exact concatenate_pair_apply_left 2 f g concatenates_S8x2048x256_S8x2048x256_S8x2048x512_d2 (ix3 bt n j) rfl
      (ix3 bt n (⟨j.val, h⟩ : Fin 256)) fun c => by
        match c with
        | ⟨0, _⟩ => rfl
        | ⟨1, _⟩ => rfl
        | ⟨2, _⟩ => rfl
  · rw [dif_neg h]
    exact concatenate_pair_apply_right 2 f g concatenates_S8x2048x256_S8x2048x256_S8x2048x512_d2 (ix3 bt n j) rfl rfl
      (ix3 bt n (⟨j.val - 256, by have := j.isLt; omega⟩ : Fin 256))
      (fun c hc => by
        match c, hc with
        | ⟨0, _⟩, _ => rfl
        | ⟨1, _⟩, _ => rfl
        | ⟨2, _⟩, hc => exact absurd (Fin.ext rfl) hc)
      (by show j.val - 256 + 256 = j.val; omega)

/-! ## The constant one and the logistic function spelled out -/

/-- The constant one spread over a sequence array is the word of one at every index. -/
theorem refOnes_apply (i : S8x2048x256.Idx) : refOnes i = Cert.CellSpec.one := rfl

/-- 1 / (1 + exp (-z)) with both ones the word of one is the logistic function, entry by entry. -/
theorem refSigmoid_apply (z : TSeq) (i : S8x2048x256.Idx) : refSigmoid z i = Ideal.logistic (z i) :=
  IndexReads.logistic_written_out (z i)

/-- The host's hyperbolic tangent acts entry by entry. -/
theorem hostTanh_apply (z : TSeq) (i : S8x2048x256.Idx) : Host.tanh (F := Ideal) z i = Ideal.tanh (z i) := rfl

end Cert.RefSide

end
-- ==== Proof.RefValue.lean ====
/-
  THE REFERENCE IS THE SPECIFICATION, entry by entry, on the extended reals.

  Each stage of the reference, read at an index, is the corresponding function of the specification: the projection,
  the scores, the exponentials of a row less its maximum, the softmax; a gate layer over the joined features, the
  gates, the candidate and the new memory. Both sides are the same arrangement of sums, so nothing is assumed of the
  entries.
-/
import proofs.«134565_j22926535426539_1_alg».proof.Proof.RefDots
import proofs.«134565_j22926535426539_1_alg».proof.Proof.RefReads

noncomputable section

namespace Cert.RefSide

open Cert.ReferenceIdeal Cert.ReferenceIdeal.Gen Idealize.ShloMosaic Idealize.ShloMosaic.ValueIdx

/-! ## The attention weights -/

/-- A projection at (bt, n, c). -/
theorem refProj_apply (x : TSeq) (W : TProjW) (b : TProjB) (bt : Fin 8) (n : Fin 2048) (c : Fin 128) :
    refProj x W b (ix3 bt n c) = Cert.CellSpec.proj x W b bt n c := by
  unfold refProj Cert.CellSpec.proj
  exact congrArg₂ (· + ·) (projDot_apply x W bt n c) (bias_spread_apply b _ _ bt n c)

/-- A score at (bt, q, k). -/
theorem refScores_apply (x pm : TSeq) (Wq : TProjW) (bq : TProjB) (Wk : TProjW) (bk : TProjB) (bt : Fin 8) (q k : Fin 2048) :
    refScores x pm Wq bq Wk bk (ix3 bt q k) = Cert.CellSpec.score x pm Wq bq Wk bk bt q k := by
  unfold refScores Cert.CellSpec.score
  refine (scoreDot_apply (refProj x Wq bq) (refProj pm Wk bk) bt q k).trans ?_
  exact Finset.sum_congr rfl fun c _ =>
    congrArg₂ (· * ·) (refProj_apply x Wq bq bt q c) (refProj_apply pm Wk bk bt k c)

/-- The exponential of a table's entry less its row's maximum, at (bt, q, k). -/
theorem refExps_apply (s : TScores) (bt : Fin 8) (q k : Fin 2048) :
    refExps s (ix3 bt q k)
      = Ideal.exp (s (ix3 bt q k)
          - max Cert.CellSpec.negInf ((Finset.univ : Finset (Fin 2048)).fold max Cert.CellSpec.negInf (fun k' => s (ix3 bt q k')))) := by
  unfold refExps
  show Ideal.exp (s (ix3 bt q k) - refAlongRow (refRowMax s) (ix3 bt q k)) = _
  rw [refAlongRow_apply, refRowMax_apply]

/-- The exponential of a score less its row's maximum is the specification's. -/
theorem refExps_scores (x pm : TSeq) (Wq : TProjW) (bq : TProjB) (Wk : TProjW) (bk : TProjB) (bt : Fin 8) (q k : Fin 2048) :
    refExps (refScores x pm Wq bq Wk bk) (ix3 bt q k) = Cert.CellSpec.expo x pm Wq bq Wk bk bt q k := by
  rw [refExps_apply]
  unfold Cert.CellSpec.expo Cert.CellSpec.rowMax
  simp only [refScores_apply]

/-- THE ATTENTION WEIGHTS of the reference are the specification's, entry by entry. -/
theorem refProbs_apply (x pm : TSeq) (Wq : TProjW) (bq : TProjB) (Wk : TProjW) (bk : TProjB) (bt : Fin 8) (q k : Fin 2048) :
    refProbs x pm Wq bq Wk bk (ix3 bt q k) = Cert.CellSpec.probs x pm Wq bq Wk bk bt q k := by
  unfold refProbs refSoftmax Cert.CellSpec.probs Cert.CellSpec.denom
  refine (hostDivf_apply _ _ (ix3 bt q k)).trans ?_
  rw [refAlongRow_apply, refRowSum_apply]
  simp only [refExps_scores]

/-! ## The new memory -/

/-- A gate layer at (bt, n, m): the specification's layer of the joined row. -/
theorem refLayer_apply (f : TJoined) (W : TGateW) (b : TGateB) (bt : Fin 8) (n : Fin 2048) (m : Fin 256) :
    refLayer f W b (ix3 bt n m) = Cert.CellSpec.layer (fun j => f (ix3 bt n j)) W b m := by
  unfold refLayer Cert.CellSpec.layer
  exact congrArg₂ (· + ·) (layerDot_apply f W bt n m) (bias_spread_apply b _ _ bt n m)

/-- A gate at (bt, n, m). -/
theorem refGate_apply (x pm : TSeq) (W : TGateW) (b : TGateB) (bt : Fin 8) (n : Fin 2048) (m : Fin 256) :
    refGate x pm W b (ix3 bt n m) = Cert.CellSpec.gate x pm W b bt n m := by
  unfold refGate Cert.CellSpec.gate Cert.CellSpec.rowFeatures
  refine (refSigmoid_apply _ (ix3 bt n m)).trans (congrArg Ideal.logistic ?_)
  refine (refLayer_apply (refJoin x pm) W b bt n m).trans ?_
  exact congrArg (fun f => Cert.CellSpec.layer f W b m) (funext fun j => refJoin_apply x pm bt n j)

/-- The candidate at (bt, n, m). -/
theorem refCandidate_apply (x pm : TSeq) (Wr : TGateW) (br : TGateB) (Wc : TGateW) (bc : TGateB)
    (bt : Fin 8) (n : Fin 2048) (m : Fin 256) :
    refCandidate x pm Wr br Wc bc (ix3 bt n m) = Cert.CellSpec.candidate x pm Wr br Wc bc bt n m := by
  unfold refCandidate Cert.CellSpec.candidate Cert.CellSpec.candFeatures
  refine (hostTanh_apply _ (ix3 bt n m)).trans (congrArg Ideal.tanh ?_)
  refine (refLayer_apply (refJoin x (mulf (refGate x pm Wr br) pm)) Wc bc bt n m).trans ?_
  refine congrArg (fun f => Cert.CellSpec.layer f Wc bc m) (funext fun j => ?_)
  refine (refJoin_apply x (mulf (refGate x pm Wr br) pm) bt n j).trans ?_
  refine congrArg (fun g => Cert.CellSpec.joinFeatures (fun d => x (ix3 bt n d)) g j) (funext fun d => ?_)
  exact congrArg (· * pm (ix3 bt n d)) (refGate_apply x pm Wr br bt n d)

/-- THE NEW MEMORY of the reference is the specification's, entry by entry. -/
theorem refNewMemory_apply (x pm : TSeq) (Wu : TGateW) (bu : TGateB) (Wr : TGateW) (br : TGateB) (Wc : TGateW) (bc : TGateB)
    (bt : Fin 8) (n : Fin 2048) (m : Fin 256) :
    refNewMemory x pm Wu bu Wr br Wc bc (ix3 bt n m) = Cert.CellSpec.newMemory x pm Wu bu Wr br Wc bc bt n m := by
  unfold refNewMemory Cert.CellSpec.newMemory
  show (Cert.CellSpec.one - refGate x pm Wu bu (ix3 bt n m)) * pm (ix3 bt n m)
      + refGate x pm Wu bu (ix3 bt n m) * refCandidate x pm Wr br Wc bc (ix3 bt n m) = _
  rw [refGate_apply, refCandidate_apply]

/-! ## The same, array by array

An array that agrees with the specification at every index is the reference's array. -/

theorem refProbs_ext (x pm : TSeq) (Wq : TProjW) (bq : TProjB) (Wk : TProjW) (bk : TProjB) (G : TScores)
    (hG : ∀ (bt : Fin 8) (q k : Fin 2048), G (ix3 bt q k) = Cert.CellSpec.probs x pm Wq bq Wk bk bt q k) :
    refProbs x pm Wq bq Wk bk = G := by
  funext i
  obtain ⟨bt, q, k, rfl⟩ : ∃ (bt : Fin 8) (q k : Fin 2048), i = ix3 bt q k := ⟨i 0, i 1, i 2, eq_ix3 i⟩
  exact (refProbs_apply x pm Wq bq Wk bk bt q k).trans (hG bt q k).symm

theorem refNewMemory_ext (x pm : TSeq) (Wu : TGateW) (bu : TGateB) (Wr : TGateW) (br : TGateB) (Wc : TGateW) (bc : TGateB)
    (G : TSeq)
    (hG : ∀ (bt : Fin 8) (n : Fin 2048) (m : Fin 256), G (ix3 bt n m) = Cert.CellSpec.newMemory x pm Wu bu Wr br Wc bc bt n m) :
    refNewMemory x pm Wu bu Wr br Wc bc = G := by
  funext i
  obtain ⟨bt, n, m, rfl⟩ : ∃ (bt : Fin 8) (n : Fin 2048) (m : Fin 256), i = ix3 bt n m := ⟨i 0, i 1, i 2, eq_ix3 i⟩
  exact (refNewMemory_apply x pm Wu bu Wr br Wc bc bt n m).trans (hG bt n m).symm

end Cert.RefSide

end
-- ==== Proof.FinalBlocks.lean ====
/-
  The input blocks of the memory-update kernel at a grid point, read off the argument arrays.

  The grid has 8 · 4 points; point t is batch t / 4 and query tile t % 4. The block of a window at a point starts, on
  each axis, at the window's block index times the block's extent:
    • the input tile and the previous-memory tile (windows 0 and 1) have block index (t / 4, t % 4, 0): entry (0, r, d)
      of the tile is entry (t / 4, (t % 4) · 512 + r, d) of the array;
    • the batch's whole previous memory (window 2) has block index (t / 4, 0, 0): entry (0, n, d) is entry
      (t / 4, n, d) of the previous-memory array;
    • the ten weight and bias windows have block index 0 on every axis and a block as large as the array: the block IS
      the array.
  The block indices are the printed index maps, decided once over the 32 points.
-/
import proofs.«134565_j22926535426539_1_alg».proof.Proof.FrameI
import proofs.«134565_j22926535426539_1_alg».proof.Proof.Spec
import Idealize.ShloMosaic.Lib.Pipeline.Value

noncomputable section

namespace Cert.KernelIdeal.Final

open Cert.KernelIdeal Cert.KernelIdeal.Gen Cert.KernelIdeal.Hand Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The grid has 32 points. -/
theorem points_eq : cfg0.N = 32 := N_0

/-- The batch of a grid point. -/
def batchOf (t : Fin cfg0.N) : Fin 8 := ⟨t.val / 4, by have := t.isLt; have := points_eq; omega⟩

/-- The query tile of a grid point. -/
def tileOf (t : Fin cfg0.N) : Fin 4 := ⟨t.val % 4, by omega⟩

theorem batchOf_val (t : Fin cfg0.N) : (batchOf t).val = t.val / 4 := rfl
theorem tileOf_val (t : Fin cfg0.N) : (tileOf t).val = t.val % 4 := rfl

/-! ## The argument arrays, as core c finds them when the region is entered -/

/-- The input sequence and the previous memory. -/
abbrev argX (c : Dev nD) : Seq := m ((c.tc : Thread nD τ).loc main_arg0)
abbrev argPm (c : Dev nD) : Seq := m ((c.tc : Thread nD τ).loc main_arg1)
/-- The query and key projections. -/
abbrev argWq (c : Dev nD) : ProjW := m ((c.tc : Thread nD τ).loc main_arg2)
abbrev argBq (c : Dev nD) : ProjB := m ((c.tc : Thread nD τ).loc main_arg3)
abbrev argWk (c : Dev nD) : ProjW := m ((c.tc : Thread nD τ).loc main_arg4)
abbrev argBk (c : Dev nD) : ProjB := m ((c.tc : Thread nD τ).loc main_arg5)
/-- The three gate layers. -/
abbrev argWu (c : Dev nD) : GateW := m ((c.tc : Thread nD τ).loc main_arg8)
abbrev argBu (c : Dev nD) : GateB := m ((c.tc : Thread nD τ).loc main_arg9)
abbrev argWr (c : Dev nD) : GateW := m ((c.tc : Thread nD τ).loc main_arg10)
abbrev argBr (c : Dev nD) : GateB := m ((c.tc : Thread nD τ).loc main_arg11)
abbrev argWc (c : Dev nD) : GateW := m ((c.tc : Thread nD τ).loc main_arg12)
abbrev argBc (c : Dev nD) : GateB := m ((c.tc : Thread nD τ).loc main_arg13)

/-! ## The printed index maps of the input windows, decided over the grid -/

/-- The two tile windows move with the point: block index (t / 4, t % 4, 0). -/
theorem tiles_index : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0 :=
  (by decide +kernel : ∀ t : Fin grid0.N, _)

/-- The whole-batch window moves with the batch: block index (t / 4, 0, 0). -/
theorem batch_index : ∀ t : Fin cfg0.N,
    win0_2.index t (0 : Fin 3) = t.val / 4 ∧ win0_2.index t (1 : Fin 3) = 0 ∧ win0_2.index t (2 : Fin 3) = 0 :=
  (by decide +kernel : ∀ t : Fin grid0.N, _)

/-- The projection windows never move: block index 0 on every axis. -/
theorem projections_index : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- The gate windows never move: block index 0 on every axis. -/
theorem gates_index : ∀ t : Fin cfg0.N,
    win0_7.index t (0 : Fin 2) = 0 ∧ win0_7.index t (1 : Fin 2) = 0 ∧ win0_8.index t (0 : Fin 1) = 0
    ∧ win0_9.index t (0 : Fin 2) = 0 ∧ win0_9.index t (1 : Fin 2) = 0 ∧ win0_10.index t (0 : Fin 1) = 0
    ∧ win0_11.index t (0 : Fin 2) = 0 ∧ win0_11.index t (1 : Fin 2) = 0 ∧ win0_12.index t (0 : Fin 1) = 0 :=
  (by decide +kernel : ∀ t : Fin grid0.N, _)

/-! ## The moving blocks at an entry -/

/-- The input tile at point t: entry (0, r, d) is the input array at (batch, tile · 512 + r, d). -/
theorem inputTile_apply (c : Dev nD) (t : Fin cfg0.N) (r : Fin 512) (d : Fin 256) :
    (iblk m c 0 t : Vec Ideal S1x512x256 .f32) (ix3 (0 : Fin 1) r d)
      = (m ((c.tc : Thread nD τ).loc main_arg0) : S8x2048x256.Idx → EReal) (ix3 (batchOf t) (tileRow (tileOf t) r) d) := by
  obtain ⟨e0, e1, e2, -, -, -⟩ := tiles_index t
  unfold iblk
  rw [View.read_apply]
  show V m c main_arg0 _ = m ((c.tc : Thread nD τ).loc main_arg0) _
  unfold V
  congr 1
  funext a
  apply Fin.ext
  match a with
  | ⟨0, _⟩ => show win0_0.index t 0 * 1 + 1 * 0 = t.val / 4; rw [e0]; omega
  | ⟨1, _⟩ => show win0_0.index t 1 * 512 + 1 * r.val = t.val % 4 * 512 + r.val; rw [e1]; omega
  | ⟨2, _⟩ => show win0_0.index t 2 * 256 + 1 * d.val = d.val; rw [e2]; omega

/-- The previous-memory tile at point t: entry (0, r, d) is the previous-memory array at (batch, tile · 512 + r, d). -/
theorem memoryTile_apply (c : Dev nD) (t : Fin cfg0.N) (r : Fin 512) (d : Fin 256) :
    (iblk m c 1 t : Vec Ideal S1x512x256 .f32) (ix3 (0 : Fin 1) r d)
      = (m ((c.tc : Thread nD τ).loc main_arg1) : S8x2048x256.Idx → EReal) (ix3 (batchOf t) (tileRow (tileOf t) r) d) := by
  obtain ⟨-, -, -, e0, e1, e2⟩ := tiles_index t
  unfold iblk
  rw [View.read_apply]
  show V m c main_arg1 _ = m ((c.tc : Thread nD τ).loc main_arg1) _
  unfold V
  congr 1
  funext a
  apply Fin.ext
  match a with
  | ⟨0, _⟩ => show win0_1.index t 0 * 1 + 1 * 0 = t.val / 4; rw [e0]; omega
  | ⟨1, _⟩ => show win0_1.index t 1 * 512 + 1 * r.val = t.val % 4 * 512 + r.val; rw [e1]; omega
  | ⟨2, _⟩ => show win0_1.index t 2 * 256 + 1 * d.val = d.val; rw [e2]; omega

/-- The batch's whole previous memory at point t: entry (0, n, d) is the previous-memory array at (batch, n, d). -/
theorem memoryBatch_apply (c : Dev nD) (t : Fin cfg0.N) (n : Fin 2048) (d : Fin 256) :
    (iblk m c 2 t : Vec Ideal S1x2048x256 .f32) (ix3 (0 : Fin 1) n d)
      = (m ((c.tc : Thread nD τ).loc main_arg1) : S8x2048x256.Idx → EReal) (ix3 (batchOf t) n d) := by
  obtain ⟨e0, e1, e2⟩ := batch_index t
  unfold iblk
  rw [View.read_apply]
  show V m c main_arg1 _ = m ((c.tc : Thread nD τ).loc main_arg1) _
  unfold V
  congr 1
  funext a
  apply Fin.ext
  match a with
  | ⟨0, _⟩ => show win0_2.index t 0 * 1 + 1 * 0 = t.val / 4; rw [e0]; omega
  | ⟨1, _⟩ => show win0_2.index t 1 * 2048 + 1 * n.val = n.val; rw [e1]; omega
  | ⟨2, _⟩ => show win0_2.index t 2 * 256 + 1 * d.val = d.val; rw [e2]; omega

/-! ## The weight and bias blocks are their arrays -/

/-- The block of the query weights is the whole array, at every point. -/
theorem queryWeights_block (c : Dev nD) (t : Fin cfg0.N) :
    (iblk m c 3 t : Vec Ideal S128x256 .f32) = (m ((c.tc : Thread nD τ).loc main_arg2) : S128x256.Idx → EReal) := by
  obtain ⟨e0, e1, -, -, -, -⟩ := projections_index t
  funext y
  unfold iblk
  rw [View.read_apply]
  show V m c main_arg2 _ = m ((c.tc : Thread nD τ).loc main_arg2) y
  unfold V
  congr 1
  funext a
  apply Fin.ext
  match a with
  | ⟨0, _⟩ => show win0_3.index t 0 * 128 + 1 * (y 0).val = (y 0).val; rw [e0]; omega
  | ⟨1, _⟩ => show win0_3.index t 1 * 256 + 1 * (y 1).val = (y 1).val; rw [e1]; omega

/-- The block of the query bias is the whole array, at every point. -/
theorem queryBias_block (c : Dev nD) (t : Fin cfg0.N) :
    (iblk m c 4 t : Vec Ideal S128 .f32) = (m ((c.tc : Thread nD τ).loc main_arg3) : S128.Idx → EReal) := by
  obtain ⟨-, -, e0, -, -, -⟩ := projections_index t
  funext y
  unfold iblk
  rw [View.read_apply]
  show V m c main_arg3 _ = m ((c.tc : Thread nD τ).loc main_arg3) y
  unfold V
  congr 1
  funext a
  apply Fin.ext
  match a with
  | ⟨0, _⟩ => show win0_4.index t 0 * 128 + 1 * (y 0).val = (y 0).val; rw [e0]; omega

/-- The block of the key weights is the whole array, at every point. -/
theorem keyWeights_block (c : Dev nD) (t : Fin cfg0.N) :
    (iblk m c 5 t : Vec Ideal S128x256 .f32) = (m ((c.tc : Thread nD τ).loc main_arg4) : S128x256.Idx → EReal) := by
  obtain ⟨-, -, -, e0, e1, -⟩ := projections_index t
  funext y
  unfold iblk
  rw [View.read_apply]
  show V m c main_arg4 _ = m ((c.tc : Thread nD τ).loc main_arg4) y
  unfold V
  congr 1
  funext a
  apply Fin.ext
  match a with
  | ⟨0, _⟩ => show win0_5.index t 0 * 128 + 1 * (y 0).val = (y 0).val; rw [e0]; omega
  | ⟨1, _⟩ => show win0_5.index t 1 * 256 + 1 * (y 1).val = (y 1).val; rw [e1]; omega

/-- The block of the key bias is the whole array, at every point. -/
theorem keyBias_block (c : Dev nD) (t : Fin cfg0.N) :
    (iblk m c 6 t : Vec Ideal S128 .f32) = (m ((c.tc : Thread nD τ).loc main_arg5) : S128.Idx → EReal) := by
  obtain ⟨-, -, -, -, -, e0⟩ := projections_index t
  funext y
  unfold iblk
  rw [View.read_apply]
  show V m c main_arg5 _ = m ((c.tc : Thread nD τ).loc main_arg5) y
  unfold V
  congr 1
  funext a
  apply Fin.ext
  match a with
  | ⟨0, _⟩ => show win0_6.index t 0 * 128 + 1 * (y 0).val = (y 0).val; rw [e0]; omega

/-- The block of the update gate's weights is the whole array, at every point. -/
theorem updateWeights_block (c : Dev nD) (t : Fin cfg0.N) :
    (iblk m c 7 t : Vec Ideal S256x512 .f32) = (m ((c.tc : Thread nD τ).loc main_arg8) : S256x512.Idx → EReal) := by
  obtain ⟨e0, e1, -, -, -, -, -, -, -⟩ := gates_index t
  funext y
  unfold iblk
  rw [View.read_apply]
  show V m c main_arg8 _ = m ((c.tc : Thread nD τ).loc main_arg8) y
  unfold V
  congr 1
  funext a
  apply Fin.ext
  match a with
  | ⟨0, _⟩ => show win0_7.index t 0 * 256 + 1 * (y 0).val = (y 0).val; rw [e0]; omega
  | ⟨1, _⟩ => show win0_7.index t 1 * 512 + 1 * (y 1).val = (y 1).val; rw [e1]; omega

/-- The block of the update gate's bias is the whole array, at every point. -/
theorem updateBias_block (c : Dev nD) (t : Fin cfg0.N) :
    (iblk m c 8 t : Vec Ideal S256 .f32) = (m ((c.tc : Thread nD τ).loc main_arg9) : S256.Idx → EReal) := by
  obtain ⟨-, -, e0, -, -, -, -, -, -⟩ := gates_index t
  funext y
  unfold iblk
  rw [View.read_apply]
  show V m c main_arg9 _ = m ((c.tc : Thread nD τ).loc main_arg9) y
  unfold V
  congr 1
  funext a
  apply Fin.ext
  match a with
  | ⟨0, _⟩ => show win0_8.index t 0 * 256 + 1 * (y 0).val = (y 0).val; rw [e0]; omega

/-- The block of the reset gate's weights is the whole array, at every point. -/
theorem resetWeights_block (c : Dev nD) (t : Fin cfg0.N) :
    (iblk m c 9 t : Vec Ideal S256x512 .f32) = (m ((c.tc : Thread nD τ).loc main_arg10) : S256x512.Idx → EReal) := by
  obtain ⟨-, -, -, e0, e1, -, -, -, -⟩ := gates_index t
  funext y
  unfold iblk
  rw [View.read_apply]
  show V m c main_arg10 _ = m ((c.tc : Thread nD τ).loc main_arg10) y
  unfold V
  congr 1
  funext a
  apply Fin.ext
  match a with
  | ⟨0, _⟩ => show win0_9.index t 0 * 256 + 1 * (y 0).val = (y 0).val; rw [e0]; omega
  | ⟨1, _⟩ => show win0_9.index t 1 * 512 + 1 * (y 1).val = (y 1).val; rw [e1]; omega

/-- The block of the reset gate's bias is the whole array, at every point. -/
theorem resetBias_block (c : Dev nD) (t : Fin cfg0.N) :
    (iblk m c 10 t : Vec Ideal S256 .f32) = (m ((c.tc : Thread nD τ).loc main_arg11) : S256.Idx → EReal) := by
  obtain ⟨-, -, -, -, -, e0, -, -, -⟩ := gates_index t
  funext y
  unfold iblk
  rw [View.read_apply]
  show V m c main_arg11 _ = m ((c.tc : Thread nD τ).loc main_arg11) y
  unfold V
  congr 1
  funext a
  apply Fin.ext
  match a with
  | ⟨0, _⟩ => show win0_10.index t 0 * 256 + 1 * (y 0).val = (y 0).val; rw [e0]; omega

/-- The block of the candidate layer's weights is the whole array, at every point. -/
theorem candWeights_block (c : Dev nD) (t : Fin cfg0.N) :
    (iblk m c 11 t : Vec Ideal S256x512 .f32) = (m ((c.tc : Thread nD τ).loc main_arg12) : S256x512.Idx → EReal) := by
  obtain ⟨-, -, -, -, -, -, e0, e1, -⟩ := gates_index t
  funext y
  unfold iblk
  rw [View.read_apply]
  show V m c main_arg12 _ = m ((c.tc : Thread nD τ).loc main_arg12) y
  unfold V
  congr 1
  funext a
  apply Fin.ext
  match a with
  | ⟨0, _⟩ => show win0_11.index t 0 * 256 + 1 * (y 0).val = (y 0).val; rw [e0]; omega
  | ⟨1, _⟩ => show win0_11.index t 1 * 512 + 1 * (y 1).val = (y 1).val; rw [e1]; omega

/-- The block of the candidate layer's bias is the whole array, at every point. -/
theorem candBias_block (c : Dev nD) (t : Fin cfg0.N) :
    (iblk m c 12 t : Vec Ideal S256 .f32) = (m ((c.tc : Thread nD τ).loc main_arg13) : S256.Idx → EReal) := by
  obtain ⟨-, -, -, -, -, -, -, -, e0⟩ := gates_index t
  funext y
  unfold iblk
  rw [View.read_apply]
  show V m c main_arg13 _ = m ((c.tc : Thread nD τ).loc main_arg13) y
  unfold V
  congr 1
  funext a
  apply Fin.ext
  match a with
  | ⟨0, _⟩ => show win0_12.index t 0 * 256 + 1 * (y 0).val = (y 0).val; rw [e0]; omega

end Cert.KernelIdeal.Final

end
-- ==== Proof.FinalCover.lean ====
/-
  The two result arrays are covered by the blocks the grid's points write back.

  The grid has 8 x 4 points: point t is batch t / 4 and query tile t % 4. The new-memory array [8, 2048, 256] is cut into
  blocks [1, 512, 256] and the attention-weights array [8, 2048, 2048] into blocks [1, 512, 2048]; at point t both
  windows sit at block index (t / 4, t % 4, 0) and are written back. An index (b, r, ·) therefore lies in the block of
  point 4 * b + r / 512: along the first axis the block is the single batch b, along the second the 512 rows from
  (r / 512) * 512, along the last the whole axis.
-/
import proofs.«134565_j22926535426539_1_alg».proof.Proof.Gen.KernelIdeal.Points
import proofs.«134565_j22926535426539_1_alg».proof.Proof.Gen.KernelIdeal.Launch
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-! ## The new memory -/

/-- Point `t`'s block of the new memory has block index (t / 4, t % 4, 0): the batch, the query tile, the whole last axis. -/
theorem idx_new : ∀ t : Fin cfg0.N, win0_13.index t (0 : Fin 3) = t.val / 4 ∧ win0_13.index t (1 : Fin 3) = t.val % 4
    ∧ win0_13.index t (2 : Fin 3) = 0 :=
  (by decide +kernel : ∀ t : Fin grid0.N, _)

/-- An index of the array is in point `t`'s block iff each coordinate is in the block's range on its axis. -/
theorem mem_blk_new (t : Fin cfg0.N) (i : S8x2048x256.Idx) :
    i ∈ ((cfg0.win 13).blk t).view.set ↔ ∀ a : Fin 3, win0_13.index t a * S1x512x256.size a ≤ (i a).val ∧ (i a).val < win0_13.index t a * S1x512x256.size a + S1x512x256.size a := by
  show i ∈ ((View.whole main_v0_0).slice (win0_13.rect t)).set ↔ _
  rw [View.set_slice_whole, Rect.mem_set_unit]
  exact Iff.rfl

/-- Every index (b, r, ·) of the new memory is in the block of the point of batch b and query tile r / 512, which is written
    back: the blocks tile the array. -/
theorem covered_new : ∀ i : S8x2048x256.Idx, ∃ t : Fin cfg0.N, (cfg0.win 13).flush t = true ∧ i ∈ ((cfg0.win 13).blk t).view.set := by
  intro i
  have hi0 : (i 0).val < 8 := (i 0).isLt
  have hi1 : (i 1).val < 2048 := (i 1).isLt
  have hi2 : (i 2).val < 256 := (i 2).isLt
  have hN : cfg0.N = 32 := N_0
  obtain ⟨t, ht⟩ : ∃ t : Fin cfg0.N, t.val = 4 * (i 0).val + (i 1).val / 512 :=
    ⟨⟨4 * (i 0).val + (i 1).val / 512, by omega⟩, rfl⟩
  obtain ⟨e0, e1, e2⟩ := idx_new t
  refine ⟨t, flush0_13 t, ?_⟩
  rw [mem_blk_new]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 512 ≤ (i 1).val ∧ (i 1).val < win0_13.index t (1 : Fin 3) * 512 + 512; omega
  | ⟨2, _⟩ => show win0_13.index t (2 : Fin 3) * 256 ≤ (i 2).val ∧ (i 2).val < win0_13.index t (2 : Fin 3) * 256 + 256; omega

/-! ## The attention weights -/

/-- Point `t`'s block of the attention weights has block index (t / 4, t % 4, 0): the batch, the query tile, the whole last axis. -/
theorem idx_probs : ∀ t : Fin cfg0.N, win0_14.index t (0 : Fin 3) = t.val / 4 ∧ win0_14.index t (1 : Fin 3) = t.val % 4
    ∧ win0_14.index t (2 : Fin 3) = 0 :=
  (by decide +kernel : ∀ t : Fin grid0.N, _)

/-- An index of the array is in point `t`'s block iff each coordinate is in the block's range on its axis. -/
theorem mem_blk_probs (t : Fin cfg0.N) (i : S8x2048x2048.Idx) :
    i ∈ ((cfg0.win 14).blk t).view.set ↔ ∀ a : Fin 3, win0_14.index t a * S1x512x2048.size a ≤ (i a).val ∧ (i a).val < win0_14.index t a * S1x512x2048.size a + S1x512x2048.size a := by
  show i ∈ ((View.whole main_v0_1).slice (win0_14.rect t)).set ↔ _
  rw [View.set_slice_whole, Rect.mem_set_unit]
  exact Iff.rfl

/-- Every index (b, r, ·) of the attention weights is in the block of the point of batch b and query tile r / 512, which is written
    back: the blocks tile the array. -/
theorem covered_probs : ∀ i : S8x2048x2048.Idx, ∃ t : Fin cfg0.N, (cfg0.win 14).flush t = true ∧ i ∈ ((cfg0.win 14).blk t).view.set := by
  intro i
  have hi0 : (i 0).val < 8 := (i 0).isLt
  have hi1 : (i 1).val < 2048 := (i 1).isLt
  have hi2 : (i 2).val < 2048 := (i 2).isLt
  have hN : cfg0.N = 32 := N_0
  obtain ⟨t, ht⟩ : ∃ t : Fin cfg0.N, t.val = 4 * (i 0).val + (i 1).val / 512 :=
    ⟨⟨4 * (i 0).val + (i 1).val / 512, by omega⟩, rfl⟩
  obtain ⟨e0, e1, e2⟩ := idx_probs t
  refine ⟨t, flush0_14 t, ?_⟩
  rw [mem_blk_probs]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 512 ≤ (i 1).val ∧ (i 1).val < win0_14.index t (1 : Fin 3) * 512 + 512; omega
  | ⟨2, _⟩ => show win0_14.index t (2 : Fin 3) * 2048 ≤ (i 2).val ∧ (i 2).val < win0_14.index t (2 : Fin 3) * 2048 + 2048; omega

end Cert.KernelIdeal.Cover

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.PayDots.lean ====
/-
  The four matrix products of the kernel body are plain products: the left operand's axis 1 is contracted with the right
  operand's axis 0 and there is no batch axis, so the left operand is read at (row, k) and the right at (k, column). Each
  of the four dimension records is shown to be of that form, coordinate by coordinate: a free axis takes the "free" branch
  of the operand index (the two membership tests are decided), the contracted axis is the contraction position's one
  coordinate.
-/
import proofs.«134565_j22926535426539_1_alg».proof.Proof.Gen.KernelIdeal.Skeleton
import proofs.«134565_j22926535426539_1_alg».proof.Proof.LibPlainDot

namespace Cert.PaySide

open Idealize.ShloMosaic Idealize.ShloMosaic.ValueIdx Cert.KernelIdeal Cert.KernelIdeal.Gen

/-- The dimension numbers of the key projection: a whole batch of memory rows [2048, 256] times the transposed key weights [256, 128]. -/
theorem keysDot_isPlain : PlainDot.IsPlain dot_S2048x256_S256x128_S2048x128_1_0_0_1_n_n where
  rank := rfl
  size := rfl
  lhs0 := fun i q => by
    unfold DotDims.lhsIdx
    rw [dif_neg (show ¬(0 : Fin S2048x256.rank) ∈ dot_S2048x256_S256x128_S2048x128_1_0_0_1_n_n.lhsBatch by decide),
      dif_pos (show (0 : Fin S2048x256.rank) ∈ dot_S2048x256_S256x128_S2048x128_1_0_0_1_n_n.lhsNonContracting by decide)]
    rfl
  lhs1 := fun i q => dot_S2048x256_S256x128_S2048x128_1_0_0_1_n_n.lhsIdx_val_of_single rfl i q
  rhs0 := fun i q => dot_S2048x256_S256x128_S2048x128_1_0_0_1_n_n.rhsIdx_val_of_single rfl i q
  rhs1 := fun i q => by
    unfold DotDims.rhsIdx
    rw [dif_neg (show ¬(1 : Fin S256x128.rank) ∈ dot_S2048x256_S256x128_S2048x128_1_0_0_1_n_n.rhsBatch by decide),
      dif_pos (show (1 : Fin S256x128.rank) ∈ dot_S2048x256_S256x128_S2048x128_1_0_0_1_n_n.rhsNonContracting by decide)]
    rfl

/-- The dimension numbers of the query projection: a tile of input rows [512, 256] times the transposed query weights [256, 128]. -/
theorem queryDot_isPlain : PlainDot.IsPlain dot_S512x256_S256x128_S512x128_1_0_0_1_n_n where
  rank := rfl
  size := rfl
  lhs0 := fun i q => by
    unfold DotDims.lhsIdx
    rw [dif_neg (show ¬(0 : Fin S512x256.rank) ∈ dot_S512x256_S256x128_S512x128_1_0_0_1_n_n.lhsBatch by decide),
      dif_pos (show (0 : Fin S512x256.rank) ∈ dot_S512x256_S256x128_S512x128_1_0_0_1_n_n.lhsNonContracting by decide)]
    rfl
  lhs1 := fun i q => dot_S512x256_S256x128_S512x128_1_0_0_1_n_n.lhsIdx_val_of_single rfl i q
  rhs0 := fun i q => dot_S512x256_S256x128_S512x128_1_0_0_1_n_n.rhsIdx_val_of_single rfl i q
  rhs1 := fun i q => by
    unfold DotDims.rhsIdx
    rw [dif_neg (show ¬(1 : Fin S256x128.rank) ∈ dot_S512x256_S256x128_S512x128_1_0_0_1_n_n.rhsBatch by decide),
      dif_pos (show (1 : Fin S256x128.rank) ∈ dot_S512x256_S256x128_S512x128_1_0_0_1_n_n.rhsNonContracting by decide)]
    rfl

/-- The dimension numbers of the scores: a tile of queries [512, 128] times the transposed keys [128, 2048]. -/
theorem scoreDot_isPlain : PlainDot.IsPlain dot_S512x128_S128x2048_S512x2048_1_0_0_1_n_n where
  rank := rfl
  size := rfl
  lhs0 := fun i q => by
    unfold DotDims.lhsIdx
    rw [dif_neg (show ¬(0 : Fin S512x128.rank) ∈ dot_S512x128_S128x2048_S512x2048_1_0_0_1_n_n.lhsBatch by decide),
      dif_pos (show (0 : Fin S512x128.rank) ∈ dot_S512x128_S128x2048_S512x2048_1_0_0_1_n_n.lhsNonContracting by decide)]
    rfl
  lhs1 := fun i q => dot_S512x128_S128x2048_S512x2048_1_0_0_1_n_n.lhsIdx_val_of_single rfl i q
  rhs0 := fun i q => dot_S512x128_S128x2048_S512x2048_1_0_0_1_n_n.rhsIdx_val_of_single rfl i q
  rhs1 := fun i q => by
    unfold DotDims.rhsIdx
    rw [dif_neg (show ¬(1 : Fin S128x2048.rank) ∈ dot_S512x128_S128x2048_S512x2048_1_0_0_1_n_n.rhsBatch by decide),
      dif_pos (show (1 : Fin S128x2048.rank) ∈ dot_S512x128_S128x2048_S512x2048_1_0_0_1_n_n.rhsNonContracting by decide)]
    rfl

/-- The dimension numbers of a gate layer: a tile of joined features [512, 512] times the transposed gate weights [512, 256]. -/
theorem gateDot_isPlain : PlainDot.IsPlain dot_S512x512_S512x256_S512x256_1_0_0_1_n_n where
  rank := rfl
  size := rfl
  lhs0 := fun i q => by
    unfold DotDims.lhsIdx
    rw [dif_neg (show ¬(0 : Fin S512x512.rank) ∈ dot_S512x512_S512x256_S512x256_1_0_0_1_n_n.lhsBatch by decide),
      dif_pos (show (0 : Fin S512x512.rank) ∈ dot_S512x512_S512x256_S512x256_1_0_0_1_n_n.lhsNonContracting by decide)]
    rfl
  lhs1 := fun i q => dot_S512x512_S512x256_S512x256_1_0_0_1_n_n.lhsIdx_val_of_single rfl i q
  rhs0 := fun i q => dot_S512x512_S512x256_S512x256_1_0_0_1_n_n.rhsIdx_val_of_single rfl i q
  rhs1 := fun i q => by
    unfold DotDims.rhsIdx
    rw [dif_neg (show ¬(1 : Fin S512x256.rank) ∈ dot_S512x512_S512x256_S512x256_1_0_0_1_n_n.rhsBatch by decide),
      dif_pos (show (1 : Fin S512x256.rank) ∈ dot_S512x512_S512x256_S512x256_1_0_0_1_n_n.rhsNonContracting by decide)]
    rfl

end Cert.PaySide
-- ==== Proof.LibRank3Layout.lean ====
/-
  A general lemma file: layout facts for rank-3 vectors read at an index. A vector with a unit axis spread along that axis
  reads its one entry there; a shorter vector recast with unit axes in front, behind or in the middle reads the entry with
  the same row-major position; a matrix [N, c] with N = a·b recast as [a, b, c] (and back) reads row p·b + q at (p, q);
  and a sum along the last axis, at the extended reals, is the sum over that axis's positions. General over the extents.
-/
import Idealize.ShloMosaic.Lib.Pipeline.Value
import Idealize.ShloMosaic.Lib.ValueIdx
import Idealize.ShloMosaic.PureOps.Ideal.Laws

namespace Idealize.ShloMosaic.Rank3Layout

open Idealize.ShloMosaic Idealize.ShloMosaic.ValueIdx

variable {α : Type}

/-- `[a, 1, c]` spread over `b` middle positions reads, at `(p, q, r)`, entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, b, c]` spread over `a` leading positions reads, at `(p, q, r)`, entry `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- `[1, 1, c]` spread over `a · b` leading positions reads, at `(p, q, r)`, entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` spread over `c` lanes reads, at `(p, q, r)`, entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector `[c]` recast as `[1, 1, c]` reads, at `(u, u', r)`, entry `r`. -/
theorem shapeCast_c_11c_apply {c : ℕ} (x : (⟨1, ![c]⟩ : Shape).Idx → α) (h : (⟨1, ![c]⟩ : Shape).ShapeCasts ⟨3, ![1, 1, c]⟩)
    (u u' : Fin 1) (r : Fin c) : shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    rw [hu, hu']; simp)

/-- A matrix `[a, b]` recast as `[a, b, 1]` reads, at `(p, q, u)`, entry `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu]; simp)

/-- `[a, b, c]` recast as the matrix `[N, c]` of its `N = a · b` rows reads, at row `p · b + q`, entry `(p, q, ·)`. -/
theorem shapeCast_abc_Nc_apply {a b c N : ℕ} (x : (⟨3, ![a, b, c]⟩ : Shape).Idx → α) (h : (⟨3, ![a, b, c]⟩ : Shape).ShapeCasts ⟨2, ![N, c]⟩)
    (p : Fin a) (q : Fin b) (r : Fin c) (n : Fin N) (hn : n.val = p.val * b + q.val) :
    shapeCast ⟨2, ![N, c]⟩ x h (ix2 n r) = x (ix3 p q r) :=
  shapeCast_apply x h _ _ (by
    rw [Shape.rowMajor_val_three, Shape.rowMajor_val_two]
    show (p.val * b + q.val) * c + r.val = n.val * c + r.val
    rw [hn])

/-- The matrix `[N, c]` recast as `[a, b, c]` with `N = a · b` reads, at `(p, q, ·)`, row `p · b + q`. -/
theorem shapeCast_Nc_abc_apply {a b c N : ℕ} (x : (⟨2, ![N, c]⟩ : Shape).Idx → α) (h : (⟨2, ![N, c]⟩ : Shape).ShapeCasts ⟨3, ![a, b, c]⟩)
    (p : Fin a) (q : Fin b) (r : Fin c) (n : Fin N) (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A sum along the lanes of a matrix, at the extended reals, read at row `p`: the sum of the row's entries. -/
theorem laneSum2_apply {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun d => Fin.ext ?_)
  rw [Shape.Reduces.lift_val]
  match d with
  | ⟨0, _⟩ => rfl
  | ⟨1, _⟩ => rfl

/-- A sum along the last axis of a rank-3 vector, at the extended reals, read at `(p, q)`: the sum of that fibre's entries. -/
theorem laneSum3_apply {a b c : ℕ} (src : FVec Ideal ⟨3, ![a, b, c]⟩ .f32) (h : (⟨3, ![a, b, c]⟩ : Shape).Reduces [(2 : Fin 3)] ⟨2, ![a, b]⟩)
    (hφ : FKind.Formats .f32) (hacc : (0x00000000#32 : BitVec 32) = FKind.add.neutral .f32 hφ) (p : Fin a) (q : Fin b) :
    multiReduction .add [(2 : Fin 3)] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src (funext fun d => Fin.ext ?_)
  rw [Shape.Reduces.lift_val]
  match d with
  | ⟨0, _⟩ => rfl
  | ⟨1, _⟩ => rfl
  | ⟨2, _⟩ => rfl

end Idealize.ShloMosaic.Rank3Layout
-- ==== Proof.PayLayers.lean ====
/-
  The layers of the kernel body read at an entry, on the extended reals (where a change of float format is the identity).
    • A projection layer: rows X [M, 256] times the transposed weights (W : [128, 256]) into a zero accumulator, plus the
      bias spread down the rows, is at (r, c) the sum over d of X(r, d) · W(c, d), plus b(c). For the keys M = 2048 (a whole
      batch of memory rows); for the queries M = 512 (one tile of input rows).
    • A gate layer: joined features Φ [512, 512] times the transposed gate weights (W : [256, 512]), plus the bias, is at
      (r, m) the sum over j of Φ(r, j) · W(m, j), plus b(m).
    • A tile [1, 512, 256] recast as the matrix [512, 256] reads (0, r, d) at (r, d), a whole batch [1, 2048, 256]
      likewise, and the matrices recast back with the unit axis in front read (r, ·) at (0, r, ·).
-/
import proofs.«134565_j22926535426539_1_alg».proof.Proof.PayDots
import proofs.«134565_j22926535426539_1_alg».proof.Proof.LibKeepdims
import proofs.«134565_j22926535426539_1_alg».proof.Proof.LibRank3Layout
import Idealize.ShloMosaic.Lib.ValueLayout

noncomputable section

namespace Cert.PaySide

open Idealize.ShloMosaic Idealize.ShloMosaic.ValueIdx Cert.KernelIdeal Cert.KernelIdeal.Gen

/-- The key projection of a batch's 2048 memory rows at (r, c): the inner product of row r with row c of the weights,
    plus the bias. -/
theorem keysLayer_apply (X : FVec Ideal S2048x256 .f32) (W : FVec Ideal S128x256 .f32) (b : FVec Ideal S128 .f32)
    (r : Fin 2048) (c : Fin 128) :
    addf (matmul dot_S2048x256_S256x128_S2048x128_1_0_0_1_n_n none (truncf .bf16 X bitsLt_bf16_f32)
            (transpose S256x128 [1, 0] (truncf .bf16 W bitsLt_bf16_f32) transposes_S128x256_p1_0_S256x128)
            (constant (F := Ideal) S2048x128 .f32 0x00000000#32))
        (broadcastTo S2048x128 (shapeCast S1x128 b shapeCasts_S128_S1x128) broadcasts_S1x128_S2048x128) (ix2 r c)
      = (∑ d : Fin 256, X (ix2 r d) * W (ix2 c d)) + b (ix1 c) :=
  congrArg₂ (· + ·)
    ((PlainDot.matmul_zero_apply _ keysDot_isPlain none _ _ r c).trans
      (Finset.sum_congr rfl fun d _ => congrArg (X (ix2 r d) * ·) (transpose_ix2_apply _ _ d c)))
    (Keepdims.broadcastTo_row_of_vec_apply b _ _ r c)

/-- The query projection of a tile's 512 input rows at (r, c). -/
theorem queryLayer_apply (X : FVec Ideal S512x256 .f32) (W : FVec Ideal S128x256 .f32) (b : FVec Ideal S128 .f32)
    (r : Fin 512) (c : Fin 128) :
    addf (matmul dot_S512x256_S256x128_S512x128_1_0_0_1_n_n none (truncf .bf16 X bitsLt_bf16_f32)
            (transpose S256x128 [1, 0] (truncf .bf16 W bitsLt_bf16_f32) transposes_S128x256_p1_0_S256x128)
            (constant (F := Ideal) S512x128 .f32 0x00000000#32))
        (broadcastTo S512x128 (shapeCast S1x128 b shapeCasts_S128_S1x128) broadcasts_S1x128_S512x128) (ix2 r c)
      = (∑ d : Fin 256, X (ix2 r d) * W (ix2 c d)) + b (ix1 c) :=
  congrArg₂ (· + ·)
    ((PlainDot.matmul_zero_apply _ queryDot_isPlain none _ _ r c).trans
      (Finset.sum_congr rfl fun d _ => congrArg (X (ix2 r d) * ·) (transpose_ix2_apply _ _ d c)))
    (Keepdims.broadcastTo_row_of_vec_apply b _ _ r c)

/-- The scores of a tile at (r, k): the inner product of query row r with key row k. -/
theorem scoreLayer_apply (Q : FVec Ideal S512x128 .f32) (Kx : FVec Ideal S2048x128 .f32) (r : Fin 512) (k : Fin 2048) :
    matmul dot_S512x128_S128x2048_S512x2048_1_0_0_1_n_n none (truncf .bf16 Q bitsLt_bf16_f32)
        (transpose S128x2048 [1, 0] (truncf .bf16 Kx bitsLt_bf16_f32) transposes_S2048x128_p1_0_S128x2048)
        (constant (F := Ideal) S512x2048 .f32 0x00000000#32) (ix2 r k)
      = ∑ c : Fin 128, Q (ix2 r c) * Kx (ix2 k c) :=
  (PlainDot.matmul_zero_apply _ scoreDot_isPlain none _ _ r k).trans
    (Finset.sum_congr rfl fun c _ => congrArg (Q (ix2 r c) * ·) (transpose_ix2_apply _ _ c k))

/-- A gate layer of a tile at (r, m): the inner product of the row's 512 joined features with row m of the gate weights,
    plus the bias. -/
theorem gateLayer_apply (Φ : FVec Ideal S512x512 .f32) (W : FVec Ideal S256x512 .f32) (b : FVec Ideal S256 .f32)
    (r : Fin 512) (m : Fin 256) :
    addf (matmul dot_S512x512_S512x256_S512x256_1_0_0_1_n_n none (truncf .bf16 Φ bitsLt_bf16_f32)
            (transpose S512x256 [1, 0] (truncf .bf16 W bitsLt_bf16_f32) transposes_S256x512_p1_0_S512x256)
            (constant (F := Ideal) S512x256 .f32 0x00000000#32))
        (broadcastTo S512x256 (shapeCast S1x256 b shapeCasts_S256_S1x256) broadcasts_S1x256_S512x256) (ix2 r m)
      = (∑ j : Fin 512, Φ (ix2 r j) * W (ix2 m j)) + b (ix1 m) :=
  congrArg₂ (· + ·)
    ((PlainDot.matmul_zero_apply _ gateDot_isPlain none _ _ r m).trans
      (Finset.sum_congr rfl fun j _ => congrArg (Φ (ix2 r j) * ·) (transpose_ix2_apply _ _ j m)))
    (Keepdims.broadcastTo_row_of_vec_apply b _ _ r m)

/-- A tile [1, 512, 256] recast as [512, 256] reads (0, r, d) at (r, d). -/
theorem tileRecast_apply (v : FVec Ideal S1x512x256 .f32) (r : Fin 512) (d : Fin 256) :
    shapeCast S512x256 v shapeCasts_S1x512x256_S512x256 (ix2 r d) = v (ix3 (0 : Fin 1) r d) :=
  Rank3Layout.shapeCast_abc_Nc_apply v _ (0 : Fin 1) r d r (by show r.val = 0 * 512 + r.val; omega)

/-- A whole batch [1, 2048, 256] recast as [2048, 256] reads (0, n, d) at (n, d). -/
theorem batchRecast_apply (v : FVec Ideal S1x2048x256 .f32) (n : Fin 2048) (d : Fin 256) :
    shapeCast S2048x256 v shapeCasts_S1x2048x256_S2048x256 (ix2 n d) = v (ix3 (0 : Fin 1) n d) :=
  Rank3Layout.shapeCast_abc_Nc_apply v _ (0 : Fin 1) n d n (by show n.val = 0 * 2048 + n.val; omega)

/-- The matrix [512, 256] recast as [1, 512, 256] reads (r, m) at (0, r, m). -/
theorem memoryRecast_apply (v : FVec Ideal S512x256 .f32) (r : Fin 512) (m : Fin 256) :
    shapeCast S1x512x256 v shapeCasts_S512x256_S1x512x256 (ix3 (0 : Fin 1) r m) = v (ix2 r m) :=
  Rank3Layout.shapeCast_Nc_abc_apply v _ (0 : Fin 1) r m r (by show r.val = 0 * 512 + r.val; omega)

/-- The matrix [512, 2048] recast as [1, 512, 2048] reads (r, k) at (0, r, k). -/
theorem weightsRecast_apply (v : FVec Ideal S512x2048 .f32) (r : Fin 512) (k : Fin 2048) :
    shapeCast S1x512x2048 v shapeCasts_S512x2048_S1x512x2048 (ix3 (0 : Fin 1) r k) = v (ix2 r k) :=
  Rank3Layout.shapeCast_Nc_abc_apply v _ (0 : Fin 1) r k r (by show r.val = 0 * 512 + r.val; omega)

end Cert.PaySide

end
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.PayJoin.lean ====
/-
  The gate layers of one tile, as blocks, read at an entry.
    • Two matrices [512, 256] joined along the columns read, in row r, the specification's join of their two rows.
    • A gate layer of a feature matrix Φ [512, 512]: Φ times the transposed gate weights plus the bias, read at (r, m) as
      the specification's layer of row r of Φ, the row given as a function of the feature position.
-/
import proofs.«134565_j22926535426539_1_alg».proof.Proof.PayLayers
import proofs.«134565_j22926535426539_1_alg».proof.Proof.LibJoinLayout
import proofs.«134565_j22926535426539_1_alg».proof.Proof.Spec

noncomputable section

namespace Cert.PaySide

open Idealize.ShloMosaic Idealize.ShloMosaic.ValueIdx Cert.KernelIdeal Cert.KernelIdeal.Gen Cert.CellSpec

/-- Two matrices of 256 columns joined into one of 512 columns. -/
def joinBlock (A B : FVec Ideal S512x256 .f32) : FVec Ideal S512x512 .f32 :=
  concatenate S512x512 1 [⟨S512x256, A⟩, ⟨S512x256, B⟩] concatenates_S512x256_S512x256_S512x512_d1

/-- Row r of the joined matrix is the join of the two rows: below column 256 the first matrix, from there on the second
    at the column less 256. -/
theorem joinBlock_apply (A B : FVec Ideal S512x256 .f32) (r : Fin 512) (j : Fin 512) :
    joinBlock A B (ix2 r j) = joinFeatures (fun d => A (ix2 r d)) (fun d => B (ix2 r d)) j := by
  unfold joinBlock joinFeatures
  by_cases h : j.val < 256
  · rw [dif_pos h]
    exact JoinLayout.concatenate_cols_left A B _ r j ⟨j.val, h⟩ rfl
  · rw [dif_neg h]
    exact JoinLayout.concatenate_cols_right A B _ r j ⟨j.val - 256, by have := j.isLt; omega⟩
      (by show j.val - 256 + 256 = j.val; omega)

/-- A gate layer over a matrix of joined features: the product with the transposed weights into a zero accumulator, plus
    the bias spread down the rows. -/
def layerBlock (Φ : FVec Ideal S512x512 .f32) (W : FVec Ideal S256x512 .f32) (b : FVec Ideal S256 .f32) :
    FVec Ideal S512x256 .f32 :=
  addf (matmul dot_S512x512_S512x256_S512x256_1_0_0_1_n_n none (truncf .bf16 Φ bitsLt_bf16_f32)
          (transpose S512x256 [1, 0] (truncf .bf16 W bitsLt_bf16_f32) transposes_S256x512_p1_0_S512x256)
          (constant (F := Ideal) S512x256 .f32 0x00000000#32))
    (broadcastTo S512x256 (shapeCast S1x256 b shapeCasts_S256_S1x256) broadcasts_S1x256_S512x256)

/-- The layer block at (r, m) is the specification's layer of row r of the features. -/
theorem layerBlock_apply (Φ : FVec Ideal S512x512 .f32) (W : GateW) (b : GateB) (r : Fin 512) (m : Fin 256)
    (f : Fin 512 → EReal) (hf : ∀ j : Fin 512, Φ (ix2 r j) = f j) :
    layerBlock Φ W b (ix2 r m) = layer f W b m := by
  unfold layerBlock layer
  refine (gateLayer_apply Φ W b r m).trans ?_
  exact congrArg (· + b (ix1 m)) (Finset.sum_congr rfl fun j _ => congrArg (· * W (ix2 m j)) (hf j))

end Cert.PaySide

end
-- ==== Proof.Pay1.lean ====
/-
  The new memory of one tile, entry by entry: the stored block is, at (0, r, m), the specification's new memory
  newMemory(b, qi·512 + r, m), when the two loaded tiles hold rows qi·512 … qi·512 + 511 of batch b of the input and of
  the previous memory.
    • The features of a row are the input row joined with the memory row; the update and reset gates are the logistic
      function of their layers.
    • The candidate's features are the input row joined with the reset gate times the memory row; the candidate is the
      hyperbolic tangent of its layer.
    • The new memory is (1 − u) · pm + u · c, the one kept as its float word.
-/
import proofs.«134565_j22926535426539_1_alg».proof.Proof.PayJoin
import proofs.«134565_j22926535426539_1_alg».proof.Proof.LibIndexReads

noncomputable section

namespace Cert.PaySide

open Idealize.ShloMosaic Idealize.ShloMosaic.ValueIdx Cert.KernelIdeal Cert.KernelIdeal.Gen Cert.CellSpec

/-- A gate of a tile: the logistic function of a layer of the joined input and memory tiles. -/
def gateBlock (X Pm : FVec Ideal S512x256 .f32) (W : FVec Ideal S256x512 .f32) (b : FVec Ideal S256 .f32) :
    FVec Ideal S512x256 .f32 :=
  logistic (layerBlock (joinBlock X Pm) W b)

/-- The candidate memory of a tile: the hyperbolic tangent of a layer of the input tile joined with the reset gate
    times the memory tile. -/
def candidateBlock (X Pm : FVec Ideal S512x256 .f32) (Wr : FVec Ideal S256x512 .f32) (br : FVec Ideal S256 .f32)
    (Wc : FVec Ideal S256x512 .f32) (bc : FVec Ideal S256 .f32) : FVec Ideal S512x256 .f32 :=
  tanh (layerBlock (joinBlock X (mulf (gateBlock X Pm Wr br) Pm)) Wc bc)

/-- The stored block is the gated mix of the memory tile and the candidate, with a unit axis in front: the body's steps
    are exactly these blocks. -/
theorem pay1_eq_blocks (X Pm : FVec Ideal S512x256 .f32) (Wu : FVec Ideal S256x512 .f32) (bu : FVec Ideal S256 .f32)
    (Wr : FVec Ideal S256x512 .f32) (br : FVec Ideal S256 .f32) (Wc : FVec Ideal S256x512 .f32) (bc : FVec Ideal S256 .f32) :
    k0_pay1 (F := Ideal) X Pm Wu bu Wr br Wc bc
      = shapeCast S1x512x256
          (addf (mulf (subf (broadcast S512x256 (Scalar.ofBits (F := Ideal) .f32 0x3F800000#32)) (gateBlock X Pm Wu bu)) Pm)
            (mulf (gateBlock X Pm Wu bu) (candidateBlock X Pm Wr br Wc bc)))
          shapeCasts_S512x256_S1x512x256 := rfl

section
variable (x pm : Seq) (bt : Fin 8) (qi : Fin 4) (X Pm : FVec Ideal S512x256 .f32)
  (hX : ∀ (r : Fin 512) (d : Fin 256), X (ix2 r d) = x (ix3 bt (tileRow qi r) d))
  (hP : ∀ (r : Fin 512) (d : Fin 256), Pm (ix2 r d) = pm (ix3 bt (tileRow qi r) d))

include hX hP in
/-- A gate of the tile at (r, m) is the specification's gate of row qi·512 + r. -/
theorem gateBlock_apply (W : GateW) (b : GateB) (r : Fin 512) (m : Fin 256) :
    gateBlock X Pm W b (ix2 r m) = gate x pm W b bt (tileRow qi r) m := by
  unfold gateBlock gate rowFeatures
  refine congrArg Ideal.logistic (layerBlock_apply _ W b r m _ fun j => ?_)
  refine (joinBlock_apply X Pm r j).trans ?_
  exact congrFun (congrArg₂ joinFeatures (funext fun d => hX r d) (funext fun d => hP r d)) j

include hX hP in
/-- The candidate of the tile at (r, m) is the specification's candidate of row qi·512 + r. -/
theorem candidateBlock_apply (Wr : GateW) (br : GateB) (Wc : GateW) (bc : GateB) (r : Fin 512) (m : Fin 256) :
    candidateBlock X Pm Wr br Wc bc (ix2 r m) = candidate x pm Wr br Wc bc bt (tileRow qi r) m := by
  unfold candidateBlock candidate candFeatures
  refine congrArg Ideal.tanh (layerBlock_apply _ Wc bc r m _ fun j => ?_)
  refine (joinBlock_apply X _ r j).trans ?_
  exact congrFun (congrArg₂ joinFeatures (funext fun d => hX r d)
    (funext fun d => congrArg₂ (· * ·) (gateBlock_apply x pm bt qi X Pm hX hP Wr br r d) (hP r d))) j

end

/-- The one of the mix, as the body spells it, is the specification's word for one (the same word: nothing is
    evaluated). -/
theorem one_eq : FloatOps.ofBits (F := Ideal) .f32 0x3F800000#32 = CellSpec.one := Ideal.ofBits_def _

/-- THE NEW MEMORY OF A TILE is the specification's, entry by entry. -/
theorem pay1_apply (x pm : Seq) (Wu : GateW) (bu : GateB) (Wr : GateW) (br : GateB) (Wc : GateW) (bc : GateB)
    (bt : Fin 8) (qi : Fin 4) (v3 v5 : Vec Ideal S1x512x256 .f32)
    (h3 : ∀ (r : Fin 512) (d : Fin 256), v3 (ix3 (0 : Fin 1) r d) = x (ix3 bt (tileRow qi r) d))
    (h5 : ∀ (r : Fin 512) (d : Fin 256), v5 (ix3 (0 : Fin 1) r d) = pm (ix3 bt (tileRow qi r) d))
    (r : Fin 512) (m : Fin 256) :
    k0_pay1 (F := Ideal) (k0_pay3 v3) (k0_pay4 v5) Wu bu Wr br Wc bc (ix3 (0 : Fin 1) r m)
      = newMemory x pm Wu bu Wr br Wc bc bt (tileRow qi r) m := by
  have hX : ∀ (r : Fin 512) (d : Fin 256), k0_pay3 (F := Ideal) v3 (ix2 r d) = x (ix3 bt (tileRow qi r) d) :=
    fun r d => (tileRecast_apply v3 r d).trans (h3 r d)
  have hP : ∀ (r : Fin 512) (d : Fin 256), k0_pay4 (F := Ideal) v5 (ix2 r d) = pm (ix3 bt (tileRow qi r) d) :=
    fun r d => (tileRecast_apply v5 r d).trans (h5 r d)
  refine (congrFun (pay1_eq_blocks (k0_pay3 v3) (k0_pay4 v5) Wu bu Wr br Wc bc) _).trans ?_
  refine (memoryRecast_apply _ r m).trans ?_
  unfold newMemory
  have hu := gateBlock_apply x pm bt qi _ _ hX hP Wu bu r m
  exact congrArg₂ (· + ·)
    (congrArg₂ (· * ·) (congrArg₂ (· - ·) ((broadcast_apply _ (ix2 r m)).trans one_eq) hu) (hP r m))
    (congrArg₂ (· * ·) hu (candidateBlock_apply x pm bt qi _ _ hX hP Wr br Wc bc r m))

end Cert.PaySide

end
-- ==== Proof.FinalNew.lean ====
/-
  The new-memory array after the run: THE NEW MEMORY of the specification, as one function of the argument arrays.

  What point t writes back to the new-memory array is the body's new-memory payload of the point's input blocks. Entry
  (0, r, m) of it is newMemory(t / 4, (t % 4) · 512 + r, m) of the argument arrays (the payload theorem, with the input
  tiles read off the input and previous-memory arrays and the six gate blocks being their arrays), and the block of
  point t has block index (t / 4, t % 4, 0), so entry (0, r, m) of the block lies at (t / 4, (t % 4) · 512 + r, m) of the
  array: point t writes back block t of the specification's array. The blocks of the 32 points tile the array, so the
  array ends holding the specification's array.
-/
import proofs.«134565_j22926535426539_1_alg».proof.Proof.FinalBlocks
import proofs.«134565_j22926535426539_1_alg».proof.Proof.FinalCover
import proofs.«134565_j22926535426539_1_alg».proof.Proof.Pay1

noncomputable section

namespace Cert.KernelIdeal.Final

open Cert.KernelIdeal Cert.KernelIdeal.Gen Cert.KernelIdeal.Hand Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- THE NEW MEMORY as one function of the argument arrays. -/
def wholeNew (x pm : Seq) (Wu : GateW) (bu : GateB) (Wr : GateW) (br : GateB) (Wc : GateW) (bc : GateB) :
    S8x2048x256.Idx → EReal := fun i => CellSpec.newMemory x pm Wu bu Wr br Wc bc (i 0) (i 1) (i 2)

/-- The new-memory payload at an entry, with the six gate arrays given up to equality (the gate windows' blocks are
    their arrays). -/
theorem pay1_of_blocks (x pm : Seq) (Wu : GateW) (bu : GateB) (Wr : GateW) (br : GateB) (Wc : GateW) (bc : GateB)
    (bt : Fin 8) (qi : Fin 4) (v3 v5 : Vec Ideal S1x512x256 .f32)
    (v37 : Vec Ideal S256x512 .f32) (v41 : Vec Ideal S256 .f32) (v46 : Vec Ideal S256x512 .f32) (v50 : Vec Ideal S256 .f32)
    (v58 : Vec Ideal S256x512 .f32) (v62 : Vec Ideal S256 .f32)
    (h37 : v37 = Wu) (h41 : v41 = bu) (h46 : v46 = Wr) (h50 : v50 = br) (h58 : v58 = Wc) (h62 : v62 = bc)
    (h3 : ∀ (r : Fin 512) (d : Fin 256), v3 (ix3 (0 : Fin 1) r d) = x (ix3 bt (tileRow qi r) d))
    (h5 : ∀ (r : Fin 512) (d : Fin 256), v5 (ix3 (0 : Fin 1) r d) = pm (ix3 bt (tileRow qi r) d))
    (r : Fin 512) (k : Fin 256) :
    k0_pay1 (F := Ideal) (k0_pay3 v3) (k0_pay4 v5) v37 v41 v46 v50 v58 v62 (ix3 (0 : Fin 1) r k)
      = newMemory x pm Wu bu Wr br Wc bc bt (tileRow qi r) k := by
  subst h37 h41 h46 h50 h58 h62
  exact Cert.PaySide.pay1_apply x pm _ _ _ _ _ _ bt qi v3 v5 h3 h5 r k

/-- WHAT POINT t WRITES BACK to the new-memory array is block t of the specification's array. -/
theorem flushed_new (c : Dev nD) (t : Fin cfg0.N) :
    (dats m 0 c).flushed 13 t = ((cfg0.win 13).blk t).view.read (Elt Ideal)
      (wholeNew (argX m c) (argPm m c) (argWu m c) (argBu m c) (argWr m c) (argBr m c) (argWc m c) (argBc m c)) := by
  show (cfg0.win 13).cut (grid0.coords t) ((dats m 0 c).after 13 t) = _
  rw [after_13]
  funext j
  rw [View.read_apply]
  obtain ⟨e0, e1, e2⟩ := Cover.idx_new t
  have hj0 : (j 0).val < 1 := (j 0).isLt
  have hj1 : (j 1).val < 512 := (j 1).isLt
  have hj2 : (j 2).val < 256 := (j 2).isLt
  have hl : (cfg0.win 13).xinj (grid0.coords t) j = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  have hi : ((cfg0.win 13).blk t).view.emb j
      = ix3 (batchOf t) (tileRow (tileOf t) ⟨(j 1).val, hj1⟩) (⟨(j 2).val, hj2⟩ : Fin 256) :=
    funext fun a => Fin.ext (by
      match a with
      | ⟨0, _⟩ => show win0_13.index t 0 * 1 + 1 * (j 0).val = t.val / 4; rw [e0]; omega
      | ⟨1, _⟩ => show win0_13.index t 1 * 512 + 1 * (j 1).val = t.val % 4 * 512 + (j 1).val; rw [e1]; omega
      | ⟨2, _⟩ => show win0_13.index t 2 * 256 + 1 * (j 2).val = (j 2).val; rw [e2]; omega)
  show k0_pay1 (F := Ideal) _ _ _ _ _ _ _ _ ((cfg0.win 13).xinj (grid0.coords t) j)
    = wholeNew _ _ _ _ _ _ _ _ (((cfg0.win 13).blk t).view.emb j)
  rw [hl, hi]
  exact pay1_of_blocks (argX m c) (argPm m c) (argWu m c) (argBu m c) (argWr m c) (argBr m c) (argWc m c) (argBc m c)
    (batchOf t) (tileOf t) (iblk m c 0 t) (iblk m c 1 t) (iblk m c 7 t) (iblk m c 8 t) (iblk m c 9 t) (iblk m c 10 t)
    (iblk m c 11 t) (iblk m c 12 t)
    (updateWeights_block m c t) (updateBias_block m c t) (resetWeights_block m c t) (resetBias_block m c t)
    (candWeights_block m c t) (candBias_block m c t)
    (fun r d => inputTile_apply m c t r d) (fun r d => memoryTile_apply m c t r d) _ _

/-- THE NEW-MEMORY ARRAY AFTER THE RUN is the specification's new memory of the argument arrays. -/
theorem final_new (c : Dev nD) :
    (dats m 0 c).arrAt 13 cfg0.N
      = wholeNew (m ((c.tc : Thread nD τ).loc main_arg0)) (m ((c.tc : Thread nD τ).loc main_arg1))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) :=
  (dats m 0 c).arrAt_eq_of_cover 13 _ (fun t _ => flushed_new m c t) Cover.covered_new

end Cert.KernelIdeal.Final

end
-- ==== Proof.Pay2.lean ====
/-
  The key block of a batch, entry by entry: the stored block K = pm_b · Wkᵀ + bk is, at (n, c), the projected entry
  proj(pm, Wk, bk)(b, n, c) of the specification, when the loaded block holds batch b of the memory.
-/
import proofs.«134565_j22926535426539_1_alg».proof.Proof.PayLayers
import proofs.«134565_j22926535426539_1_alg».proof.Proof.Spec

namespace Cert.PaySide

open Idealize.ShloMosaic Idealize.ShloMosaic.ValueIdx Cert.KernelIdeal Cert.KernelIdeal.Gen Cert.CellSpec

/-- The key block at (n, c) is the specification's projected entry of batch `bt`: the recast of the loaded block reads
    the memory row, the product into the zero accumulator is the inner product with row c of the weights, and the bias
    is spread down the rows. The closing recast [2048, 128] → [2048, 128] is the identity. -/
theorem pay2_apply (pm : Seq) (Wk : ProjW) (bk : ProjB) (bt : Fin 8)
    (v75 : Vec Ideal S1x2048x256 .f32) (h75 : ∀ (n : Fin 2048) (d : Fin 256), v75 (ix3 (0 : Fin 1) n d) = pm (ix3 bt n d))
    (n : Fin 2048) (c : Fin 128) :
    k0_pay2 (F := Ideal) v75 Wk bk (ix2 n c) = proj pm Wk bk bt n c := by
  unfold k0_pay2 proj
  refine (congrFun (shapeCast_self _ _) _).trans ?_
  refine (keysLayer_apply _ Wk bk n c).trans ?_
  refine congrArg (· + bk (ix1 c)) (Finset.sum_congr rfl fun d _ => ?_)
  exact congrArg (· * Wk (ix2 c d)) ((batchRecast_apply v75 n d).trans (h75 n d))

end Cert.PaySide
-- ==== Proof.FinalScratch.lean ====
/-
  What the key scratch holds after each grid point.

  The kernel computes the key block K = pm_b · Wkᵀ + bk of a batch at the batch's first query tile (the points divisible
  by 4) and keeps it in the scratch for the batch's other three tiles. So after point n the scratch holds, at (r, k), the
  specification's projected entry proj(pm, Wk, bk)(n / 4, r, k): at a point divisible by 4 because the block stored there
  is the projection of the batch's whole previous memory; at any other point because the scratch is what the point before
  left, and (n + 1) / 4 = n / 4 when n + 1 is not divisible by 4.
-/
import proofs.«134565_j22926535426539_1_alg».proof.Proof.FinalBlocks
import proofs.«134565_j22926535426539_1_alg».proof.Proof.Pay2

noncomputable section

namespace Cert.KernelIdeal.Final

open Cert.KernelIdeal Cert.KernelIdeal.Gen Cert.KernelIdeal.Hand Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- At the first tile of a batch the scratch holds the projected keys of that batch. -/
theorem scratch_at_first (c : Dev nD) (t : Fin cfg0.N) (h : t.val % 4 = 0) (r : Fin 2048) (k : Fin 128) :
    (scrAt m c t.val t.isLt : Vec Ideal S2048x128 .f32) (ix2 r k) = proj (argPm m c) (argWk m c) (argBk m c) (batchOf t) r k := by
  refine (congrFun (scrAt_first m c t h) (ix2 r k)).trans ?_
  refine (congrArg₂ (fun (W : Vec Ideal S128x256 .f32) (b : Vec Ideal S128 .f32) =>
    k0_pay2 (F := Ideal) (iblk m c 2 t) W b (ix2 r k)) (keyWeights_block m c t) (keyBias_block m c t)).trans ?_
  exact Cert.PaySide.pay2_apply (argPm m c) (argWk m c) (argBk m c) (batchOf t) (iblk m c 2 t)
    (fun n d => memoryBatch_apply m c t n d) r k

/-- After every point n the scratch holds the projected keys of batch n / 4. -/
theorem scratch_apply (c : Dev nD) : ∀ (n : ℕ) (hn : n < cfg0.N) (r : Fin 2048) (k : Fin 128),
    (scrAt m c n hn : Vec Ideal S2048x128 .f32) (ix2 r k)
      = proj (argPm m c) (argWk m c) (argBk m c) (batchOf ⟨n, hn⟩) r k := by
  intro n
  induction n with
  | zero => intro hn r k; exact scratch_at_first m c ⟨0, hn⟩ rfl r k
  | succ n ih =>
    intro hn r k
    by_cases h : (n + 1) % 4 = 0
    · exact scratch_at_first m c ⟨n + 1, hn⟩ h r k
    · refine (congrFun (scrAt_later m c ⟨n + 1, hn⟩ h) (ix2 r k)).trans ?_
      refine (ih (Nat.lt_of_succ_lt hn) r k).trans ?_
      have hb : batchOf ⟨n, Nat.lt_of_succ_lt hn⟩ = batchOf ⟨n + 1, hn⟩ :=
        Fin.ext (by show n / 4 = (n + 1) / 4; omega)
      rw [hb]

/-- At point t the scratch the body reads and leaves holds the projected keys of the point's batch. -/
theorem scratch_at (c : Dev nD) (t : Fin cfg0.N) (r : Fin 2048) (k : Fin 128) :
    (scrAt m c t.val t.isLt : Vec Ideal S2048x128 .f32) (ix2 r k) = proj (argPm m c) (argWk m c) (argBk m c) (batchOf t) r k :=
  scratch_apply m c t.val t.isLt r k

end Cert.KernelIdeal.Final

end
-- ==== Proof.PaySoftmax.lean ====
/-
  The softmax of a tile of scores, entry by entry, as the kernel body computes it on a matrix S [512, 2048]:
    • the row maximum: the lane maximum from the seed minus infinity, compared with the seed once more, recast as a column
      and spread across the 2048 lanes;
    • the exponentials of the differences;
    • the row sum of the exponentials, recast as a column and spread across the lanes;
    • the quotient, recast with a unit axis in front.
  Each block is named here and read at (r, k) in terms of the row r of S, given as a function s of the lane.
-/
import proofs.«134565_j22926535426539_1_alg».proof.Proof.PayLayers
import proofs.«134565_j22926535426539_1_alg».proof.Proof.Spec

noncomputable section

namespace Cert.PaySide

open Idealize.ShloMosaic Idealize.ShloMosaic.ValueIdx Cert.KernelIdeal Cert.KernelIdeal.Gen Cert.CellSpec

/-- The seed of the row maximum, as the body spells it, is the specification's word for minus infinity (the same word:
    nothing is evaluated). -/
theorem seed_eq : FloatOps.ofBits (F := Ideal) .f32 0xFF800000#32 = negInf := Ideal.ofBits_def _

/-- A lane maximum of a matrix from the seed minus infinity, read at row p: the fold of max over the row's entries. -/
theorem laneMax2_apply {a b : ℕ} (src : FVec Ideal ⟨2, ![a, b]⟩ .f32) (h : (⟨2, ![a, b]⟩ : Shape).Reduces [(1 : Fin 2)] ⟨1, ![a]⟩)
    (hφ : FKind.Formats .f32) (hacc : (0xFF800000#32 : BitVec 32) = FKind.maximumf.neutral .f32 hφ) (p : Fin a)
    (s : Fin b → EReal) (hs : ∀ k : Fin b, src (ix2 p k) = s k) :
    multiReduction (F := Ideal) .maximumf [(1 : Fin 2)] ⟨1, ![a]⟩ src 0xFF800000#32 h hφ hacc (ix1 p)
      = (Finset.univ : Finset (Fin b)).fold max negInf s := by
  refine (Ideal.multiReduction_maximumf_single src 0xFF800000#32 h hφ hacc (ix1 p)).trans ?_
  refine congrArg₂ (fun (z : EReal) (f : Fin b → EReal) => (Finset.univ : Finset (Fin b)).fold max z f) seed_eq
    (funext fun k => ?_)
  refine (congrArg src (funext fun d => Fin.ext ?_)).trans (hs k)
  rw [Shape.Reduces.lift_val]
  match d with
  | ⟨0, _⟩ => rfl
  | ⟨1, _⟩ => rfl

/-- The row maximum of S spread across the lanes. -/
def rowMaxBlock (S : FVec Ideal S512x2048 .f32) : FVec Ideal S512x2048 .f32 :=
  broadcastTo S512x2048
    (shapeCast S512x1
      (maximumf (broadcast S512 (Scalar.ofBits (F := Ideal) .f32 0xFF800000#32))
        (multiReduction (F := Ideal) .maximumf [1] S512 S 0xFF800000#32 reduces_S512x2048_S512 (.inl rfl) rfl))
      shapeCasts_S512_S512x1)
    broadcasts_S512x1_S512x2048

/-- The exponentials of S less its row maxima. -/
def expBlock (S : FVec Ideal S512x2048 .f32) : FVec Ideal S512x2048 .f32 := exp (subf S (rowMaxBlock S))

/-- The row sums of the exponentials spread across the lanes. -/
def denomBlock (S : FVec Ideal S512x2048 .f32) : FVec Ideal S512x2048 .f32 :=
  broadcastTo S512x2048
    (shapeCast S512x1
      (multiReduction (F := Ideal) .add [1] S512 (expBlock S) 0x00000000#32 reduces_S512x2048_S512 (.inl rfl) rfl)
      shapeCasts_S512_S512x1)
    broadcasts_S512x1_S512x2048

/-- The softmax of S with a unit axis in front. -/
def softmaxBlock (S : FVec Ideal S512x2048 .f32) : FVec Ideal S1x512x2048 .f32 :=
  shapeCast S1x512x2048 (divf (expBlock S) (denomBlock S)) shapeCasts_S512x2048_S1x512x2048

variable (S : FVec Ideal S512x2048 .f32) (r : Fin 512) (s : Fin 2048 → EReal) (hs : ∀ k : Fin 2048, S (ix2 r k) = s k)

include hs

theorem rowMaxBlock_apply (k : Fin 2048) :
    rowMaxBlock S (ix2 r k) = max negInf ((Finset.univ : Finset (Fin 2048)).fold max negInf s) := by
  unfold rowMaxBlock
  refine (Keepdims.broadcastTo_a1_ab_apply _ _ r k).trans ?_
  refine (Keepdims.shapeCast_a_a1_apply _ _ r (0 : Fin 1)).trans ?_
  refine (maximumf_apply _ _ (ix1 r)).trans ?_
  exact congrArg₂ max ((broadcast_apply _ (ix1 r)).trans seed_eq) (laneMax2_apply S _ _ _ r s hs)

theorem expBlock_apply (k : Fin 2048) :
    expBlock S (ix2 r k) = Ideal.exp (s k - max negInf ((Finset.univ : Finset (Fin 2048)).fold max negInf s)) := by
  unfold expBlock
  exact congrArg Ideal.exp (congrArg₂ (· - ·) (hs k) (rowMaxBlock_apply S r s hs k))

theorem denomBlock_apply (k : Fin 2048) :
    denomBlock S (ix2 r k)
      = ∑ k' : Fin 2048, Ideal.exp (s k' - max negInf ((Finset.univ : Finset (Fin 2048)).fold max negInf s)) := by
  unfold denomBlock
  refine (Keepdims.broadcastTo_a1_ab_apply _ _ r k).trans ?_
  refine (Keepdims.shapeCast_a_a1_apply _ _ r (0 : Fin 1)).trans ?_
  refine (Rank3Layout.laneSum2_apply (expBlock S) _ _ _ r).trans ?_
  exact Finset.sum_congr rfl fun k' _ => expBlock_apply S r s hs k'

theorem softmaxBlock_apply (k : Fin 2048) :
    softmaxBlock S (ix3 (0 : Fin 1) r k)
      = Ideal.div (Ideal.exp (s k - max negInf ((Finset.univ : Finset (Fin 2048)).fold max negInf s)))
          (∑ k' : Fin 2048, Ideal.exp (s k' - max negInf ((Finset.univ : Finset (Fin 2048)).fold max negInf s))) := by
  unfold softmaxBlock
  refine (weightsRecast_apply _ r k).trans ?_
  exact congrArg₂ Ideal.div (expBlock_apply S r s hs k) (denomBlock_apply S r s hs k)

end Cert.PaySide

end
-- ==== Proof.Pay5.lean ====
/-
  The attention weights of one tile, entry by entry: the stored block is, at (0, r, k), the specification's softmax
  entry probs(b, qi·512 + r, k), when the loaded tile holds rows qi·512 … qi·512 + 511 of batch b of the input and the
  scratch holds the projected keys of batch b.
    • The queries of the tile: the recast tile times the transposed query weights plus the bias — the projected entries
      of the input rows.
    • The scores: the queries times the transposed keys — the inner products of projected queries and projected keys.
    • The softmax of the score matrix, read row by row.
-/
import proofs.«134565_j22926535426539_1_alg».proof.Proof.PaySoftmax

noncomputable section

namespace Cert.PaySide

open Idealize.ShloMosaic Idealize.ShloMosaic.ValueIdx Cert.KernelIdeal Cert.KernelIdeal.Gen Cert.CellSpec

/-- The projected queries of a tile. -/
def queryBlock (v3 : FVec Ideal S1x512x256 .f32) (Wq : FVec Ideal S128x256 .f32) (bq : FVec Ideal S128 .f32) :
    FVec Ideal S512x128 .f32 :=
  addf (matmul dot_S512x256_S256x128_S512x128_1_0_0_1_n_n none (truncf .bf16 (k0_pay3 v3) bitsLt_bf16_f32)
          (transpose S256x128 [1, 0] (truncf .bf16 Wq bitsLt_bf16_f32) transposes_S128x256_p1_0_S256x128)
          (constant (F := Ideal) S512x128 .f32 0x00000000#32))
    (broadcastTo S512x128 (shapeCast S1x128 bq shapeCasts_S128_S1x128) broadcasts_S1x128_S512x128)

/-- The scores of a tile against the keys held in the scratch. -/
def scoreBlock (v3 : FVec Ideal S1x512x256 .f32) (Wq : FVec Ideal S128x256 .f32) (bq : FVec Ideal S128 .f32)
    (v16 : FVec Ideal S2048x128 .f32) : FVec Ideal S512x2048 .f32 :=
  matmul dot_S512x128_S128x2048_S512x2048_1_0_0_1_n_n none (truncf .bf16 (queryBlock v3 Wq bq) bitsLt_bf16_f32)
    (transpose S128x2048 [1, 0] (truncf .bf16 v16 bitsLt_bf16_f32) transposes_S2048x128_p1_0_S128x2048)
    (constant (F := Ideal) S512x2048 .f32 0x00000000#32)

/-- The stored block is the softmax of the tile's score matrix: the body's steps are exactly these blocks. -/
theorem pay5_eq_softmax (v3 : FVec Ideal S1x512x256 .f32) (Wq : FVec Ideal S128x256 .f32) (bq : FVec Ideal S128 .f32)
    (v16 : FVec Ideal S2048x128 .f32) :
    k0_pay5 (F := Ideal) v3 Wq bq v16 = softmaxBlock (scoreBlock v3 Wq bq v16) := rfl

section
variable (x pm : Seq) (Wq : ProjW) (bq : ProjB) (Wk : ProjW) (bk : ProjB) (bt : Fin 8) (qi : Fin 4)
  (v3 : Vec Ideal S1x512x256 .f32) (h3 : ∀ (r : Fin 512) (d : Fin 256), v3 (ix3 (0 : Fin 1) r d) = x (ix3 bt (tileRow qi r) d))
  (v16 : Vec Ideal S2048x128 .f32) (h16 : ∀ (n : Fin 2048) (c : Fin 128), v16 (ix2 n c) = proj pm Wk bk bt n c)

include h3 in
/-- The tile's queries are the projected entries of its input rows. -/
theorem queryBlock_apply (r : Fin 512) (c : Fin 128) :
    queryBlock v3 Wq bq (ix2 r c) = proj x Wq bq bt (tileRow qi r) c := by
  unfold queryBlock proj
  refine (queryLayer_apply _ Wq bq r c).trans ?_
  refine congrArg (· + bq (ix1 c)) (Finset.sum_congr rfl fun d _ => ?_)
  exact congrArg (· * Wq (ix2 c d)) ((tileRecast_apply v3 r d).trans (h3 r d))

include h3 h16 in
/-- The tile's scores are the specification's scores of its rows. -/
theorem scoreBlock_apply (r : Fin 512) (k : Fin 2048) :
    scoreBlock v3 Wq bq v16 (ix2 r k) = score x pm Wq bq Wk bk bt (tileRow qi r) k := by
  unfold scoreBlock score
  refine (scoreLayer_apply _ v16 r k).trans (Finset.sum_congr rfl fun c _ => ?_)
  exact congrArg₂ (· * ·) (queryBlock_apply x Wq bq bt qi v3 h3 r c) (h16 k c)

include h3 h16 in
/-- THE ATTENTION WEIGHTS OF A TILE are the specification's, entry by entry. -/
theorem pay5_apply (r : Fin 512) (k : Fin 2048) :
    k0_pay5 (F := Ideal) v3 Wq bq v16 (ix3 (0 : Fin 1) r k) = probs x pm Wq bq Wk bk bt (tileRow qi r) k := by
  refine (congrFun (pay5_eq_softmax v3 Wq bq v16) _).trans ?_
  unfold probs denom expo rowMax
  exact softmaxBlock_apply _ r (fun k' => score x pm Wq bq Wk bk bt (tileRow qi r) k')
    (fun k' => scoreBlock_apply x pm Wq bq Wk bk bt qi v3 h3 v16 h16 r k') k

end

end Cert.PaySide

end
-- ==== Proof.FinalProbs.lean ====
/-
  The attention-weights array after the run: THE ATTENTION WEIGHTS of the specification, as one function of the
  argument arrays.

  What point t writes back to the attention-weights array is the body's attention payload of the point's input tile,
  the query weights and bias, and the key scratch. Entry (0, r, k) of it is probs(t / 4, (t % 4) · 512 + r, k) of the
  argument arrays (the payload theorem, with the input tile read off the input array, the query blocks being their
  arrays, and the scratch holding the projected keys of batch t / 4), and the block of point t has block index
  (t / 4, t % 4, 0): point t writes back block t of the specification's array. The blocks of the 32 points tile the
  array, so the array ends holding the specification's array.
-/
import proofs.«134565_j22926535426539_1_alg».proof.Proof.FinalScratch
import proofs.«134565_j22926535426539_1_alg».proof.Proof.FinalCover
import proofs.«134565_j22926535426539_1_alg».proof.Proof.Pay5

noncomputable section

namespace Cert.KernelIdeal.Final

open Cert.KernelIdeal Cert.KernelIdeal.Gen Cert.KernelIdeal.Hand Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- THE ATTENTION WEIGHTS as one function of the argument arrays. -/
def wholeProbs (x pm : Seq) (Wq : ProjW) (bq : ProjB) (Wk : ProjW) (bk : ProjB) :
    S8x2048x2048.Idx → EReal := fun i => CellSpec.probs x pm Wq bq Wk bk (i 0) (i 1) (i 2)

/-- The attention payload at an entry, with the query weights and bias given up to equality (the query windows' blocks
    are their arrays). -/
theorem pay5_of_blocks (x pm : Seq) (Wq : ProjW) (bq : ProjB) (Wk : ProjW) (bk : ProjB) (bt : Fin 8) (qi : Fin 4)
    (v3 : Vec Ideal S1x512x256 .f32) (v8 : Vec Ideal S128x256 .f32) (v12 : Vec Ideal S128 .f32) (v16 : Vec Ideal S2048x128 .f32)
    (h8 : v8 = Wq) (h12 : v12 = bq)
    (h3 : ∀ (r : Fin 512) (d : Fin 256), v3 (ix3 (0 : Fin 1) r d) = x (ix3 bt (tileRow qi r) d))
    (h16 : ∀ (n : Fin 2048) (c : Fin 128), v16 (ix2 n c) = proj pm Wk bk bt n c)
    (r : Fin 512) (k : Fin 2048) :
    k0_pay5 (F := Ideal) v3 v8 v12 v16 (ix3 (0 : Fin 1) r k) = probs x pm Wq bq Wk bk bt (tileRow qi r) k := by
  subst h8 h12
  exact Cert.PaySide.pay5_apply x pm _ _ Wk bk bt qi v3 h3 v16 h16 r k

/-- WHAT POINT t WRITES BACK to the attention-weights array is block t of the specification's array. -/
theorem flushed_probs (c : Dev nD) (t : Fin cfg0.N) :
    (dats m 0 c).flushed 14 t = ((cfg0.win 14).blk t).view.read (Elt Ideal)
      (wholeProbs (argX m c) (argPm m c) (argWq m c) (argBq m c) (argWk m c) (argBk m c)) := by
  show (cfg0.win 14).cut (grid0.coords t) ((dats m 0 c).after 14 t) = _
  rw [after_14]
  funext j
  rw [View.read_apply]
  obtain ⟨e0, e1, e2⟩ := Cover.idx_probs t
  have hj0 : (j 0).val < 1 := (j 0).isLt
  have hj1 : (j 1).val < 512 := (j 1).isLt
  have hj2 : (j 2).val < 2048 := (j 2).isLt
  have hl : (cfg0.win 14).xinj (grid0.coords t) j = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  have hi : ((cfg0.win 14).blk t).view.emb j
      = ix3 (batchOf t) (tileRow (tileOf t) ⟨(j 1).val, hj1⟩) (⟨(j 2).val, hj2⟩ : Fin 2048) :=
    funext fun a => Fin.ext (by
      match a with
      | ⟨0, _⟩ => show win0_14.index t 0 * 1 + 1 * (j 0).val = t.val / 4; rw [e0]; omega
      | ⟨1, _⟩ => show win0_14.index t 1 * 512 + 1 * (j 1).val = t.val % 4 * 512 + (j 1).val; rw [e1]; omega
      | ⟨2, _⟩ => show win0_14.index t 2 * 2048 + 1 * (j 2).val = (j 2).val; rw [e2]; omega)
  show k0_pay5 (F := Ideal) _ _ _ _ ((cfg0.win 14).xinj (grid0.coords t) j)
    = wholeProbs _ _ _ _ _ _ (((cfg0.win 14).blk t).view.emb j)
  rw [hl, hi]
  exact pay5_of_blocks (argX m c) (argPm m c) (argWq m c) (argBq m c) (argWk m c) (argBk m c) (batchOf t) (tileOf t)
    (iblk m c 0 t) (iblk m c 3 t) (iblk m c 4 t) (scrAt m c t.val t.isLt)
    (queryWeights_block m c t) (queryBias_block m c t)
    (fun r d => inputTile_apply m c t r d) (fun n k => scratch_at m c t n k) _ _

/-- THE ATTENTION-WEIGHTS ARRAY AFTER THE RUN is the specification's attention weights of the argument arrays. -/
theorem final_probs (c : Dev nD) :
    (dats m 0 c).arrAt 14 cfg0.N
      = wholeProbs (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (dats m 0 c).arrAt_eq_of_cover 14 _ (fun t _ => flushed_probs m c t) Cover.covered_probs

end Cert.KernelIdeal.Final

end
-- ==== Proof.lean ====
/-
  The attention-gated memory update: the kernel against its reference.

  The kernel computes, for each batch and each tile of 512 query rows, the attention weights of the tile's rows over all
  2048 key rows and the tile's new memory; the key block of a batch (the previous memory projected by the key weights)
  is computed once, at the batch's first tile, kept in a scratch buffer and reused by the batch's other three tiles. The
  reference computes the same two arrays whole. On the extended reals, where a float is an exact extended real, every
  operation is exact and a change of float format is the identity, both are the same arrangement of sums, entry by
  entry: a projected entry is an inner product plus a bias; a score is an inner product of a projected query row with
  a projected key row; the weights are the softmax of a row of scores, computed through the row's maximum; a gate is
  the logistic function of a layer of the row's 512 joined features, the candidate the hyperbolic tangent of one, and
  the new memory (1 - u) * pm + u * c. The one difference of spelling is the logistic function, which the reference
  writes out as 1 / (1 + e^(-z)). No law that needs finiteness is used, so the precondition is never opened.

  The frames: each kernel program is its one region; its frame is the region's run with a tracked scratch invariant,
  the previous-memory buffer's share dealt in halves to the two windows that read it. The reference is a straight line of
  host operations; its frame is its run with the results dropped. Nothing was rewritten by the idealizing pass, so the
  kernel's idealization is the same text read at the extended reals.
-/
import proofs.«134565_j22926535426539_1_alg».proof.Defs
import proofs.«134565_j22926535426539_1_alg».proof.Proof.Gen.Kernel
import proofs.«134565_j22926535426539_1_alg».proof.Proof.Gen.KernelIdeal
import proofs.«134565_j22926535426539_1_alg».proof.Proof.Gen.ReferenceIdeal
import proofs.«134565_j22926535426539_1_alg».proof.Proof.Gen.Pre_finite_inputs
import proofs.«134565_j22926535426539_1_alg».proof.Proof.FrameW
import proofs.«134565_j22926535426539_1_alg».proof.Proof.FrameI
import proofs.«134565_j22926535426539_1_alg».proof.Proof.RefRun
import proofs.«134565_j22926535426539_1_alg».proof.Proof.RefValue
import proofs.«134565_j22926535426539_1_alg».proof.Proof.FinalNew
import proofs.«134565_j22926535426539_1_alg».proof.Proof.FinalProbs
import Idealize.ShloMosaic.Adequacy
import Idealize.ShloMosaic.Init

noncomputable section

namespace Cert.Proof

open Idealize.ShloMosaic Idealize.ShloMosaic.TcCoe Idealize.SL.Sem Idealize.ShloMosaic.ValueIdx

/-! ## The three frames -/

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.RefSide.run m ρ)

/-! ## The kernel's run, with its two result arrays named -/

/-- The kernel's frame run read at its results: the new-memory array and the attention-weights array end at the two
    whole-array functions of the arguments (each is covered by the tiles the grid's points write back, and what a point
    writes back is its tile of the function), and the arguments end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0_0) = Cert.KernelIdeal.Final.wholeNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v0_1) = Cert.KernelIdeal.Final.wholeProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run (Cert.KernelIdeal.defs (F := Ideal)) _ _).mono (fun _ h c => ⟨
      ((h c).1 13).trans (Cert.KernelIdeal.Final.final_new m c),
      ((h c).1 14).trans (Cert.KernelIdeal.Final.final_probs m c),
      ((h c).1 0).trans (((Cert.KernelIdeal.Hand.dats m 0 c).arrAt_in 0 rfl _).trans (Cert.KernelIdeal.Hand.A_eq m c 0)),
      ((h c).1 1).trans (((Cert.KernelIdeal.Hand.dats m 0 c).arrAt_in 1 rfl _).trans (Cert.KernelIdeal.Hand.A_eq m c 1)),
      ((h c).1 3).trans (((Cert.KernelIdeal.Hand.dats m 0 c).arrAt_in 3 rfl _).trans (Cert.KernelIdeal.Hand.A_eq m c 3)),
      ((h c).1 4).trans (((Cert.KernelIdeal.Hand.dats m 0 c).arrAt_in 4 rfl _).trans (Cert.KernelIdeal.Hand.A_eq m c 4)),
      ((h c).1 5).trans (((Cert.KernelIdeal.Hand.dats m 0 c).arrAt_in 5 rfl _).trans (Cert.KernelIdeal.Hand.A_eq m c 5)),
      ((h c).1 6).trans (((Cert.KernelIdeal.Hand.dats m 0 c).arrAt_in 6 rfl _).trans (Cert.KernelIdeal.Hand.A_eq m c 6)),
      (h c).2 Cert.KernelIdeal.main_arg6 (by decide),
      (h c).2 Cert.KernelIdeal.main_arg7 (by decide),
      ((h c).1 7).trans (((Cert.KernelIdeal.Hand.dats m 0 c).arrAt_in 7 rfl _).trans (Cert.KernelIdeal.Hand.A_eq m c 7)),
      ((h c).1 8).trans (((Cert.KernelIdeal.Hand.dats m 0 c).arrAt_in 8 rfl _).trans (Cert.KernelIdeal.Hand.A_eq m c 8)),
      ((h c).1 9).trans (((Cert.KernelIdeal.Hand.dats m 0 c).arrAt_in 9 rfl _).trans (Cert.KernelIdeal.Hand.A_eq m c 9)),
      ((h c).1 10).trans (((Cert.KernelIdeal.Hand.dats m 0 c).arrAt_in 10 rfl _).trans (Cert.KernelIdeal.Hand.A_eq m c 10)),
      ((h c).1 11).trans (((Cert.KernelIdeal.Hand.dats m 0 c).arrAt_in 11 rfl _).trans (Cert.KernelIdeal.Hand.A_eq m c 11)),
      ((h c).1 12).trans (((Cert.KernelIdeal.Hand.dats m 0 c).arrAt_in 12 rfl _).trans (Cert.KernelIdeal.Hand.A_eq m c 12))⟩) (Cert.KernelIdeal.Hand.run_main (F := Ideal) m ρ)

/-! ## The two idealized programs compute the same two arrays -/

/-- From memories that agree on the arguments: the kernel's result arrays end at the two whole-array functions of the
    arguments (the run above), and the reference's at its own stages, which are those functions entry by entry; the
    arguments' agreement carries one to the other. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.wholeNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), fun c => Cert.KernelIdeal.Final.wholeProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), kernel_run m ρ, ?_⟩
  refine (θ_run (Cert.ReferenceIdeal.defs (F := Ideal)) _ _).mono (fun _ h c => ?_) (Cert.RefSide.run m' ρ')
  obtain ⟨a0, a1, a2, a3, a4, a5, a6, a7, a8, a9, a10, a11, a12, a13⟩ := hagree c
  refine ⟨?_, ?_, (h c).2.2⟩
  · rw [(h c).1, a0, a1, a8, a9, a10, a11, a12, a13]
    exact Cert.RefSide.refNewMemory_ext _ _ _ _ _ _ _ _ _ (fun bt n k => rfl)
  · rw [(h c).2.1, a0, a1, a2, a3, a4, a5]
    exact Cert.RefSide.refProbs_ext _ _ _ _ _ _ _ (fun bt q k => rfl)

/-! ## The claim -/

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
